-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S1000000x64 : Shape := ⟨2, ![1000000, 64]⟩
abbrev S1000000x2 : Shape := ⟨2, ![1000000, 2]⟩
abbrev S1000000 : Shape := ⟨1, ![1000000]⟩
abbrev S128x192 : Shape := ⟨2, ![128, 192]⟩
abbrev S1x64 : Shape := ⟨2, ![1, 64]⟩
abbrev S128 : Shape := ⟨1, ![128]⟩
abbrev S64 : Shape := ⟨1, ![64]⟩
abbrev S32x64 : Shape := ⟨2, ![32, 64]⟩
abbrev S32 : Shape := ⟨1, ![32]⟩
abbrev S64x32 : Shape := ⟨2, ![64, 32]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S128x192 : S_.BroadcastsInDim S128x192 (![] : Fin 0 → Fin S128x192.rank)
  reducesTo_S128x192_S_d0_1 : S128x192.ReducesTo [0, 1] S_
  bcast_S_S1x64 : S_.BroadcastsInDim S1x64 (![] : Fin 0 → Fin S1x64.rank)
  reducesTo_S1x64_S_d0_1 : S1x64.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_

variable [Facts]

def fn_part4 {F : FTy → Type} [FloatOps F] (main_arg16 : FVec F S64x32 .f32) (main_arg17 : FVec F S64 .f32) (main_v63 : IVec S_ 1) (main_v67 : IVec S_ 1) : IVec S_ 1 :=
  let main_v68 : IVec S_ 1 := andi main_v63 main_v67
  let main_v69 : FVec F S64x32 .f32 := Host.absf main_arg16
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S64 .f32) (main_arg14 : FVec F S32x64 .f32) (main_arg15 : FVec F S32 .f32) (main_arg16 : FVec F S64x32 .f32) (main_arg17 : FVec F S64 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S32x64 .f32 := Host.absf main_arg14
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg16 main_arg17 main_v63 main_v67

def fn_part2 {F : FTy → Type} [FloatOps F] (main_arg9 : FVec F S64 .f32) (main_arg10 : FVec F S32x64 .f32) (main_arg11 : FVec F S32 .f32) (main_arg12 : FVec F S64x32 .f32) (main_arg13 : FVec F S64 .f32) (main_arg14 : FVec F S32x64 .f32) (main_arg15 : FVec F S32 .f32) (main_arg16 : FVec F S64x32 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_arg16 main_arg17 main_v48 main_v49 main_v50

def fn_part1 {F : FTy → Type} [FloatOps F] (main_arg6 : FVec F S128 .f32) (main_arg7 : FVec F S128 .f32) (main_arg8 : FVec F S64 .f32) (main_arg9 : FVec F S64 .f32) (main_arg10 : FVec F S32x64 .f32) (main_arg11 : FVec F S32 .f32) (main_arg12 : FVec F S64x32 .f32) (main_arg13 : FVec F S64 .f32) (main_arg14 : FVec F S32x64 .f32) (main_arg15 : FVec F S32 .f32) (main_arg16 : FVec F S64x32 .f32) (main_arg17 : FVec F S64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S400000x64 .f32) (main_arg1 : FVec F S1000000x64 .f32) (main_arg2 : IVec S1000000x2 32) (main_arg3 : IVec S1000000 32) (main_arg4 : FVec F S128x192 .f32) (main_arg5 : FVec F S1x64 .f32) (main_arg6 : FVec F S128 .f32) (main_arg7 : FVec F S128 .f32) (main_arg8 : FVec F S64 .f32) (main_arg9 : FVec F S64 .f32) (main_arg10 : FVec F S32x64 .f32) (main_arg11 : FVec F S32 .f32) (main_arg12 : FVec F S64x32 .f32) (main_arg13 : FVec F S64 .f32) (main_arg14 : FVec F S32x64 .f32) (main_arg15 : FVec F S32 .f32) (main_arg16 : FVec F S64x32 .f32) (main_arg17 : FVec F S64 .f32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S128x192 .f32 := Host.absf main_arg4
  let main_cst_2 : FVec F S_ .f32 := constant S_ .f32 0x7F800000#32
  let main_v10 : FVec F S128x192 .f32 := broadcastInDim S128x192 ![] bcast_S_S128x192 main_cst_2
  let main_v11 : IVec S128x192 1 := cmpf .olt main_v9 main_v10
  let main_c_3 : IVec S_ 1 := constantI S_ 1 1#1
  let main_v12 : IVec S_ 1 := (fun x v => Host.reduce IntOp.andi x v reducesTo_S128x192_S_d0_1 h_S_) main_v11 main_c_3
  let main_v13 : IVec S_ 1 := andi main_v8 main_v12
  let main_v14 : FVec F S1x64 .f32 := Host.absf main_arg5
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S400000x64 : Shape := ⟨2, ![400000, 64]⟩
abbrev S1000000x64 : Shape := ⟨2, ![1000000, 64]⟩
abbrev S1000000x2 : Shape := ⟨2, ![1000000, 2]⟩
abbrev S1000000 : Shape := ⟨1, ![1000000]⟩
abbrev S128x192 : Shape := ⟨2, ![128, 192]⟩
abbrev S1x64 : Shape := ⟨2, ![1, 64]⟩
abbrev S128 : Shape := ⟨1, ![128]⟩
abbrev S64 : Shape := ⟨1, ![64]⟩
abbrev S32x64 : Shape := ⟨2, ![32, 64]⟩
abbrev S32 : Shape := ⟨1, ![32]⟩
abbrev S64x32 : Shape := ⟨2, ![64, 32]⟩
abbrev S_ : Shape := ⟨0, ![]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S192x128 : Shape := ⟨2, ![192, 128]⟩
abbrev S64x128 : Shape := ⟨2, ![64, 128]⟩
abbrev S128x128 : Shape := ⟨2, ![128, 128]⟩
abbrev S8000x64 : Shape := ⟨2, ![8000, 64]⟩
abbrev S8000x128 : Shape := ⟨2, ![8000, 128]⟩
abbrev S1000000x1 : Shape := ⟨2, ![1000000, 1]⟩
abbrev S2048x1 : Shape := ⟨2, ![2048, 1]⟩
abbrev S2048x128 : Shape := ⟨2, ![2048, 128]⟩
abbrev S1x128 : Shape := ⟨2, ![1, 128]⟩
abbrev S8000 : Shape := ⟨1, ![8000]⟩
abbrev S8000x1 : Shape := ⟨2, ![8000, 1]⟩
abbrev S2048x64 : Shape := ⟨2, ![2048, 64]⟩
abbrev S1x32 : Shape := ⟨2, ![1, 32]⟩
abbrev S8000x32 : Shape := ⟨2, ![8000, 32]⟩

abbrev nBuf : Space → Nat
  | .hbm => 169
  | .vmem => 27
  | .smem => 0
  | _ => 0

abbrev hbmTy0_0 (i : Nat) : BufTy := match i % 128 with
  | 0 => ⟨S400000x64, .f32⟩
  | 1 => ⟨S1000000x64, .f32⟩
  | 2 => ⟨S1000000x2, .i32⟩
  | 3 => ⟨S1000000, .i32⟩
  | 4 => ⟨S128x192, .f32⟩
  | 5 => ⟨S1x64, .f32⟩
  | 6 => ⟨S128, .f32⟩
  | 7 => ⟨S128, .f32⟩
  | 8 => ⟨S64, .f32⟩
  | 9 => ⟨S64, .f32⟩
  | 10 => ⟨S32x64, .f32⟩
  | 11 => ⟨S32, .f32⟩
  | 12 => ⟨S64x32, .f32⟩
  | 13 => ⟨S64, .f32⟩
  | 14 => ⟨S32x64, .f32⟩
  | 15 => ⟨S32, .f32⟩
  | 16 => ⟨S64x32, .f32⟩
  | 17 => ⟨S64, .f32⟩
  | 18 => ⟨S400000x64, .bf16⟩
  | 19 => ⟨S_, .i32⟩
  | 20 => ⟨S1000000x2, .i32⟩
  | 21 => ⟨S1000000x2, .i1⟩
  | 22 => ⟨S_, .i32⟩
  | 23 => ⟨S1000000x2, .i32⟩
  | 24 => ⟨S1000000x2, .i32⟩
  | 25 => ⟨S1000000x2, .i32⟩
  | 26 => ⟨S1000000x2x1, .i32⟩
  | 27 => ⟨S1000000x2x64, .bf16⟩
  | 28 => ⟨S1000000x128, .bf16⟩
  | 29 => ⟨S192x128, .f32⟩
  | 30 => ⟨S64x128, .f32⟩
  | 31 => ⟨S128x128, .f32⟩
  | 32 => ⟨S1000000x128, .f32⟩
  | 33 => ⟨S_, .f32⟩
  | 34 => ⟨S1000000x1, .f32⟩
  | 35 => ⟨S_, .f32⟩
  | 36 => ⟨S2048x1, .f32⟩
  | 37 => ⟨S1000000x1, .i32⟩
  | 38 => ⟨S2048x1, .f32⟩
  | 39 => ⟨S_, .f32⟩
  | 40 => ⟨S2048x1, .f32⟩
  | 41 => ⟨S2048x1, .f32⟩
  | 42 => ⟨S_, .f32⟩
  | 43 => ⟨S2048x128, .f32⟩
  | 44 => ⟨S1000000x1, .i32⟩
  | 45 => ⟨S2048x128, .f32⟩
  | 46 => ⟨S2048x128, .f32⟩
  | 47 => ⟨S2048x128, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x128, .f32⟩
  | 57 => ⟨S1000000x128, .f32⟩
  | 58 => ⟨S1000000x128, .f32⟩
  | 59 => ⟨S_, .f32⟩
  | 60 => ⟨S2048x128, .f32⟩
  | 61 => ⟨S1000000x1, .i32⟩
  | 62 => ⟨S2048x128, .f32⟩
  | 63 => ⟨S2048x128, .f32⟩
  | 64 => ⟨S2048x128, .f32⟩
  | 65 => ⟨S_, .f32⟩
  | 66 => ⟨S2048x128, .f32⟩
  | 67 => ⟨S2048x128, .f32⟩
  | 68 => ⟨S2048x128, .f32⟩
  | 69 => ⟨S1x128, .f32⟩
  | 70 => ⟨S2048x128, .f32⟩
  | 71 => ⟨S2048x128, .f32⟩
  | 72 => ⟨S2048x128, .f32⟩
  | 73 => ⟨S1x128, .f32⟩
  | 74 => ⟨S2048x128, .f32⟩
  | 75 => ⟨S2048x128, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x128, .f32⟩
  | 85 => ⟨S1000000x128, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x128, .f32⟩
  | 95 => ⟨S1000000x128, .f32⟩
  | 96 => ⟨S1000000x64, .f32⟩
  | 97 => ⟨S_, .f32⟩
  | 98 => ⟨S1000000x1, .f32⟩
  | 99 => ⟨S_, .f32⟩
  | 100 => ⟨S2048x1, .f32⟩
  | 101 => ⟨S1000000x1, .i32⟩
  | 102 => ⟨S2048x1, .f32⟩
  | 103 => ⟨S_, .f32⟩
  | 104 => ⟨S2048x1, .f32⟩
  | 105 => ⟨S2048x1, .f32⟩
  | 106 => ⟨S_, .f32⟩
  | 107 => ⟨S2048x64, .f32⟩
  | 108 => ⟨S1000000x1, .i32⟩
  | 109 => ⟨S2048x64, .f32⟩
  | 110 => ⟨S2048x64, .f32⟩
  | 111 => ⟨S2048x64, .f32⟩
  | 112 => ⟨S_, .i32⟩
  | 113 => ⟨S1000000, .i32⟩
  | 114 => ⟨S1000000, .i1⟩
  | 115 => ⟨S_, .i32⟩
  | 116 => ⟨S1000000, .i32⟩
  | 117 => ⟨S1000000, .i32⟩
  | 118 => ⟨S1000000, .i32⟩
  | 119 => ⟨S1000000x1, .i32⟩
  | 120 => ⟨S1000000x64, .f32⟩
  | 121 => ⟨S1000000x64, .f32⟩
  | 122 => ⟨S1000000x64, .f32⟩
  | 123 => ⟨S_, .f32⟩
  | 124 => ⟨S2048x64, .f32⟩
  | 125 => ⟨S1000000x1, .i32⟩
  | 126 => ⟨S2048x64, .f32⟩
  | 127 => ⟨S2048x64, .f32⟩
  | _ => ⟨S400000x64, .f32⟩

abbrev hbmTy0_1 (i : Nat) : BufTy := match i % 128 with
  | 0 => ⟨S2048x64, .f32⟩
  | 1 => ⟨S_, .f32⟩
  | 2 => ⟨S2048x64, .f32⟩
  | 3 => ⟨S2048x64, .f32⟩
  | 4 => ⟨S2048x64, .f32⟩
  | 5 => ⟨S1x64, .f32⟩
  | 6 => ⟨S2048x64, .f32⟩
  | 7 => ⟨S2048x64, .f32⟩
  | 8 => ⟨S2048x64, .f32⟩
  | 9 => ⟨S1x64, .f32⟩
  | 10 => ⟨S2048x64, .f32⟩
  | 11 => ⟨S2048x64, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x64, .f32⟩
  | 21 => ⟨S1000000x64, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S1000000x64, .f32⟩
  | 32 => ⟨S64x32, .f32⟩
  | 33 => ⟨S32x64, .f32⟩
  | 34 => ⟨S64x32, .f32⟩
  | 35 => ⟨S32x64, .f32⟩
  | 36 => ⟨S1x32, .f32⟩
  | 37 => ⟨S1x64, .f32⟩
  | 38 => ⟨S1x32, .f32⟩
  | 39 => ⟨S1x64, .f32⟩
  | 40 => ⟨S1000000x64, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x128, .bf16⟩
  | .local _ .vmem, ⟨3, _⟩ => ⟨S8000x128, .bf16⟩
  | .local _ .vmem, ⟨4, _⟩ => ⟨S64x128, .f32⟩
  | .local _ .vmem, ⟨5, _⟩ => ⟨S128x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S1x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S64x32, .f32⟩
  | .local _ .vmem, ⟨18, _⟩ => ⟨S1x32, .f32⟩
  | .local _ .vmem, ⟨19, _⟩ => ⟨S32x64, .f32⟩
  | .local _ .vmem, ⟨20, _⟩ => ⟨S1x64, .f32⟩
  | .local _ .vmem, ⟨21, _⟩ => ⟨S64x32, .f32⟩
  | .local _ .vmem, ⟨22, _⟩ => ⟨S1x32, .f32⟩
  | .local _ .vmem, ⟨23, _⟩ => ⟨S32x64, .f32⟩
  | .local _ .vmem, ⟨24, _⟩ => ⟨S1x64, .f32⟩
  | .local _ .vmem, ⟨25, _⟩ => ⟨S8000x64, .f32⟩
  | .local _ .vmem, ⟨26, _⟩ => ⟨S8000x64, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_8 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_16 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_20 : Ref sig .tc := ⟨.hbm, 140, rfl⟩
abbrev main_v100 : Ref sig .tc := ⟨.hbm, 141, rfl⟩
abbrev main_v101 : Ref sig .tc := ⟨.hbm, 142, rfl⟩
abbrev main_c_21 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_22 : Ref sig .tc := ⟨.hbm, 150, rfl⟩
abbrev main_v108 : Ref sig .tc := ⟨.hbm, 151, rfl⟩
abbrev main_v109 : Ref sig .tc := ⟨.hbm, 152, rfl⟩
abbrev main_c_23 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg10_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem10_1 : DmaSem sig := 26

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S8000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  bitsLt_bf16_f32 : FTy.bits .bf16 < FTy.bits .f32
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  transposes_S128x192_S192x128_1_0 : S128x192.Transposes [1, 0] S192x128
  slices_S192x128_S64x128_0_0 : S192x128.Slices ![0, 0] S64x128
  slices_S192x128_S128x128_64_0 : S192x128.Slices ![64, 0] S128x128
  inb_S8000x64_S8000x64_0_0 : ∀ a, (![0, 0] : Fin 2 → Nat) a + S8000x64.size a ≤ S8000x64.size a
  h_S8000x64 : 0 < S8000x64.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1000000x1 : S_.BroadcastsInDim S1000000x1 (![] : Fin 0 → Fin S1000000x1.rank)
  bcast_S_S2048x1 : S_.BroadcastsInDim S2048x1 (![] : Fin 0 → Fin S2048x1.rank)
  bcast_S1000000_S1000000x1_0 : S1000000.BroadcastsInDim S1000000x1 (![0] : Fin 1 → Fin S1000000x1.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  bcast_S_S1000000 : S_.BroadcastsInDim S1000000 (![] : Fin 0 → Fin S1000000.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  slices_S8000x128_o0_0_S8000x64 : S8000x128.Slices ![0, 0] S8000x64
  slices_S8000x128_o0_64_S8000x64 : S8000x128.Slices ![0, 64] S8000x64
  inb_S1x64_S1x64_0_0 : ∀ a, (![0, 0] : Fin 2 → Nat) a + S1x64.size a ≤ S1x64.size a
  h_S1x64 : 0 < S1x64.numel
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  bcast_S_S2048x64 : S_.BroadcastsInDim S2048x64 (![] : Fin 0 → Fin S2048x64.rank)
  bcast_S2048x1_S2048x64_0_1 : S2048x1.BroadcastsInDim S2048x64 (![0, 1] : Fin 2 → Fin S2048x64.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  transposes_S32x64_S64x32_1_0 : S32x64.Transposes [1, 0] S64x32
  transposes_S64x32_S32x64_1_0 : S64x32.Transposes [1, 0] S32x64
  shapeCasts_S32_S1x32 : S32.ShapeCasts S1x32
  shapeCasts_S64_S1x64 : S64.ShapeCasts S1x64
  shapeCasts_S8000x64_S8000x64 : S8000x64.ShapeCasts S8000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  shapeCasts_S1x64_S1x64 : S1x64.ShapeCasts S1x64
  gather_S400000x64_S1000000x2x1_S1000000x2x64_2_0_n_n_0_2_164_wf : GatherDims.WF S400000x64 S1000000x2x1 S1000000x2x64 [2] [0] [] [0] [] 2 ![1, 64]
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  scatter_S2048x1_S1000000x1_S1000000x1_1_0_0_1_wf : ScatterDims.WF S2048x1 S1000000x1 S1000000x1 [1] [0] [0] 1
  scatter_S2048x128_S1000000x1_S1000000x128_1_0_0_1_wf : ScatterDims.WF S2048x128 S1000000x1 S1000000x128 [1] [0] [0] 1
  gather_S2048x128_S1000000x1_S1000000x128_1_0_n_n_0_1_1128_wf : GatherDims.WF S2048x128 S1000000x1 S1000000x128 [1] [0] [] [0] [] 1 ![1, 128]
  scatter_S2048x64_S1000000x1_S1000000x64_1_0_0_1_wf : ScatterDims.WF S2048x64 S1000000x1 S1000000x64 [1] [0] [0] 1
  gather_S2048x64_S1000000x1_S1000000x64_1_0_n_n_0_1_164_wf : GatherDims.WF S2048x64 S1000000x1 S1000000x64 [1] [0] [] [0] [] 1 ![1, 64]
  dot_S8000x64_S64x32_S8000x32_1_0_0_1_n_n_wf : DotDims.WF S8000x64 S64x32 S8000x32 [1] [0] [0] [1] [] []
  dot_S8000x32_S32x64_S8000x64_1_0_0_1_n_n_wf : DotDims.WF S8000x32 S32x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .bf16 = 32 ∨ (Rect.block (s := S1000000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S1000000x128.size a
  hwx0_4 : ∀ i : grid0.Coords, EltTy.bits .f32 = 32 ∨ (Rect.block (s := S1000000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1000000x128.size a
  hwx1_0 : ∀ i : grid1.Coords, EltTy.bits .f32 = 32 ∨ (Rect.block (s := S1000000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1000000x64.size a
  hwx1_2 : ∀ i : grid1.Coords, EltTy.bits .f32 = 32 ∨ (Rect.block (s := S1000000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1000000x64.size a
  hwx2_0 : ∀ i : grid2.Coords, EltTy.bits .f32 = 32 ∨ (Rect.block (s := S1000000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1000000x64.size a
  hwx2_1 : ∀ i : grid2.Coords, EltTy.bits .f32 = 32 ∨ (Rect.block (s := S1000000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x32.size a ≤ S64x32.size a
  hwx2_6 : ∀ i : grid2.Coords, EltTy.bits .f32 = 32 ∨ (Rect.block (s := S64x32) S64x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x64.size a ≤ S32x64.size a
  hwx2_8 : ∀ i : grid2.Coords, EltTy.bits .f32 = 32 ∨ (Rect.block (s := S32x64) S32x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S8000x64.size a ≤ S1000000x64.size a
  hwx2_10 : ∀ i : grid2.Coords, EltTy.bits .f32 = 32 ∨ (Rect.block (s := S1000000x64) S8000x64.size (cc2_transform_10 i) (hinb2_10 i)).WholeWords (EltTy.packing .f32)

variable [Facts₀]

def gather_S400000x64_S1000000x2x1_S1000000x2x64_2_0_n_n_0_2_164 : GatherDims S400000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S400000x64_S1000000x2x1_S1000000x2x64_2_0_n_n_0_2_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S2048x1_S1000000x1_S1000000x1_1_0_0_1 : ScatterDims S2048x1 S1000000x1 S1000000x1 where
  updateWindowDims := [1]
  insertedWindowDims := [0]
  scatterDimsToOperandDims := [0]
  indexVectorDim := 1
  wf := scatter_S2048x1_S1000000x1_S1000000x1_1_0_0_1_wf
def scatter_S2048x128_S1000000x1_S1000000x128_1_0_0_1 : ScatterDims S2048x128 S1000000x1 S1000000x128 where
  updateWindowDims := [1]
  insertedWindowDims := [0]
  scatterDimsToOperandDims := [0]
  indexVectorDim := 1
  wf := scatter_S2048x128_S1000000x1_S1000000x128_1_0_0_1_wf
def gather_S2048x128_S1000000x1_S1000000x128_1_0_n_n_0_1_1128 : GatherDims S2048x128 S1000000x1 S1000000x128 where
  offsetDims := [1]
  collapsedSliceDims := [0]
  operandBatchingDims := []
  startIndicesBatchingDims := []
  startIndexMap := [0]
  indexVectorDim := 1
  sliceSizes := ![1, 128]
  wf := gather_S2048x128_S1000000x1_S1000000x128_1_0_n_n_0_1_1128_wf
def scatter_S2048x64_S1000000x1_S1000000x64_1_0_0_1 : ScatterDims S2048x64 S1000000x1 S1000000x64 where
  updateWindowDims := [1]
  insertedWindowDims := [0]
  scatterDimsToOperandDims := [0]
  indexVectorDim := 1
  wf := scatter_S2048x64_S1000000x1_S1000000x64_1_0_0_1_wf
def gather_S2048x64_S1000000x1_S1000000x64_1_0_n_n_0_1_164 : GatherDims S2048x64 S1000000x1 S1000000x64 where
  offsetDims := [1]
  collapsedSliceDims := [0]
  operandBatchingDims := []
  startIndicesBatchingDims := []
  startIndexMap := [0]
  indexVectorDim := 1
  sliceSizes := ![1, 64]
  wf := gather_S2048x64_S1000000x1_S1000000x64_1_0_n_n_0_1_164_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v63) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v115) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v116) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v120) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v121) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v118) S64x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v122) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v119) S32x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v123) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v124) S8000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S400000x64 : Shape := ⟨2, ![400000, 64]⟩
abbrev S1000000x64 : Shape := ⟨2, ![1000000, 64]⟩
abbrev S1000000x2 : Shape := ⟨2, ![1000000, 2]⟩
abbrev S1000000 : Shape := ⟨1, ![1000000]⟩
abbrev S128x192 : Shape := ⟨2, ![128, 192]⟩
abbrev S1x64 : Shape := ⟨2, ![1, 64]⟩
abbrev S128 : Shape := ⟨1, ![128]⟩
abbrev S64 : Shape := ⟨1, ![64]⟩
abbrev S32x64 : Shape := ⟨2, ![32, 64]⟩
abbrev S32 : Shape := ⟨1, ![32]⟩
abbrev S64x32 : Shape := ⟨2, ![64, 32]⟩
abbrev S_ : Shape := ⟨0, ![]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S1000000x192 : Shape := ⟨2, ![1000000, 192]⟩
abbrev S192x128 : Shape := ⟨2, ![192, 128]⟩
abbrev S1000000x1 : Shape := ⟨2, ![1000000, 1]⟩
abbrev S2048x1 : Shape := ⟨2, ![2048, 1]⟩
abbrev S2048x128 : Shape := ⟨2, ![2048, 128]⟩
abbrev S1x128 : Shape := ⟨2, ![1, 128]⟩
abbrev S64x1 : Shape := ⟨2, ![64, 1]⟩
abbrev S2048x64 : Shape := ⟨2, ![2048, 64]⟩
abbrev S1000000x32 : Shape := ⟨2, ![1000000, 32]⟩
abbrev S1x32 : Shape := ⟨2, ![1, 32]⟩

abbrev nBuf : Space → Nat
  | .hbm => 180
  | .vmem => 0
  | .smem => 0
  | _ => 0

abbrev hbmTy0_0 (i : Nat) : BufTy := match i % 128 with
  | 0 => ⟨S400000x64, .f32⟩
  | 1 => ⟨S1000000x64, .f32⟩
  | 2 => ⟨S1000000x2, .i32⟩
  | 3 => ⟨S1000000, .i32⟩
  | 4 => ⟨S128x192, .f32⟩
  | 5 => ⟨S1x64, .f32⟩
  | 6 => ⟨S128, .f32⟩
  | 7 => ⟨S128, .f32⟩
  | 8 => ⟨S64, .f32⟩
  | 9 => ⟨S64, .f32⟩
  | 10 => ⟨S32x64, .f32⟩
  | 11 => ⟨S32, .f32⟩
  | 12 => ⟨S64x32, .f32⟩
  | 13 => ⟨S64, .f32⟩
  | 14 => ⟨S32x64, .f32⟩
  | 15 => ⟨S32, .f32⟩
  | 16 => ⟨S64x32, .f32⟩
  | 17 => ⟨S64, .f32⟩
  | 18 => ⟨S_, .i32⟩
  | 19 => ⟨S1000000x2, .i32⟩
  | 20 => ⟨S1000000x2, .i1⟩
  | 21 => ⟨S_, .i32⟩
  | 22 => ⟨S1000000x2, .i32⟩
  | 23 => ⟨S1000000x2, .i32⟩
  | 24 => ⟨S1000000x2, .i32⟩
  | 25 => ⟨S1000000x2x1, .i32⟩
  | 26 => ⟨S1000000x2x64, .f32⟩
  | 27 => ⟨S1000000x128, .f32⟩
  | 28 => ⟨S1000000x192, .f32⟩
  | 29 => ⟨S192x128, .f32⟩
  | 30 => ⟨S1000000x128, .f32⟩
  | 31 => ⟨S_, .f32⟩
  | 32 => ⟨S1000000x1, .f32⟩
  | 33 => ⟨S_, .f32⟩
  | 34 => ⟨S2048x1, .f32⟩
  | 35 => ⟨S1000000x1, .i32⟩
  | 36 => ⟨S2048x1, .f32⟩
  | 37 => ⟨S_, .f32⟩
  | 38 => ⟨S2048x1, .f32⟩
  | 39 => ⟨S2048x1, .f32⟩
  | 40 => ⟨S_, .f32⟩
  | 41 => ⟨S2048x128, .f32⟩
  | 42 => ⟨S1000000x1, .i32⟩
  | 43 => ⟨S2048x128, .f32⟩
  | 44 => ⟨S2048x128, .f32⟩
  | 45 => ⟨S2048x128, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x128, .f32⟩
  | 55 => ⟨S1000000x128, .f32⟩
  | 56 => ⟨S1000000x128, .f32⟩
  | 57 => ⟨S_, .f32⟩
  | 58 => ⟨S2048x128, .f32⟩
  | 59 => ⟨S1000000x1, .i32⟩
  | 60 => ⟨S2048x128, .f32⟩
  | 61 => ⟨S2048x128, .f32⟩
  | 62 => ⟨S2048x128, .f32⟩
  | 63 => ⟨S_, .f32⟩
  | 64 => ⟨S2048x128, .f32⟩
  | 65 => ⟨S2048x128, .f32⟩
  | 66 => ⟨S2048x128, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x128, .f32⟩
  | 76 => ⟨S1000000x128, .f32⟩
  | 77 => ⟨S1x128, .f32⟩
  | 78 => ⟨S1000000x128, .f32⟩
  | 79 => ⟨S1000000x128, .f32⟩
  | 80 => ⟨S1x128, .f32⟩
  | 81 => ⟨S1000000x128, .f32⟩
  | 82 => ⟨S1000000x128, .f32⟩
  | 83 => ⟨S1000000x64, .f32⟩
  | 84 => ⟨S1000000x64, .f32⟩
  | 85 => ⟨S_, .f32⟩
  | 86 => ⟨S1000000x64, .f32⟩
  | 87 => ⟨S1000000x64, .f32⟩
  | 88 => ⟨S64x1, .f32⟩
  | 89 => ⟨S1000000x1, .f32⟩
  | 90 => ⟨S1000000x1, .f32⟩
  | 91 => ⟨S1000000x64, .f32⟩
  | 92 => ⟨S1000000x64, .f32⟩
  | 93 => ⟨S_, .f32⟩
  | 94 => ⟨S1000000x1, .f32⟩
  | 95 => ⟨S_, .f32⟩
  | 96 => ⟨S2048x1, .f32⟩
  | 97 => ⟨S1000000x1, .i32⟩
  | 98 => ⟨S2048x1, .f32⟩
  | 99 => ⟨S_, .f32⟩
  | 100 => ⟨S2048x1, .f32⟩
  | 101 => ⟨S2048x1, .f32⟩
  | 102 => ⟨S_, .f32⟩
  | 103 => ⟨S2048x64, .f32⟩
  | 104 => ⟨S1000000x1, .i32⟩
  | 105 => ⟨S2048x64, .f32⟩
  | 106 => ⟨S2048x64, .f32⟩
  | 107 => ⟨S2048x64, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x64, .f32⟩
  | 117 => ⟨S1000000x64, .f32⟩
  | 118 => ⟨S1000000x64, .f32⟩
  | 119 => ⟨S_, .f32⟩
  | 120 => ⟨S2048x64, .f32⟩
  | 121 => ⟨S1000000x1, .i32⟩
  | 122 => ⟨S2048x64, .f32⟩
  | 123 => ⟨S2048x64, .f32⟩
  | 124 => ⟨S2048x64, .f32⟩
  | 125 => ⟨S_, .f32⟩
  | 126 => ⟨S2048x64, .f32⟩
  | 127 => ⟨S2048x64, .f32⟩
  | _ => ⟨S400000x64, .f32⟩

abbrev hbmTy0_1 (i : Nat) : BufTy := match i % 128 with
  | 0 => ⟨S2048x64, .f32⟩
  | 1 => ⟨S_, .i32⟩
  | 2 => ⟨S1000000, .i32⟩
  | 3 => ⟨S1000000, .i1⟩
  | 4 => ⟨S_, .i32⟩
  | 5 => ⟨S1000000, .i32⟩
  | 6 => ⟨S1000000, .i32⟩
  | 7 => ⟨S1000000, .i32⟩
  | 8 => ⟨S1000000x1, .i32⟩
  | 9 => ⟨S1000000x64, .f32⟩
  | 10 => ⟨S1000000x64, .f32⟩
  | 11 => ⟨S1x64, .f32⟩
  | 12 => ⟨S1000000x64, .f32⟩
  | 13 => ⟨S1000000x64, .f32⟩
  | 14 => ⟨S1x64, .f32⟩
  | 15 => ⟨S1000000x64, .f32⟩
  | 16 => ⟨S1000000x64, .f32⟩
  | 17 => ⟨S64x32, .f32⟩
  | 18 => ⟨S1000000x32, .f32⟩
  | 19 => ⟨S1x32, .f32⟩
  | 20 => ⟨S1000000x32, .f32⟩
  | 21 => ⟨S1000000x32, .f32⟩
  | 22 => ⟨S_, .f32⟩
  | 23 => ⟨S1000000x32, .f32⟩
  | 24 => ⟨S1000000x32, .f32⟩
  | 25 => ⟨S32x64, .f32⟩
  | 26 => ⟨S1000000x64, .f32⟩
  | 27 => ⟨S1000000x64, .f32⟩
  | 28 => ⟨S1x64, .f32⟩
  | 29 => ⟨S1000000x64, .f32⟩
  | 30 => ⟨S1000000x64, .f32⟩
  | 31 => ⟨S64x32, .f32⟩
  | 32 => ⟨S1000000x32, .f32⟩
  | 33 => ⟨S1x32, .f32⟩
  | 34 => ⟨S1000000x32, .f32⟩
  | 35 => ⟨S1000000x32, .f32⟩
  | 36 => ⟨S_, .f32⟩
  | 37 => ⟨S1000000x32, .f32⟩
  | 38 => ⟨S1000000x32, .f32⟩
  | 39 => ⟨S32x64, .f32⟩
  | 40 => ⟨S1000000x64, .f32⟩
  | 41 => ⟨S1000000x64, .f32⟩
  | 42 => ⟨S1x64, .f32⟩
  | 43 => ⟨S1000000x64, .f32⟩
  | 44 => ⟨S1000000x64, .f32⟩
  | 45 => ⟨S1000000x64, .f32⟩
  | 46 => ⟨S_, .f32⟩
  | 47 => ⟨S1000000x64, .f32⟩
  | 48 => ⟨S1000000x64, .f32⟩
  | 49 => ⟨S_, .f32⟩
  | 50 => ⟨S1000000x64, .f32⟩
  | 51 => ⟨S1000000x64, .f32⟩
  | _ => ⟨S400000x64, .f32⟩

abbrev hbmTy (i : Nat) : BufTy := match i / 128 with
  | 0 => hbmTy0_0 i
  | 1 => hbmTy0_1 i
  | _ => ⟨S400000x64, .f32⟩

abbrev bufTy : (tb : Table) → Fin (tcTables nBuf tb) → BufTy
  | .hbm, ⟨i, _⟩ => hbmTy i
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call0_cst : Ref sig .tc := ⟨.hbm, 85, rfl⟩
abbrev main_call0_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_18 : Ref sig .tc := ⟨.hbm, 129, rfl⟩
abbrev main_v89 : Ref sig .tc := ⟨.hbm, 130, rfl⟩
abbrev main_v90 : Ref sig .tc := ⟨.hbm, 131, rfl⟩
abbrev main_c_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call1_cst : Ref sig .tc := ⟨.hbm, 150, rfl⟩
abbrev main_call1_v0 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_call2_cst : Ref sig .tc := ⟨.hbm, 164, rfl⟩
abbrev main_call2_v0 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_call3_cst : Ref sig .tc := ⟨.hbm, 174, rfl⟩
abbrev main_call3_v0 : Ref sig .tc := ⟨.hbm, 175, rfl⟩
abbrev main_v128 : Ref sig .tc := ⟨.hbm, 176, rfl⟩
abbrev main_cst_20 : Ref sig .tc := ⟨.hbm, 177, rfl⟩
abbrev main_v129 : Ref sig .tc := ⟨.hbm, 178, rfl⟩
abbrev main_v130 : Ref sig .tc := ⟨.hbm, 179, rfl⟩

abbrev nD : Nat := 1
abbrev τ : Topo := Topo.v7x

variable {F : FTy → Type} [FloatOps F]

class Facts₀ : Prop where
  bcast_S_S1000000x2 : S_.BroadcastsInDim S1000000x2 (![] : Fin 0 → Fin S1000000x2.rank)
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  concatenates_S1000000x64_S1000000x128_S1000000x192_d1 : Shape.Concatenates [S1000000x64, S1000000x128] S1000000x192 1
  transposes_S128x192_S192x128_1_0 : S128x192.Transposes [1, 0] S192x128
  bcast_S_S1000000x1 : S_.BroadcastsInDim S1000000x1 (![] : Fin 0 → Fin S1000000x1.rank)
  bcast_S_S2048x1 : S_.BroadcastsInDim S2048x1 (![] : Fin 0 → Fin S2048x1.rank)
  bcast_S1000000_S1000000x1_0 : S1000000.BroadcastsInDim S1000000x1 (![0] : Fin 1 → Fin S1000000x1.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  bcast_S_S1000000 : S_.BroadcastsInDim S1000000 (![] : Fin 0 → Fin S1000000.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  slices_S1000000x128_S1000000x64_0_0 : S1000000x128.Slices ![0, 0] S1000000x64
  slices_S1000000x128_S1000000x64_0_64 : S1000000x128.Slices ![0, 64] S1000000x64
  bcast_S_S1000000x64 : S_.BroadcastsInDim S1000000x64 (![] : Fin 0 → Fin S1000000x64.rank)
  transposes_S1x64_S64x1_1_0 : S1x64.Transposes [1, 0] S64x1
  bcast_S1000000x1_S1000000x64_0_1 : S1000000x1.BroadcastsInDim S1000000x64 (![0, 1] : Fin 2 → Fin S1000000x64.rank)
  bcast_S_S2048x64 : S_.BroadcastsInDim S2048x64 (![] : Fin 0 → Fin S2048x64.rank)
  bcast_S2048x1_S2048x64_0_1 : S2048x1.BroadcastsInDim S2048x64 (![0, 1] : Fin 2 → Fin S2048x64.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  transposes_S32x64_S64x32_1_0 : S32x64.Transposes [1, 0] S64x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  transposes_S64x32_S32x64_1_0 : S64x32.Transposes [1, 0] S32x64
  gather_S400000x64_S1000000x2x1_S1000000x2x64_2_0_n_n_0_2_164_wf : GatherDims.WF S400000x64 S1000000x2x1 S1000000x2x64 [2] [0] [] [0] [] 2 ![1, 64]
  dot_S1000000x192_S192x128_S1000000x128_1_0_0_1_n_n_wf : DotDims.WF S1000000x192 S192x128 S1000000x128 [1] [0] [0] [1] [] []
  scatter_S2048x1_S1000000x1_S1000000x1_1_0_0_1_wf : ScatterDims.WF S2048x1 S1000000x1 S1000000x1 [1] [0] [0] 1
  scatter_S2048x128_S1000000x1_S1000000x128_1_0_0_1_wf : ScatterDims.WF S2048x128 S1000000x1 S1000000x128 [1] [0] [0] 1
  gather_S2048x128_S1000000x1_S1000000x128_1_0_n_n_0_1_1128_wf : GatherDims.WF S2048x128 S1000000x1 S1000000x128 [1] [0] [] [0] [] 1 ![1, 128]
  dot_S1000000x64_S64x1_S1000000x1_1_0_0_1_n_n_wf : DotDims.WF S1000000x64 S64x1 S1000000x1 [1] [0] [0] [1] [] []
  scatter_S2048x64_S1000000x1_S1000000x64_1_0_0_1_wf : ScatterDims.WF S2048x64 S1000000x1 S1000000x64 [1] [0] [0] 1
  gather_S2048x64_S1000000x1_S1000000x64_1_0_n_n_0_1_164_wf : GatherDims.WF S2048x64 S1000000x1 S1000000x64 [1] [0] [] [0] [] 1 ![1, 64]
  dot_S1000000x64_S64x32_S1000000x32_1_0_0_1_n_n_wf : DotDims.WF S1000000x64 S64x32 S1000000x32 [1] [0] [0] [1] [] []
  dot_S1000000x32_S32x64_S1000000x64_1_0_0_1_n_n_wf : DotDims.WF S1000000x32 S32x64 S1000000x64 [1] [0] [0] [1] [] []

variable [Facts₀]

def gather_S400000x64_S1000000x2x1_S1000000x2x64_2_0_n_n_0_2_164 : GatherDims S400000x64 S1000000x2x1 S1000000x2x64 where
  offsetDims := [2]
  collapsedSliceDims := [0]
  operandBatchingDims := []
  startIndicesBatchingDims := []
  startIndexMap := [0]
  indexVectorDim := 2
  sliceSizes := ![1, 64]
  wf := gather_S400000x64_S1000000x2x1_S1000000x2x64_2_0_n_n_0_2_164_wf
def dot_S1000000x192_S192x128_S1000000x128_1_0_0_1_n_n : DotDims S1000000x192 S192x128 S1000000x128 where
  lhsContracting := [1]
  rhsContracting := [0]
  lhsNonContracting := [0]
  rhsNonContracting := [1]
  lhsBatch := []
  rhsBatch := []
  wf := dot_S1000000x192_S192x128_S1000000x128_1_0_0_1_n_n_wf
def scatter_S2048x1_S1000000x1_S1000000x1_1_0_0_1 : ScatterDims S2048x1 S1000000x1 S1000000x1 where
  updateWindowDims := [1]
  insertedWindowDims := [0]
  scatterDimsToOperandDims := [0]
  indexVectorDim := 1
  wf := scatter_S2048x1_S1000000x1_S1000000x1_1_0_0_1_wf
def scatter_S2048x128_S1000000x1_S1000000x128_1_0_0_1 : ScatterDims S2048x128 S1000000x1 S1000000x128 where
  updateWindowDims := [1]
  insertedWindowDims := [0]
  scatterDimsToOperandDims := [0]
  indexVectorDim := 1
  wf := scatter_S2048x128_S1000000x1_S1000000x128_1_0_0_1_wf
def gather_S2048x128_S1000000x1_S1000000x128_1_0_n_n_0_1_1128 : GatherDims S2048x128 S1000000x1 S1000000x128 where
  offsetDims := [1]
  collapsedSliceDims := [0]
  operandBatchingDims := []
  startIndicesBatchingDims := []
  startIndexMap := [0]
  indexVectorDim := 1
  sliceSizes := ![1, 128]
  wf := gather_S2048x128_S1000000x1_S1000000x128_1_0_n_n_0_1_1128_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def scatter_S2048x64_S1000000x1_S1000000x64_1_0_0_1 : ScatterDims S2048x64 S1000000x1 S1000000x64 where
  updateWindowDims := [1]
  insertedWindowDims := [0]
  scatterDimsToOperandDims := [0]
  indexVectorDim := 1
  wf := scatter_S2048x64_S1000000x1_S1000000x64_1_0_0_1_wf
def gather_S2048x64_S1000000x1_S1000000x64_1_0_n_n_0_1_164 : GatherDims S2048x64 S1000000x1 S1000000x64 where
  offsetDims := [1]
  collapsedSliceDims := [0]
  operandBatchingDims := []
  startIndicesBatchingDims := []
  startIndexMap := [0]
  indexVectorDim := 1
  sliceSizes := ![1, 64]
  wf := gather_S2048x64_S1000000x1_S1000000x64_1_0_n_n_0_1_164_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf

class Facts : Prop extends Facts₀ where

variable [Facts]
-- ==== Proof.KRun.lean ====
/-
  The idealized kernel's whole run with its result named: every weakly fair execution of the three launches and the
  host operations between them ends, without a fault, with the result array at the contents the last launch's
  write-backs leave (the boundary contents after the third region) and every argument array as launched. The
  boundary contents are the fold through the program: host operations applied to the launch memory, then each
  region's arrays replaced by what its blocks write back.
-/
import proofs.«117240_j46248207843562_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program, the result array read at the last boundary's contents. -/
theorem run_result : θ_run defs (onTc (τ := τ) (main (F := F))) ⟨m, fun _ => 0, ρ⟩ (fun r => ∀ c : Dev nD,
      r.2.mem ((c.tc : Thread nD τ).loc main_v124) = W6 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v124 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)

end Cert.KernelIdeal.ValueRun

end
-- ==== Proof.Spec.lean ====
/-
  The three dense stages of the angle update, as functions of whole arrays over the extended reals, entry by entry.

  * `fuse`: row `p` of the projected features is the row's 64 own features against the first 64 rows of the
    (transposed) weight plus its 128 gathered neighbour features against the remaining 128 rows — the product of the
    concatenated 192 features with the whole weight, cut at column 64.
  * `gate`: the last 64 normalised features of a row, weighted by the mask row and summed, go through tanh; that one
    number scales the rectified first 64 features of the row.
  * `res`: one residual layer, `x + relu(x·A + a)·B + b`; `out` is two of them, the angle features added, rectified,
    and scaled by the binary value of 1/sqrt 2.
-/
import Idealize.ShloMosaic.PureOps.Ideal
import Idealize.ShloMosaic.Lib.ValueIdx

noncomputable section

namespace Cert.Spec

open Idealize.ShloMosaic Idealize.ShloMosaic.ValueIdx

/-- An `a × b` array of extended reals. -/
abbrev Arr (a b : Nat) := (⟨2, ![a, b]⟩ : Shape).Idx → EReal

/-- Entry `(p, q)` of the fused projection. -/
def fuseAt (a : Arr 1000000 64) (n : Arr 1000000 128) (wa : Arr 64 128) (wb : Arr 128 128) (p : Fin 1000000) (q : Fin 128) : EReal :=
  (∑ k : Fin 64, a (ix2 p k) * wa (ix2 k q)) + ∑ k : Fin 128, n (ix2 p k) * wb (ix2 k q)

/-- The fused projection as an array. -/
def fuse (a : Arr 1000000 64) (n : Arr 1000000 128) (wa : Arr 64 128) (wb : Arr 128 128) : Arr 1000000 128 :=
  fun i => fuseAt a n wa wb (i 0) (i 1)

theorem fuse_ix2 (a : Arr 1000000 64) (n : Arr 1000000 128) (wa : Arr 64 128) (wb : Arr 128 128) (p : Fin 1000000) (q : Fin 128) :
    fuse a n wa wb (ix2 p q) = fuseAt a n wa wb p q := rfl

/-- Entry `(p, q)` of the gated features: tanh of the masked sum of columns 64..127, times the rectified column `q`. -/
def gateAt (g : Arr 1000000 128) (wm : Arr 1 64) (p : Fin 1000000) (q : Fin 64) : EReal :=
  Ideal.tanh (∑ k : Fin 64, g (ix2 p (⟨64 + k.val, by omega⟩ : Fin 128)) * wm (ix2 (0 : Fin 1) k))
    * max (g (ix2 p (⟨q.val, by omega⟩ : Fin 128))) 0

/-- The gated features as an array. -/
def gate (g : Arr 1000000 128) (wm : Arr 1 64) : Arr 1000000 64 :=
  fun i => gateAt g wm (i 0) (i 1)

theorem gate_ix2 (g : Arr 1000000 128) (wm : Arr 1 64) (p : Fin 1000000) (q : Fin 64) :
    gate g wm (ix2 p q) = gateAt g wm p q := rfl

/-- Entry `(p, r)` of a residual layer's hidden activation `relu(x·A + a)`. -/
def hidAt (x : Arr 1000000 64) (wa : Arr 64 32) (ba : Arr 1 32) (p : Fin 1000000) (r : Fin 32) : EReal :=
  max ((∑ k : Fin 64, x (ix2 p k) * wa (ix2 k r)) + ba (ix2 (0 : Fin 1) r)) 0

/-- Entry `(p, q)` of one residual layer `x + relu(x·A + a)·B + b`. -/
def resAt (x : Arr 1000000 64) (wa : Arr 64 32) (ba : Arr 1 32) (wb : Arr 32 64) (bb : Arr 1 64) (p : Fin 1000000) (q : Fin 64) : EReal :=
  (x (ix2 p q) + ∑ r : Fin 32, hidAt x wa ba p r * wb (ix2 r q)) + bb (ix2 (0 : Fin 1) q)

/-- One residual layer as an array. -/
def res (x : Arr 1000000 64) (wa : Arr 64 32) (ba : Arr 1 32) (wb : Arr 32 64) (bb : Arr 1 64) : Arr 1000000 64 :=
  fun i => resAt x wa ba wb bb (i 0) (i 1)

theorem res_ix2 (x : Arr 1000000 64) (wa : Arr 64 32) (ba : Arr 1 32) (wb : Arr 32 64) (bb : Arr 1 64) (p : Fin 1000000) (q : Fin 64) :
    res x wa ba wb bb (ix2 p q) = resAt x wa ba wb bb p q := rfl

/-- Entry `(p, q)` of the result: two residual layers, the angle features added, rectified, scaled. -/
def outAt (x ang : Arr 1000000 64) (w1a : Arr 64 32) (b1a : Arr 1 32) (w1b : Arr 32 64) (b1b : Arr 1 64)
    (w2a : Arr 64 32) (b2a : Arr 1 32) (w2b : Arr 32 64) (b2b : Arr 1 64) (p : Fin 1000000) (q : Fin 64) : EReal :=
  Ideal.ofBits .f32 0x3F3504F3#32 * max (ang (ix2 p q) + resAt (res x w1a b1a w1b b1b) w2a b2a w2b b2b p q) 0

/-- The result as an array. -/
def out (x ang : Arr 1000000 64) (w1a : Arr 64 32) (b1a : Arr 1 32) (w1b : Arr 32 64) (b1b : Arr 1 64)
    (w2a : Arr 64 32) (b2a : Arr 1 32) (w2b : Arr 32 64) (b2b : Arr 1 64) : Arr 1000000 64 :=
  fun i => outAt x ang w1a b1a w1b b1b w2a b2a w2b b2b (i 0) (i 1)

theorem out_ix2 (x ang : Arr 1000000 64) (w1a : Arr 64 32) (b1a : Arr 1 32) (w1b : Arr 32 64) (b1b : Arr 1 64)
    (w2a : Arr 64 32) (b2a : Arr 1 32) (w2b : Arr 32 64) (b2b : Arr 1 64) (p : Fin 1000000) (q : Fin 64) :
    out x ang w1a b1a w1b b1b w2a b2a w2b b2b (ix2 p q) = outAt x ang w1a b1a w1b b1b w2a b2a w2b b2b p q := rfl

/-- The first 64 rows of a 192-row weight. -/
def topRows (w : Arr 192 128) : Arr 64 128 :=
  fun i => w (ix2 (⟨(i 0).val, by have := idx2_lt0 i; omega⟩ : Fin 192) (i 1))

/-- The last 128 rows of a 192-row weight. -/
def botRows (w : Arr 192 128) : Arr 128 128 :=
  fun i => w (ix2 (⟨64 + (i 0).val, by have := idx2_lt0 i; omega⟩ : Fin 192) (i 1))

/-- An extended real that is a real number. -/
def IsReal (x : EReal) : Prop := ∃ r : ℝ, x = (r : EReal)

/-- Every entry of an array is a real number. -/
def AllReal {ι : Type} (f : ι → EReal) : Prop := ∀ i, IsReal (f i)

end Cert.Spec

end
-- ==== Proof.Reals.lean ====
/-
  Arithmetic on the extended reals restricted to real numbers, as far as the per-crystal normalisation needs it.

  The two programs normalise a feature `x` with the crystal's mean `μ`, inverse deviation `r`, gain `g` and offset `b`
  in two arrangements, `x·(g·r) + (b − μ·(g·r))` and `((x − μ)·r)·g + b`. On the extended reals the two differ at
  infinities (distributivity fails there), so the law is stated for real numbers, and the rest of this file shows that
  every quantity entering it is one: sums, products, differences and maxima of reals; a quotient by a positive real; a
  sum of squares over a positive count is non-negative, so adding the positive `ε` gives a positive number whose
  inverse square root is real; tanh of a real is real.
-/
import proofs.«117240_j46248207843562_2_alg».proof.Proof.Spec

noncomputable section

namespace Cert.Spec

open Idealize.ShloMosaic

/-- A non-negative real number. -/
def IsNN (x : EReal) : Prop := ∃ r : ℝ, 0 ≤ r ∧ x = (r : EReal)
/-- A positive real number. -/
def IsPos (x : EReal) : Prop := ∃ r : ℝ, 0 < r ∧ x = (r : EReal)

theorem IsNN.isReal {x : EReal} (h : IsNN x) : IsReal x := let ⟨r, _, e⟩ := h; ⟨r, e⟩
theorem IsPos.isReal {x : EReal} (h : IsPos x) : IsReal x := let ⟨r, _, e⟩ := h; ⟨r, e⟩
theorem IsPos.isNN {x : EReal} (h : IsPos x) : IsNN x := let ⟨r, hr, e⟩ := h; ⟨r, hr.le, e⟩

theorem isReal_zero : IsReal 0 := ⟨0, rfl⟩
theorem isNN_zero : IsNN 0 := ⟨0, le_rfl, rfl⟩
theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (Max.max x y) := by
  obtain ⟨a, rfl⟩ := hx; obtain ⟨b, rfl⟩ := hy
  exact ⟨Max.max a b, (EReal.coe_strictMono.monotone.map_max (a := a) (b := b)).symm⟩
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsNN.add {x y : EReal} (hx : IsNN x) (hy : IsNN y) : IsNN (x + y) := by
  obtain ⟨a, ha, rfl⟩ := hx; obtain ⟨b, hb, rfl⟩ := hy; exact ⟨a + b, add_nonneg ha hb, (EReal.coe_add a b).symm⟩
theorem IsNN.sum {ι : Type} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))
theorem IsReal.sq_nn {x : EReal} (hx : IsReal x) : IsNN (x * x) := by
  obtain ⟨a, rfl⟩ := hx; exact ⟨a * a, mul_self_nonneg a, (EReal.coe_mul a a).symm⟩
theorem IsNN.add_pos {x e : EReal} (hx : IsNN x) (he : IsPos e) : IsPos (x + e) := by
  obtain ⟨a, ha, rfl⟩ := hx; obtain ⟨b, hb, rfl⟩ := he
  exact ⟨a + b, add_pos_of_nonneg_of_pos ha hb, (EReal.coe_add a b).symm⟩
theorem IsPos.max_right {x e : EReal} (hx : IsReal x) (he : IsPos e) : IsPos (max x e) := by
  obtain ⟨a, rfl⟩ := hx; obtain ⟨b, hb, rfl⟩ := he
  exact ⟨Max.max a b, lt_max_of_lt_right hb, (EReal.coe_strictMono.monotone.map_max (a := a) (b := b)).symm⟩

/-- The quotient of a real by a positive real is their real quotient. -/
theorem div_coe_pos (a c : ℝ) (hc : 0 < c) : Ideal.div (a : EReal) (c : EReal) = ((a / c : ℝ) : EReal) := by
  rw [Ideal.div_coe hc.ne' (a : EReal), ← EReal.coe_mul]; congr 1; rw [one_div, div_eq_mul_inv]
theorem IsReal.div_pos {x c : EReal} (hx : IsReal x) (hc : IsPos c) : IsReal (Ideal.div x c) := by
  obtain ⟨a, rfl⟩ := hx; obtain ⟨b, hb, rfl⟩ := hc; exact ⟨a / b, div_coe_pos a b hb⟩
theorem IsNN.div_pos {x c : EReal} (hx : IsNN x) (hc : IsPos c) : IsNN (Ideal.div x c) := by
  obtain ⟨a, ha, rfl⟩ := hx; obtain ⟨b, hb, rfl⟩ := hc; exact ⟨a / b, div_nonneg ha hb.le, div_coe_pos a b hb⟩

/-- The inverse square root of a positive real is real. -/
theorem IsPos.rsqrt_real {x : EReal} (hx : IsPos x) : IsReal (Ideal.rsqrt x) := by
  obtain ⟨a, ha, rfl⟩ := hx
  refine ⟨(Real.sqrt a)⁻¹, ?_⟩
  show (if a < 0 then (⊥ : EReal) else if a = 0 then ⊤ else (((Real.sqrt a)⁻¹ : ℝ) : EReal)) = _
  rw [if_neg (not_lt.mpr ha.le), if_neg ha.ne']

/-- tanh of a real is real. -/
theorem IsReal.tanh {x : EReal} (hx : IsReal x) : IsReal (Ideal.tanh x) := by
  obtain ⟨a, rfl⟩ := hx; exact ⟨Real.tanh a, rfl⟩

/-- THE NORMALISATION LAW: on real numbers, scaling by the folded gain `g·r` and adding the folded offset
    `b − μ·(g·r)` is centring by `μ`, scaling by `r`, then by `g`, and adding `b`. -/
theorem norm_affine {x μ r g b : EReal} (hx : IsReal x) (hμ : IsReal μ) (hr : IsReal r) (hg : IsReal g) (hb : IsReal b) :
    x * (g * r) + (b - μ * (g * r)) = (x - μ) * r * g + b := by
  obtain ⟨x, rfl⟩ := hx; obtain ⟨μ, rfl⟩ := hμ; obtain ⟨r, rfl⟩ := hr; obtain ⟨g, rfl⟩ := hg; obtain ⟨b, rfl⟩ := hb
  have h : ((x * (g * r) + (b - μ * (g * r)) : ℝ) : EReal) = (((x - μ) * r * g + b : ℝ) : EReal) := by
    congr 1; ring
  exact_mod_cast h

/-- The fused projection of real arrays is real: finite sums of products of reals. -/
theorem fuse_real {a : Arr 1000000 64} {n : Arr 1000000 128} {wa : Arr 64 128} {wb : Arr 128 128}
    (ha : AllReal a) (hn : AllReal n) (hwa : AllReal wa) (hwb : AllReal wb) : AllReal (fuse a n wa wb) := by
  intro i
  unfold fuse fuseAt
  exact (IsReal.sum _ _ fun k _ => (ha _).mul (hwa _)).add (IsReal.sum _ _ fun k _ => (hn _).mul (hwb _))

/-- The gated features of real arrays are real: tanh of a real sum, times a maximum of reals. -/
theorem gate_real {g : Arr 1000000 128} {wm : Arr 1 64} (hg : AllReal g) (hw : AllReal wm) : AllReal (gate g wm) := by
  intro i
  unfold gate gateAt
  exact (IsReal.tanh (IsReal.sum _ _ fun k _ => (hg _).mul (hw _))).mul ((hg _).max isReal_zero)

theorem topRows_real {w : Arr 192 128} (h : AllReal w) : AllReal (topRows w) := fun _ => h _
theorem botRows_real {w : Arr 192 128} (h : AllReal w) : AllReal (botRows w) := fun _ => h _

end Cert.Spec

end
-- ==== Proof.PreReal.lean ====
/-
  The precondition says of every float argument that the absolute value of each entry is below +∞. On the extended
  reals that leaves exactly the real numbers: `max x (−x) < ⊤` fails at both infinities.
-/
import proofs.«117240_j46248207843562_2_alg».proof.Pre_finite_inputs
import proofs.«117240_j46248207843562_2_alg».proof.Proof.Reals
import Idealize.ShloMosaic.Lib.ReduceAll
import Idealize.ShloMosaic.Lib.ValueIdx

noncomputable section

namespace Cert.PreReal

open Idealize.ShloMosaic Cert.Spec Cert.Pre_finite_inputs

variable [Cert.Pre_finite_inputs.Facts]

instance : Subsingleton S_.Idx := ⟨fun a b => funext fun d => d.elim0⟩

/-- An extended real whose absolute value is below the pattern of +∞ is a real number. -/
theorem real_of_abs_lt (x : EReal)
    (h : Ideal.cmp .olt (max x (-x)) (Ideal.ofBits .f32 0x7F800000#32) = 1#1) : IsReal x := by
  have hinf : Ideal.ofBits .f32 0x7F800000#32 = (⊤ : EReal) := by simp [Ideal.ofBits, Ideal.ieee]
  rw [hinf] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h; exact absurd h (by decide)
  induction x using EReal.rec with
  | bot => simp at hlt
  | top => simp at hlt
  | coe r => exact ⟨r, rfl⟩

/-- One conjunct of the precondition: every entry of the array is real. -/
theorem allReal_of_all {s : Shape} (x : FVec Ideal s .f32) (hb : S_.BroadcastsInDim s ![])
    {axes : List (Fin s.rank)} (hr : s.ReducesTo axes S_) (hu : 0 < S_.numel)
    (h : Host.reduce IntOp.andi (cmpf .olt (Host.absf x) (broadcastInDim s ![] hb (constant S_ .f32 0x7F800000#32)))
      (constantI S_ 1 1#1) hr hu ValueIdx.ix0 = 1#1) : AllReal x := by
  intro i
  have := Host.reduce_andi_all _ _ hr hu ValueIdx.ix0 h i
  exact real_of_abs_lt (x i) this

set_option maxRecDepth 16384 in
/-- The precondition makes every float argument an array of real numbers. -/
theorem pre_real (a0 : FVec Ideal S400000x64 .f32) (a1 : FVec Ideal S1000000x64 .f32) (a2 : IVec S1000000x2 32) (a3 : IVec S1000000 32) (a4 : FVec Ideal S128x192 .f32) (a5 : FVec Ideal S1x64 .f32) (a6 : FVec Ideal S128 .f32) (a7 : FVec Ideal S128 .f32) (a8 : FVec Ideal S64 .f32) (a9 : FVec Ideal S64 .f32) (a10 : FVec Ideal S32x64 .f32) (a11 : FVec Ideal S32 .f32) (a12 : FVec Ideal S64x32 .f32) (a13 : FVec Ideal S64 .f32) (a14 : FVec Ideal S32x64 .f32) (a15 : FVec Ideal S32 .f32) (a16 : FVec Ideal S64x32 .f32) (a17 : FVec Ideal S64 .f32)
    (hpre : Cert.Pre_finite_inputs.fn (F := Ideal) a0 a1 a2 a3 a4 a5 a6 a7 a8 a9 a10 a11 a12 a13 a14 a15 a16 a17 = fun _ => 1#1) :
    AllReal a0 ∧ AllReal a1 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 := by
  have h := congrFun hpre ValueIdx.ix0
  unfold Cert.Pre_finite_inputs.fn Cert.Pre_finite_inputs.fn_part1 Cert.Pre_finite_inputs.fn_part2 Cert.Pre_finite_inputs.fn_part3 Cert.Pre_finite_inputs.fn_part4 at h
  dsimp only at h
  change IntOp.andi _ _ = 1#1 at h
  obtain ⟨h, h17⟩ := IntOp.andi_eq_one.1 h
  obtain ⟨h, h16⟩ := IntOp.andi_eq_one.1 h
  obtain ⟨h, h15⟩ := IntOp.andi_eq_one.1 h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h1⟩ := IntOp.andi_eq_one.1 h
  have h0 := h
  exact ⟨allReal_of_all _ _ _ _ h0, allReal_of_all _ _ _ _ h1, allReal_of_all _ _ _ _ h4, allReal_of_all _ _ _ _ h5, allReal_of_all _ _ _ _ h6, allReal_of_all _ _ _ _ h7, allReal_of_all _ _ _ _ h8, allReal_of_all _ _ _ _ h9, allReal_of_all _ _ _ _ h10, allReal_of_all _ _ _ _ h11, allReal_of_all _ _ _ _ h12, allReal_of_all _ _ _ _ h13, allReal_of_all _ _ _ _ h14, allReal_of_all _ _ _ _ h15, allReal_of_all _ _ _ _ h16, allReal_of_all _ _ _ _ h17⟩

end Cert.PreReal

end
-- ==== Proof.NormLaw.lean ====
/-
  The per-crystal normalisation, in the two arrangements the two programs compute, as whole-array functions, and the
  law that they agree on real inputs.

  Both programs compute, per crystal `s` and feature `j`: the count `n_s = max(#rows of s, 1)`, the mean
  `μ = (Σ rows of s) / n_s`, the variance `v = (Σ (x − μ)²) / n_s` and `r = (v + ε)^(-1/2)`, each sum a scatter-add of
  the rows onto a zero table and each per-row value a gather from the table at the row's (wrapped, clamped) crystal
  id. One program then forms the tables `g·r` and `b − μ·(g·r)` and gathers them: `x·(g·r) + (b − μ·(g·r))`; the other
  gathers `μ` and `r`: `((x − μ)·r)·g + b`. A gather reads its table at ONE table index per row entry, in the entry's own
  column, so both are the same real polynomial in `x, μ, r, g, b` at that table index; the counts are positive reals,
  the means real, the variances non-negative, `v + ε` positive, so `r` is real and the law for real numbers applies.
-/
import proofs.«117240_j46248207843562_2_alg».proof.Proof.Reals
import Idealize.ShloMosaic.PureOps.Ideal.Laws
import Idealize.ShloMosaic.Lib.Pipeline.Value
import Idealize.ShloMosaic.Lib.ValueIdx

noncomputable section

namespace Cert.NormLaw

open Idealize.ShloMosaic Cert.Spec

abbrev SN : Shape := ⟨1, ![1000000]⟩
abbrev SN1 : Shape := ⟨2, ![1000000, 1]⟩
abbrev ST1 : Shape := ⟨2, ![2048, 1]⟩
abbrev S0 : Shape := ⟨0, ![]⟩
abbrev STd (d : Nat) : Shape := ⟨2, ![2048, d]⟩
abbrev SNd (d : Nat) : Shape := ⟨2, ![1000000, d]⟩
abbrev S1d (d : Nat) : Shape := ⟨2, ![1, d]⟩
abbrev Sd (d : Nat) : Shape := ⟨1, ![d]⟩

/-- A row vector broadcast over the rows of two arrays of the same width reads the same entry at indices in the same
    column. -/
theorem bcast_rows_eq {d A B : Nat} (hd : d ≠ 1)
    (h1 : (S1d d).BroadcastsInDim (⟨2, ![A, d]⟩ : Shape) ![0, 1]) (h2 : (S1d d).BroadcastsInDim (⟨2, ![B, d]⟩ : Shape) ![0, 1])
    (v : (S1d d).Idx → EReal) (t : (⟨2, ![A, d]⟩ : Shape).Idx) (y : (⟨2, ![B, d]⟩ : Shape).Idx) (h : (t 1).val = (y 1).val) :
    broadcastInDim (⟨2, ![A, d]⟩ : Shape) ![0, 1] h1 v t = broadcastInDim (⟨2, ![B, d]⟩ : Shape) ![0, 1] h2 v y := by
  have ht1 : (t 1).val < d := (t 1).isLt
  let k : (S1d d).Idx := fun a => match a with
    | ⟨0, _⟩ => ⟨0, Nat.one_pos⟩
    | ⟨1, _⟩ => ⟨(t 1).val, ht1⟩
  rw [broadcastInDim_apply ![0, 1] h1 v t k (fun a => match a with
        | ⟨0, _⟩ => by show 0 = if (1 : Nat) = 1 then 0 else (t 0).val; rw [if_pos rfl]
        | ⟨1, _⟩ => by show (t 1).val = if d = 1 then 0 else (t 1).val; rw [if_neg hd]),
    broadcastInDim_apply ![0, 1] h2 v y k (fun a => match a with
        | ⟨0, _⟩ => by show 0 = if (1 : Nat) = 1 then 0 else (y 0).val; rw [if_pos rfl]
        | ⟨1, _⟩ => by show (t 1).val = if d = 1 then 0 else (y 1).val; rw [if_neg hd]; exact h)]

/-- The operations read at an index, at the exact instance. -/
theorem divf_at {s : Shape} (a b : FVec Ideal s .f32) (i : s.Idx) : Host.divf a b i = Ideal.div (a i) (b i) := rfl
theorem rsqrt_at {s : Shape} (a : FVec Ideal s .f32) (i : s.Idx) : Host.rsqrt a i = Ideal.rsqrt (a i) := rfl
theorem scatterAdd_at {s si su : Shape} {w : Nat} (dd : ScatterDims s si su) (x : FVec Ideal s .f32) (idx : IVec si w)
    (u : FVec Ideal su .f32) (t : s.Idx) :
    Host.scatterAdd dd x idx u t = x t + ∑ j ∈ Finset.univ.filter (fun j => dd.resultIdx? j idx = some t), u j := rfl
theorem splat_at {s : Shape} (h : S0.BroadcastsInDim s ![]) (w : BitVec 32) (i : s.Idx) :
    broadcastInDim s ![] h (constant (F := Ideal) S0 .f32 w) i = Ideal.ofBits .f32 w := rfl
theorem gather_at {s si t : Shape} {w : Nat} (dd : GatherDims s si t) (x : s.Idx → EReal) (idx : IVec si w) (j : t.Idx) :
    Host.gather dd x idx j = x (dd.operandIdx j idx) := rfl

section
variable (d : Nat)
  (dS1 : ScatterDims ST1 SN1 SN1) (dS : ScatterDims (STd d) SN1 (SNd d)) (dG : GatherDims (STd d) SN1 (SNd d))
  (h0N1 : S0.BroadcastsInDim SN1 ![]) (h0T1 : S0.BroadcastsInDim ST1 ![]) (h0Td : S0.BroadcastsInDim (STd d) ![])
  (h0N : S0.BroadcastsInDim SN ![]) (hNN1 : SN.BroadcastsInDim SN1 ![0]) (hT1Td : ST1.BroadcastsInDim (STd d) ![0, 1])
  (hd1d : (Sd d).BroadcastsInDim (S1d d) ![1]) (h1dTd : (S1d d).BroadcastsInDim (STd d) ![0, 1])
  (h1dNd : (S1d d).BroadcastsInDim (SNd d) ![0, 1])

/-- The crystal ids as a column. -/
abbrev segB (seg : IVec SN 32) : IVec SN1 32 := broadcastInDim SN1 ![0] hNN1 seg
/-- The per-crystal row count, at least one. -/
abbrev cnt (seg : IVec SN 32) : FVec Ideal ST1 .f32 :=
  maximumf (Host.scatterAdd dS1 (broadcastInDim ST1 ![] h0T1 (constant S0 .f32 0x00000000#32)) (segB hNN1 seg)
      (broadcastInDim SN1 ![] h0N1 (constant S0 .f32 0x3F800000#32)))
    (broadcastInDim ST1 ![] h0T1 (constant S0 .f32 0x3F800000#32))
/-- The count, repeated over the features. -/
abbrev cntB (seg : IVec SN 32) : FVec Ideal (STd d) .f32 := broadcastInDim (STd d) ![0, 1] hT1Td (cnt dS1 h0N1 h0T1 hNN1 seg)
/-- The per-crystal mean. -/
abbrev mean (X : FVec Ideal (SNd d) .f32) (seg : IVec SN 32) : FVec Ideal (STd d) .f32 :=
  Host.divf (Host.scatterAdd dS (broadcastInDim (STd d) ![] h0Td (constant S0 .f32 0x00000000#32)) (segB hNN1 seg) X)
    (cntB d dS1 h0N1 h0T1 hNN1 hT1Td seg)
/-- The crystal ids with negative ones wrapped, as a column. -/
abbrev segnB (seg : IVec SN 32) : IVec SN1 32 :=
  broadcastInDim SN1 ![0] hNN1
    (select (cmpi .slt seg (broadcastInDim SN ![] h0N (constantI S0 32 0#32)))
      (addi seg (broadcastInDim SN ![] h0N (constantI S0 32 2048#32))) seg)
/-- The centred features. -/
abbrev xc (X : FVec Ideal (SNd d) .f32) (seg : IVec SN 32) : FVec Ideal (SNd d) .f32 :=
  subf X (Host.gather dG (mean d dS1 dS h0N1 h0T1 h0Td hNN1 hT1Td X seg) (segnB h0N hNN1 seg))
/-- The per-crystal variance. -/
abbrev var (X : FVec Ideal (SNd d) .f32) (seg : IVec SN 32) : FVec Ideal (STd d) .f32 :=
  Host.divf (Host.scatterAdd dS (broadcastInDim (STd d) ![] h0Td (constant S0 .f32 0x00000000#32)) (segB hNN1 seg)
      (mulf (xc d dS1 dS dG h0N1 h0T1 h0Td h0N hNN1 hT1Td X seg) (xc d dS1 dS dG h0N1 h0T1 h0Td h0N hNN1 hT1Td X seg)))
    (cntB d dS1 h0N1 h0T1 hNN1 hT1Td seg)
/-- The per-crystal inverse deviation. -/
abbrev rs (X : FVec Ideal (SNd d) .f32) (seg : IVec SN 32) : FVec Ideal (STd d) .f32 :=
  Host.rsqrt (addf (var d dS1 dS dG h0N1 h0T1 h0Td h0N hNN1 hT1Td X seg)
    (broadcastInDim (STd d) ![] h0Td (constant S0 .f32 0x3727C5AC#32)))
/-- A feature vector repeated over the crystals. -/
abbrev rowT (g : FVec Ideal (Sd d) .f32) : FVec Ideal (STd d) .f32 :=
  broadcastInDim (STd d) ![0, 1] h1dTd (broadcastInDim (S1d d) ![1] hd1d g)
/-- A feature vector repeated over the rows. -/
abbrev rowN (g : FVec Ideal (Sd d) .f32) : FVec Ideal (SNd d) .f32 :=
  broadcastInDim (SNd d) ![0, 1] h1dNd (broadcastInDim (S1d d) ![1] hd1d g)

/-- The normalisation with the gain and offset folded into per-crystal tables. -/
def normK (X : FVec Ideal (SNd d) .f32) (seg : IVec SN 32) (g b : FVec Ideal (Sd d) .f32) : FVec Ideal (SNd d) .f32 :=
  addf (mulf X (Host.gather dG (mulf (rowT d hd1d h1dTd g) (rs d dS1 dS dG h0N1 h0T1 h0Td h0N hNN1 hT1Td X seg)) (segnB h0N hNN1 seg)))
    (Host.gather dG (subf (rowT d hd1d h1dTd b) (mulf (mean d dS1 dS h0N1 h0T1 h0Td hNN1 hT1Td X seg)
      (mulf (rowT d hd1d h1dTd g) (rs d dS1 dS dG h0N1 h0T1 h0Td h0N hNN1 hT1Td X seg)))) (segnB h0N hNN1 seg))

/-- The normalisation centring, scaling, then applying gain and offset per row. -/
def normR (X : FVec Ideal (SNd d) .f32) (seg : IVec SN 32) (g b : FVec Ideal (Sd d) .f32) : FVec Ideal (SNd d) .f32 :=
  addf (mulf (mulf (xc d dS1 dS dG h0N1 h0T1 h0Td h0N hNN1 hT1Td X seg)
      (Host.gather dG (rs d dS1 dS dG h0N1 h0T1 h0Td h0N hNN1 hT1Td X seg) (segnB h0N hNN1 seg))) (rowN d hd1d h1dNd g))
    (rowN d hd1d h1dNd b)

variable (hone : IsPos (Ideal.ofBits .f32 0x3F800000#32)) (heps : IsPos (Ideal.ofBits .f32 0x3727C5AC#32))
include hone in
theorem cnt_pos (seg : IVec SN 32) (s : ST1.Idx) : IsPos (cnt dS1 h0N1 h0T1 hNN1 seg s) := by
  unfold cnt
  rw [ValueIdx.maximumf_apply, scatterAdd_at, splat_at, splat_at, Ideal.ofBits_zero_f32]
  refine IsPos.max_right (isReal_zero.add (IsReal.sum _ _ fun j _ => ?_)) hone
  rw [splat_at]; exact hone.isReal

include hone in
theorem mean_real (X : FVec Ideal (SNd d) .f32) (hX : AllReal X) (seg : IVec SN 32) (t : (STd d).Idx) :
    IsReal (mean d dS1 dS h0N1 h0T1 h0Td hNN1 hT1Td X seg t) := by
  unfold mean
  rw [divf_at, scatterAdd_at, splat_at, Ideal.ofBits_zero_f32]
  exact (isReal_zero.add (IsReal.sum _ _ fun j _ => hX j)).div_pos (cnt_pos dS1 h0N1 h0T1 hNN1 hone seg _)

include hone in
theorem xc_real (X : FVec Ideal (SNd d) .f32) (hX : AllReal X) (seg : IVec SN 32) (j : (SNd d).Idx) :
    IsReal (xc d dS1 dS dG h0N1 h0T1 h0Td h0N hNN1 hT1Td X seg j) := by
  unfold xc
  rw [ValueIdx.subf_apply, gather_at]
  exact (hX j).sub (mean_real d dS1 dS h0N1 h0T1 h0Td hNN1 hT1Td hone X hX seg _)

include hone heps in
theorem rs_real (X : FVec Ideal (SNd d) .f32) (hX : AllReal X) (seg : IVec SN 32) (t : (STd d).Idx) :
    IsReal (rs d dS1 dS dG h0N1 h0T1 h0Td h0N hNN1 hT1Td X seg t) := by
  unfold rs
  rw [rsqrt_at, ValueIdx.addf_apply, splat_at]
  unfold var
  rw [divf_at, scatterAdd_at, splat_at, Ideal.ofBits_zero_f32]
  refine IsPos.rsqrt_real (IsNN.add_pos (IsNN.div_pos (isNN_zero.add (IsNN.sum _ _ fun j _ => ?_)) (cnt_pos dS1 h0N1 h0T1 hNN1 hone seg _)) heps)
  rw [ValueIdx.mulf_apply]
  exact IsReal.sq_nn (xc_real d dS1 dS dG h0N1 h0T1 h0Td h0N hNN1 hT1Td hone X hX seg j)

include hone heps in
/-- THE LAW: on real features, gains and offsets the two arrangements are one array, provided a gathered entry is
    read in its own column (`hcol`: true of a row gather). -/
theorem norm_law (hd : d ≠ 1)
    (hcol : ∀ (y : (SNd d).Idx) (idx : IVec SN1 32), ((dG.operandIdx y idx) 1).val = (y 1).val)
    (X : FVec Ideal (SNd d) .f32) (seg : IVec SN 32) (g b : FVec Ideal (Sd d) .f32)
    (hX : AllReal X) (hg : AllReal g) (hb : AllReal b) :
    normK d dS1 dS dG h0N1 h0T1 h0Td h0N hNN1 hT1Td hd1d h1dTd X seg g b
      = normR d dS1 dS dG h0N1 h0T1 h0Td h0N hNN1 hT1Td hd1d h1dNd X seg g b := by
  funext y
  have hrow : ∀ v : FVec Ideal (Sd d) .f32, rowT d hd1d h1dTd v (dG.operandIdx y (segnB h0N hNN1 seg)) = rowN d hd1d h1dNd v y :=
    fun v => bcast_rows_eq hd h1dTd h1dNd _ _ _ (hcol y _)
  have hm := mean_real d dS1 dS h0N1 h0T1 h0Td hNN1 hT1Td hone X hX seg (dG.operandIdx y (segnB h0N hNN1 seg))
  have hr := rs_real d dS1 dS dG h0N1 h0T1 h0Td h0N hNN1 hT1Td hone heps X hX seg (dG.operandIdx y (segnB h0N hNN1 seg))
  have hgr : IsReal (rowN d hd1d h1dNd g y) := hg _
  have hbr : IsReal (rowN d hd1d h1dNd b y) := hb _
  unfold normK normR
  generalize rs d dS1 dS dG h0N1 h0T1 h0Td h0N hNN1 hT1Td X seg = RS at hr ⊢
  unfold xc
  generalize mean d dS1 dS h0N1 h0T1 h0Td hNN1 hT1Td X seg = ME at hm ⊢
  generalize segnB h0N hNN1 seg = IDX at hm hr hrow ⊢
  repeat (first | rw [ValueIdx.addf_apply] | rw [ValueIdx.mulf_apply] | rw [ValueIdx.subf_apply] | rw [gather_at])
  rw [hrow g, hrow b]
  exact norm_affine (hX y) hm hr hgr hbr

include hone heps in
/-- The normalised features are real. -/
theorem normR_real (X : FVec Ideal (SNd d) .f32) (seg : IVec SN 32) (g b : FVec Ideal (Sd d) .f32)
    (hX : AllReal X) (hg : AllReal g) (hb : AllReal b) :
    AllReal (normR d dS1 dS dG h0N1 h0T1 h0Td h0N hNN1 hT1Td hd1d h1dNd X seg g b) := by
  intro y
  have hm := mean_real d dS1 dS h0N1 h0T1 h0Td hNN1 hT1Td hone X hX seg (dG.operandIdx y (segnB h0N hNN1 seg))
  have hr := rs_real d dS1 dS dG h0N1 h0T1 h0Td h0N hNN1 hT1Td hone heps X hX seg (dG.operandIdx y (segnB h0N hNN1 seg))
  have hgr : IsReal (rowN d hd1d h1dNd g y) := hg _
  have hbr : IsReal (rowN d hd1d h1dNd b y) := hb _
  unfold normR
  generalize rs d dS1 dS dG h0N1 h0T1 h0Td h0N hNN1 hT1Td X seg = RS at hr ⊢
  unfold xc
  generalize mean d dS1 dS h0N1 h0T1 h0Td hNN1 hT1Td X seg = ME at hm ⊢
  generalize segnB h0N hNN1 seg = IDX at hm hr ⊢
  repeat (first | rw [ValueIdx.addf_apply] | rw [ValueIdx.mulf_apply] | rw [ValueIdx.subf_apply] | rw [gather_at])
  exact ((((hX y).sub hm).mul hr).mul hgr).add hbr

end

end Cert.NormLaw

end
-- ==== Proof.NormInst.lean ====
/-
  The facts the normalisation law needs about this program's literals: the patterns of 1 and of ε denote positive
  reals; a row gather from a per-crystal table reads the table in the entry's own column; and the two programs'
  scatter and gather dimension numbers are the same.
-/
import proofs.«117240_j46248207843562_2_alg».proof.Proof.Gen.KernelIdeal
import proofs.«117240_j46248207843562_2_alg».proof.Proof.Gen.ReferenceIdeal
import proofs.«117240_j46248207843562_2_alg».proof.Proof.NormLaw
import Idealize.ShloMosaic.Lib.IdealHost

set_option maxRecDepth 16384

noncomputable section

namespace Cert.NormInst

open Idealize.ShloMosaic Cert.Spec Cert.NormLaw

/-- The pattern of 1.0 is the positive real one. -/
theorem one_pos : IsPos (Ideal.ofBits .f32 0x3F800000#32) := ⟨1, zero_lt_one, by rw [Ideal.ofBits_one_f32]; norm_cast⟩

/-- The pattern of ε is the positive real 10995116 · 2⁻⁴⁰. -/
theorem eps_pos : IsPos (Ideal.ofBits .f32 0x3727C5AC#32) := by
  refine ⟨(10995116 : ℝ) * (2 : ℝ) ^ (-40 : ℤ), by positivity, ?_⟩
  simp [Ideal.ofBits, Ideal.ieee, -EReal.coe_mul] <;> norm_num

theorem gather128_eq : Cert.KernelIdeal.gather_S2048x128_S1000000x1_S1000000x128_1_0_n_n_0_1_1128
    = Cert.ReferenceIdeal.gather_S2048x128_S1000000x1_S1000000x128_1_0_n_n_0_1_1128 := rfl
theorem scatter128_eq : Cert.KernelIdeal.scatter_S2048x128_S1000000x1_S1000000x128_1_0_0_1
    = Cert.ReferenceIdeal.scatter_S2048x128_S1000000x1_S1000000x128_1_0_0_1 := rfl
theorem gather64_eq : Cert.KernelIdeal.gather_S2048x64_S1000000x1_S1000000x64_1_0_n_n_0_1_164
    = Cert.ReferenceIdeal.gather_S2048x64_S1000000x1_S1000000x64_1_0_n_n_0_1_164 := rfl
theorem scatter64_eq : Cert.KernelIdeal.scatter_S2048x64_S1000000x1_S1000000x64_1_0_0_1
    = Cert.ReferenceIdeal.scatter_S2048x64_S1000000x1_S1000000x64_1_0_0_1 := rfl
theorem scatter1_eq : Cert.KernelIdeal.scatter_S2048x1_S1000000x1_S1000000x1_1_0_0_1
    = Cert.ReferenceIdeal.scatter_S2048x1_S1000000x1_S1000000x1_1_0_0_1 := rfl

/-- A row gather from a 128-wide table reads its table in the entry's own column. -/
theorem col128 (y : (SNd 128).Idx) (idx : IVec SN1 32) :
    ((Cert.ReferenceIdeal.gather_S2048x128_S1000000x1_S1000000x128_1_0_n_n_0_1_1128.operandIdx y idx) 1).val = (y 1).val := by
  show GatherDims.start _ y idx 1 + GatherDims.batchCoord _ y 1 + GatherDims.offCoord _ y 1 = (y 1).val
  rw [GatherDims.batchCoord_eq_zero _ _ _ (by decide)]
  unfold GatherDims.start GatherDims.offCoord
  rw [dif_neg (by decide), dif_pos (by decide)]
  simp
  rfl

/-- A row gather from a 64-wide table reads its table in the entry's own column. -/
theorem col64 (y : (SNd 64).Idx) (idx : IVec SN1 32) :
    ((Cert.ReferenceIdeal.gather_S2048x64_S1000000x1_S1000000x64_1_0_n_n_0_1_164.operandIdx y idx) 1).val = (y 1).val := by
  show GatherDims.start _ y idx 1 + GatherDims.batchCoord _ y 1 + GatherDims.offCoord _ y 1 = (y 1).val
  rw [GatherDims.batchCoord_eq_zero _ _ _ (by decide)]
  unfold GatherDims.start GatherDims.offCoord
  rw [dif_neg (by decide), dif_pos (by decide)]
  simp
  rfl

end Cert.NormInst

end
-- ==== Proof.FuseKernel.lean ====
/-
  Region 0 of the kernel, read as a value: after its 125 grid points the output array holds, entry by entry, the
  fused projection of the four arrays the region finds. Each grid point multiplies its 8000-row block of the own
  features with the whole first weight and its 8000-row block of the neighbour features with the whole second
  weight, both accumulated from zero, and adds the two products; rounding the operands to the narrow format is the
  identity on the extended reals. Block t holds rows 8000 t .. 8000 t + 7999, and the 125 blocks tile the array.
-/
import proofs.«117240_j46248207843562_2_alg».proof.Proof.Gen.KernelIdeal.Frame
import proofs.«117240_j46248207843562_2_alg».proof.Proof.Spec
import Idealize.ShloMosaic.Lib.Pipeline.Value
import Idealize.ShloMosaic.Lib.ValueIdx
import Idealize.ShloMosaic.PureOps.Ideal.Laws

noncomputable section

namespace Cert.KernelIdeal.FuseValue

open Cert.KernelIdeal Cert.KernelIdeal.Gen
open Idealize.ShloMosaic Idealize.ShloMosaic.ValueIdx Idealize.ShloMosaic.TcCoe Idealize.SL.Sem
open Idealize.ShloMosaic.Pipeline (Dat)

theorem lhs64_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhs64_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhs64_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhs64_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- The product of an 8000 x 64 block with a 64 x 128 weight, accumulated from zero, at entry (r, q): the sum over
    the 64 contraction positions of the block's row r against the weight's column q. -/
theorem mm64 (a : FVec Ideal S8000x64 .bf16) (w : FVec Ideal S64x128 .bf16) (r : Fin 8000) (q : Fin 128) :
    matmul dot_S8000x64_S64x128_S8000x128_1_0_0_1_n_n none a w (constant (F := Ideal) S8000x128 .f32 0x00000000#32) (ix2 r q)
      = ∑ k : Fin 64, a (ix2 r k) * w (ix2 k q) := by
  refine (Ideal.matmul_constant_zero_apply dot_S8000x64_S64x128_S8000x128_1_0_0_1_n_n none a w (ix2 r q)).trans ?_
  rw [← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 r q) ((contrEquiv1 dot_S8000x64_S64x128_S8000x128_1_0_0_1_n_n 64 rfl rfl).symm k) = ix2 r k :=
    funext fun b => Fin.ext (by
      match b with
      | ⟨0, _⟩ => exact lhs64_0 _ _
      | ⟨1, _⟩ => exact (lhs64_1 _ _).trans hk)
  have er : dot_S8000x64_S64x128_S8000x128_1_0_0_1_n_n.rhsIdx (ix2 r q) ((contrEquiv1 dot_S8000x64_S64x128_S8000x128_1_0_0_1_n_n 64 rfl rfl).symm k) = ix2 k q :=
    funext fun b => Fin.ext (by
      match b with
      | ⟨0, _⟩ => exact (rhs64_0 _ _).trans hk
      | ⟨1, _⟩ => exact rhs64_1 _ _)
  rw [el, er]

theorem lhs128_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs128_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs128_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs128_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The product of an 8000 x 128 block with a 128 x 128 weight, accumulated from zero, at entry (r, q): the sum over
    the 128 contraction positions of the block's row r against the weight's column q. -/
theorem mm128 (a : FVec Ideal S8000x128 .bf16) (w : FVec Ideal S128x128 .bf16) (r : Fin 8000) (q : Fin 128) :
    matmul dot_S8000x128_S128x128_S8000x128_1_0_0_1_n_n none a w (constant (F := Ideal) S8000x128 .f32 0x00000000#32) (ix2 r q)
      = ∑ k : Fin 128, a (ix2 r k) * w (ix2 k q) := by
  refine (Ideal.matmul_constant_zero_apply dot_S8000x128_S128x128_S8000x128_1_0_0_1_n_n none a w (ix2 r q)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 r q) ((contrEquiv1 dot_S8000x128_S128x128_S8000x128_1_0_0_1_n_n 128 rfl rfl).symm k) = ix2 r k :=
    funext fun b => Fin.ext (by
      match b with
      | ⟨0, _⟩ => exact lhs128_0 _ _
      | ⟨1, _⟩ => exact (lhs128_1 _ _).trans hk)
  have er : dot_S8000x128_S128x128_S8000x128_1_0_0_1_n_n.rhsIdx (ix2 r q) ((contrEquiv1 dot_S8000x128_S128x128_S8000x128_1_0_0_1_n_n 128 rfl rfl).symm k) = ix2 k q :=
    funext fun b => Fin.ext (by
      match b with
      | ⟨0, _⟩ => exact (rhs128_0 _ _).trans hk
      | ⟨1, _⟩ => exact rhs128_1 _ _)
  rw [el, er]

/-- The body's arithmetic at entry (r, q) of the block: the own-feature block's row r against the first weight's
    column q, plus the neighbour block's row r against the second weight's column q. Rounding to the narrow format
    is the identity on the extended reals, and a cast to the same shape is the identity. -/
theorem pay_apply (x0 : Vec Ideal S8000x64 .f32) (x1 : Vec Ideal S8000x128 .bf16) (x2 : Vec Ideal S64x128 .f32) (x3 : Vec Ideal S128x128 .f32)
    (r : Fin 8000) (q : Fin 128) :
    k0_pay1 x0 x1 x2 x3 (ix2 r q)
      = (∑ k : Fin 64, x0 (ix2 r k) * x2 (ix2 k q)) + ∑ k : Fin 128, x1 (ix2 r k) * x3 (ix2 k q) := by
  unfold k0_pay1
  simp only [shapeCast_self]
  refine (addf_apply _ _ (ix2 r q)).trans ?_
  refine congrArg₂ (· + ·) ((mm64 _ _ r q).trans ?_) ((mm128 _ _ r q).trans ?_)
  · rfl
  · rfl

theorem hz : (![0, 0] : Fin 2 → Nat) = fun _ => 0 := funext fun a => by fin_cases a <;> rfl

/-- The printed index maps over the grid: the row-blocked windows sit at block row t, the weights at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A block entry whose operand rows are rows of the whole arrays is the fused projection's entry. -/
theorem pay_eq_fuseAt (x0 : Vec Ideal S8000x64 .f32) (x1 : Vec Ideal S8000x128 .bf16) (x2 : Vec Ideal S64x128 .f32) (x3 : Vec Ideal S128x128 .f32)
    (a : Cert.Spec.Arr 1000000 64) (n : Cert.Spec.Arr 1000000 128) (wa : Cert.Spec.Arr 64 128) (wb : Cert.Spec.Arr 128 128)
    (r : Fin 8000) (q : Fin 128) (p : Fin 1000000)
    (h0 : ∀ k : Fin 64, x0 (ix2 r k) = a (ix2 p k)) (h1 : ∀ k : Fin 128, x1 (ix2 r k) = n (ix2 p k))
    (h2 : ∀ k : Fin 64, x2 (ix2 k q) = wa (ix2 k q)) (h3 : ∀ k : Fin 128, x3 (ix2 k q) = wb (ix2 k q)) :
    k0_pay1 x0 x1 x2 x3 (ix2 r q) = Cert.Spec.fuseAt a n wa wb p q := by
  rw [pay_apply]
  unfold Cert.Spec.fuseAt
  simp only [h0, h1, h2, h3]

variable (V : (c : Dev nD) → (b : Ref sig .tc) → Buf (Elt Ideal) ((c : Thread nD τ).loc b))

set_option maxHeartbeats 1000000 in
/-- What grid point t writes back to the output is block t of the fused projection of the arrays the region finds:
    the row-blocked operands' blocks are rows 8000 t .. 8000 t + 7999 of their arrays, and the two weights are whole. -/
theorem flushed_eq (c : Dev nD) (t : Fin cfg0.N) :
    (dat0 (F := Ideal) V c).flushed 4 t = ((cfg0.win 4).blk t).view.read (Elt Ideal)
      (Cert.Spec.fuse (V c main_arg1) (V c main_v8) (V c main_v10) (V c main_v11)) := by
  show (cfg0.win 4).cut (grid0.coords t) ((dat0 V c).after 4 t) = _
  rw [after0_4]
  unfold out0_4
  rw [View.canon_unit_zero hz]
  simp only [View.ld_unit_zero (S := S8000x64) hz, View.ld_unit_zero (S := S8000x128) hz, View.ld_unit_zero (S := S64x128) hz, View.ld_unit_zero (S := S128x128) hz]
  funext j
  have hj0 : (j 0).val < 8000 := (j 0).isLt
  have hj1 : (j 1).val < 128 := (j 1).isLt
  obtain ⟨e00, e01, e10, e11, e20, e21, e30, e31, e40, e41⟩ := idx_facts t
  have ht : t.val < 125 := by have := t.isLt; have hN : cfg0.N = 125 := N_0; omega
  have hp : t.val * 8000 + (j 0).val < 1000000 := by omega
  show k0_pay1 (iblk0 V c 0 t) (iblk0 V c 1 t) (iblk0 V c 2 t) (iblk0 V c 3 t) j
    = Cert.Spec.fuse (V c main_arg1) (V c main_v8) (V c main_v10) (V c main_v11) (((cfg0.win 4).blk t).view.emb j)
  have ej : j = ix2 (⟨(j 0).val, hj0⟩ : Fin 8000) (⟨(j 1).val, hj1⟩ : Fin 128) :=
    funext fun a => by match a with | ⟨0, _⟩ => rfl | ⟨1, _⟩ => rfl
  have ei : ((cfg0.win 4).blk t).view.emb j = ix2 (⟨t.val * 8000 + (j 0).val, hp⟩ : Fin 1000000) (⟨(j 1).val, hj1⟩ : Fin 128) := by
    funext a; apply Fin.ext
    match a with
    | ⟨0, _⟩ => show win0_4.index t (0 : Fin 2) * 8000 + 1 * (j 0).val = t.val * 8000 + (j 0).val; omega
    | ⟨1, _⟩ => show win0_4.index t (1 : Fin 2) * 128 + 1 * (j 1).val = (j 1).val; omega
  rw [ei, Cert.Spec.fuse_ix2]
  have h0 : ∀ k : Fin 64, (iblk0 V c 0 t : Vec Ideal S8000x64 .f32) (ix2 (⟨(j 0).val, hj0⟩ : Fin 8000) k)
      = (V c main_arg1 : Cert.Spec.Arr 1000000 64) (ix2 (⟨t.val * 8000 + (j 0).val, hp⟩ : Fin 1000000) k) := fun k => by
    show V c main_arg1 (((cfg0.win 0).blk t).view.emb (ix2 (⟨(j 0).val, hj0⟩ : Fin 8000) k)) = _
    refine congrArg _ (funext fun a => Fin.ext ?_)
    match a with
    | ⟨0, _⟩ => show win0_0.index t (0 : Fin 2) * 8000 + 1 * (j 0).val = t.val * 8000 + (j 0).val; omega
    | ⟨1, _⟩ => show win0_0.index t (1 : Fin 2) * 64 + 1 * k.val = k.val; omega
  have h1 : ∀ k : Fin 128, (iblk0 V c 1 t : Vec Ideal S8000x128 .bf16) (ix2 (⟨(j 0).val, hj0⟩ : Fin 8000) k)
      = (V c main_v8 : Cert.Spec.Arr 1000000 128) (ix2 (⟨t.val * 8000 + (j 0).val, hp⟩ : Fin 1000000) k) := fun k => by
    show V c main_v8 (((cfg0.win 1).blk t).view.emb (ix2 (⟨(j 0).val, hj0⟩ : Fin 8000) k)) = _
    refine congrArg _ (funext fun a => Fin.ext ?_)
    match a with
    | ⟨0, _⟩ => show win0_1.index t (0 : Fin 2) * 8000 + 1 * (j 0).val = t.val * 8000 + (j 0).val; omega
    | ⟨1, _⟩ => show win0_1.index t (1 : Fin 2) * 128 + 1 * k.val = k.val; omega
  have h2 : ∀ k : Fin 64, (iblk0 V c 2 t : Vec Ideal S64x128 .f32) (ix2 k (⟨(j 1).val, hj1⟩ : Fin 128))
      = (V c main_v10 : Cert.Spec.Arr 64 128) (ix2 k (⟨(j 1).val, hj1⟩ : Fin 128)) := fun k => by
    show V c main_v10 (((cfg0.win 2).blk t).view.emb (ix2 k (⟨(j 1).val, hj1⟩ : Fin 128))) = _
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * (j 1).val = (j 1).val; omega
  have h3 : ∀ k : Fin 128, (iblk0 V c 3 t : Vec Ideal S128x128 .f32) (ix2 k (⟨(j 1).val, hj1⟩ : Fin 128))
      = (V c main_v11 : Cert.Spec.Arr 128 128) (ix2 k (⟨(j 1).val, hj1⟩ : Fin 128)) := fun k => by
    show V c main_v11 (((cfg0.win 3).blk t).view.emb (ix2 k (⟨(j 1).val, hj1⟩ : Fin 128))) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = (j 1).val; omega
  refine Eq.trans (congrArg (k0_pay1 (iblk0 V c 0 t) (iblk0 V c 1 t) (iblk0 V c 2 t) (iblk0 V c 3 t)) ej) ?_
  exact pay_eq_fuseAt (iblk0 V c 0 t) (iblk0 V c 1 t) (iblk0 V c 2 t) (iblk0 V c 3 t)
    (V c main_arg1) (V c main_v8) (V c main_v10) (V c main_v11)
    (⟨(j 0).val, hj0⟩ : Fin 8000) (⟨(j 1).val, hj1⟩ : Fin 128) (⟨t.val * 8000 + (j 0).val, hp⟩ : Fin 1000000) h0 h1 h2 h3

/-- An index of the output array is in point t's block iff each coordinate is in the block's range on its axis. -/
theorem mem_blk (t : Fin cfg0.N) (i : S1000000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v12).slice (win0_4.rect t)).set ↔ _
  rw [View.set_slice_whole, Rect.mem_set_unit]
  exact Iff.rfl

/-- The 125 row blocks cover the output: row p lies in the block of point p / 8000. -/
theorem cover (i : S1000000x128.Idx) :
    ∃ t : Fin cfg0.N, (cfg0.win 4).flush t = true ∧ i ∈ ((cfg0.win 4).blk t).view.set := by
  have hi0 : (i 0).val < 1000000 := (i 0).isLt
  have hi1 : (i 1).val < 128 := (i 1).isLt
  have hN : cfg0.N = 125 := N_0
  obtain ⟨t, ht⟩ : ∃ t : Fin cfg0.N, t.val = (i 0).val / 8000 := ⟨⟨(i 0).val / 8000, by omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 8000 ≤ (i 0).val ∧ (i 0).val < win0_4.index t (0 : Fin 2) * 8000 + 8000
    omega
  | ⟨1, _⟩ =>
    show win0_4.index t (1 : Fin 2) * 128 ≤ (i 1).val ∧ (i 1).val < win0_4.index t (1 : Fin 2) * 128 + 128
    omega

/-- After region 0 the output array holds the fused projection of the four arrays the region finds. -/
theorem fuse_region (c : Dev nD) :
    ((Gen.dat0 (F := Ideal) V c).arrAt 4 cfg0.N : Cert.Spec.Arr 1000000 128)
      = Cert.Spec.fuse (V c main_arg1) (V c main_v8) (V c main_v10) (V c main_v11) :=
  (dat0 (F := Ideal) V c).arrAt_eq_of_cover 4 (Cert.Spec.fuse (V c main_arg1) (V c main_v8) (V c main_v10) (V c main_v11))
    (fun t _ => flushed_eq V c t) cover

end Cert.KernelIdeal.FuseValue

end
-- ==== Proof.FuseRef.lean ====
/-
  The reference's fused projection, entry by entry: the product of the row-wise concatenation of the 64 own
  features and the 128 gathered neighbour features with the transposed 192 x 128 weight is the sum over the
  first 64 contraction positions (own features against the weight's first 64 rows) plus the sum over the last 128
  (neighbour features against the remaining rows).
-/
import proofs.«117240_j46248207843562_2_alg».proof.Proof.Gen.ReferenceIdeal.Read
import proofs.«117240_j46248207843562_2_alg».proof.Proof.Spec
import Idealize.ShloMosaic.Lib.Pipeline.Value
import Idealize.ShloMosaic.Lib.ValueIdx

noncomputable section

namespace Cert.FuseRef

open Cert.ReferenceIdeal Cert.ReferenceIdeal.Gen
open Idealize.ShloMosaic Idealize.ShloMosaic.ValueIdx

/-- A row-wise concatenation of a 64-wide and a 128-wide array, read in its first 64 columns. -/
theorem concat_left (a : Cert.Spec.Arr 1000000 64) (n : Cert.Spec.Arr 1000000 128) (p : Fin 1000000) (k : Fin 64)
    (j : S1000000x192.Idx) (h0 : (j 0).val = p.val) (h1 : (j 1).val = k.val) :
    concatenate S1000000x192 1 [⟨S1000000x64, a⟩, ⟨S1000000x128, n⟩] concatenates_S1000000x64_S1000000x128_S1000000x192_d1 j
      = a (ix2 p k) :=
  concatenate_pair_apply_left (1 : Fin S1000000x192.rank) a n concatenates_S1000000x64_S1000000x128_S1000000x192_d1 j rfl (ix2 p k)
    (fun b => match b with
      | ⟨0, _⟩ => h0.symm
      | ⟨1, _⟩ => h1.symm)

/-- The same concatenation read in its last 128 columns. -/
theorem concat_right (a : Cert.Spec.Arr 1000000 64) (n : Cert.Spec.Arr 1000000 128) (p : Fin 1000000) (k : Fin 128)
    (j : S1000000x192.Idx) (h0 : (j 0).val = p.val) (h1 : (j 1).val = 64 + k.val) :
    concatenate S1000000x192 1 [⟨S1000000x64, a⟩, ⟨S1000000x128, n⟩] concatenates_S1000000x64_S1000000x128_S1000000x192_d1 j
      = n (ix2 p k) :=
  concatenate_pair_apply_right (1 : Fin S1000000x192.rank) a n concatenates_S1000000x64_S1000000x128_S1000000x192_d1 j rfl rfl (ix2 p k)
    (fun b => match b with
      | ⟨0, _⟩ => fun _ => h0.symm
      | ⟨1, _⟩ => fun hb => absurd rfl hb)
    (by show k.val + 64 = (j 1).val; omega)

/-- The sum over the 192 contraction positions of the concatenated row against a weight column splits at position 64
    into the own features against the weight's first 64 rows and the neighbour features against its last 128. -/
theorem sum_split (a : Cert.Spec.Arr 1000000 64) (n : Cert.Spec.Arr 1000000 128) (w : Cert.Spec.Arr 192 128) (p : Fin 1000000) (q : Fin 128) :
    (∑ k : Fin 192, concatenate S1000000x192 1 [⟨S1000000x64, a⟩, ⟨S1000000x128, n⟩] concatenates_S1000000x64_S1000000x128_S1000000x192_d1
          (Read.lidx_main_v10 (ix2 p q) k) * w (Read.ridx_main_v10 (ix2 p q) k))
      = Cert.Spec.fuseAt a n (Cert.Spec.topRows w) (Cert.Spec.botRows w) p q := by
  unfold Cert.Spec.fuseAt
  show ∑ k : Fin (64 + 128), _ = _
  rw [Fin.sum_univ_add]
  congr 1
  · refine Finset.sum_congr rfl fun k _ => ?_
    rw [concat_left a n p k _ rfl rfl]
    refine congrArg (a (ix2 p k) * ·) ?_
    unfold Cert.Spec.topRows
    refine congrArg w (funext fun b => ?_)
    match b with
    | ⟨0, _⟩ => rfl
    | ⟨1, _⟩ => rfl
  · refine Finset.sum_congr rfl fun k _ => ?_
    rw [concat_right a n p k _ rfl rfl]
    refine congrArg (n (ix2 p k) * ·) ?_
    unfold Cert.Spec.botRows
    refine congrArg w (funext fun b => ?_)
    match b with
    | ⟨0, _⟩ => rfl
    | ⟨1, _⟩ => rfl

/-- The reference's dot_general of the concatenated features with the transposed weight is the fused projection of
    the own features, the gathered neighbour features and the weight's two row blocks. -/
theorem fuse_ref (x0 : (⟨S400000x64, .f32⟩ : BufTy).Contents (Elt Ideal)) (x1 : (⟨S1000000x64, .f32⟩ : BufTy).Contents (Elt Ideal))
    (x2 : (⟨S1000000x2, .i32⟩ : BufTy).Contents (Elt Ideal)) (x4 : (⟨S128x192, .f32⟩ : BufTy).Contents (Elt Ideal)) :
    Read.val_main_v10 (F := Ideal) x0 x1 x2 x4
      = Cert.Spec.fuse x1 (Read.val_main_v7 (F := Ideal) x0 x2) (Cert.Spec.topRows (Read.val_main_v9 (F := Ideal) x4))
          (Cert.Spec.botRows (Read.val_main_v9 (F := Ideal) x4)) := by
  funext i
  obtain ⟨p, q, rfl⟩ : ∃ (p : Fin 1000000) (q : Fin 128), i = ix2 p q := ⟨i 0, i 1, eq_ix2 i⟩
  rw [Read.val_main_v10_apply, Cert.Spec.fuse_ix2]
  unfold Read.val_main_v8
  generalize Read.val_main_v7 (F := Ideal) x0 x2 = n
  generalize Read.val_main_v9 (F := Ideal) x4 = w
  exact sum_split x1 n w p q

end Cert.FuseRef

end
-- ==== Proof.GateKernel.lean ====
/-
  The gate region's output array is the specification's `gate` of the region's two input arrays.

  The body's one store is read at an index `(r, q)`: the broadcast column is `tanh` of the lane sum, over the upper 64
  columns of row `r`, of the block's entries times the mask row's, and the other factor is the maximum of the block's
  entry `(r, q)` and zero. A point `t` of the grid holds rows `8000 t … 8000 t + 7999` of the first input and of the
  output and the whole mask row, so what it writes back is block `t` of `gate`; the 125 blocks cover the output array.
-/
import proofs.«117240_j46248207843562_2_alg».proof.Proof.Gen.KernelIdeal.Frame
import proofs.«117240_j46248207843562_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GateValue

open Cert.KernelIdeal Cert.KernelIdeal.Gen
open Idealize.ShloMosaic Idealize.ShloMosaic.ValueIdx Idealize.ShloMosaic.TcCoe Idealize.SL.Sem
open Idealize.ShloMosaic.Pipeline (Dat)

/-! ## Two column forms of the layout operations, read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- Entry `(r, q)` of what the body stores, from the two blocks it loads: `tanh` of the sum over the upper 64 columns
    of row `r` against the mask row, times the rectified column `q` of row `r`. -/
theorem gate_pay_apply (v0 : Vec Ideal S8000x128 .f32) (v6 : Vec Ideal S1x64 .f32) (r : Fin 8000) (q : Fin 64) :
    k1_pay1 (F := Ideal) v0 v6 (ix2 r q)
      = Ideal.tanh (∑ k : Fin 64, v0 (ix2 r (⟨64 + k.val, by omega⟩ : Fin 128)) * v6 (ix2 (0 : Fin 1) k))
          * max (v0 (ix2 r (⟨q.val, by omega⟩ : Fin 128))) 0 := by
  unfold k1_pay1
  refine (mulf_apply _ _ _).trans ?_
  refine congrArg₂ (· * ·) ?_ ?_
  · refine (broadcastTo_a1_ab_apply _ _ r q).trans ?_
    refine congrArg Ideal.tanh ?_
    refine (shapeCast_a_a1_apply _ _ r (0 : Fin 1)).trans ?_
    refine (Ideal.multiReduction_add_single _ _ _ _ _ (ix1 r)).trans ?_
    refine Finset.sum_congr rfl fun k _ => ?_
    have hl : reduces_S8000x64_S8000.lift (ix1 r) k = ix2 r k :=
      funext fun a => Fin.ext (by match a with | ⟨0, _⟩ => rfl | ⟨1, _⟩ => rfl)
    rw [hl]
    refine (mulf_apply _ _ _).trans ?_
    refine congrArg₂ (· * ·) ?_ ?_
    · rw [shapeCast_self]
      exact slice2_axis1_apply 64 v0 _ r k _ rfl
    · exact broadcastTo_1b_ab_apply v6 _ r k
  · refine (maximumf_apply _ _ _).trans ?_
    refine congrArg₂ max ?_ ?_
    · rw [shapeCast_self]
      exact slice2_axis1_apply 0 v0 _ r q _ (Nat.zero_add _).symm
    · exact Ideal.ofBits_zero_f32

/-! ## From a point's blocks to the array -/

/-- Entry `(r, q)` of what the body stores is entry `(p, q)` of `gate` of two arrays `g` and `wm`, when row `r` of the
    first block loaded is row `p` of `g` and the second block is `wm`'s one row. -/
theorem gate_block (g : Cert.Spec.Arr 1000000 128) (wm : Cert.Spec.Arr 1 64) (b0 : Vec Ideal S8000x128 .f32) (b1 : Vec Ideal S1x64 .f32)
    (r : Fin 8000) (p : Fin 1000000)
    (h0 : ∀ k : Fin 128, b0 (ix2 r k) = g (ix2 p k))
    (h1 : ∀ k : Fin 64, b1 (ix2 (0 : Fin 1) k) = wm (ix2 (0 : Fin 1) k)) (q : Fin 64) :
    k1_pay1 (F := Ideal) b0 b1 (ix2 r q) = Cert.Spec.gate g wm (ix2 p q) := by
  rw [gate_pay_apply, Cert.Spec.gate_ix2]
  unfold Cert.Spec.gateAt
  simp only [h0, h1]

theorem hz : (![0, 0] : Fin 2 → Nat) = fun _ => 0 := funext fun a => by fin_cases a <;> rfl

/-- The printed index maps, decided over the grid: at point `t` the first input and the output are at block row `t`,
    the mask row at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of `gate` of the two input arrays as the region finds them: the first input's
    block at `t` is rows `8000 t …` of its array, the second input's block is its whole one-row array, and the output's
    block at `t` is rows `8000 t …` of its array. -/
theorem flushed_eq (c : Dev nD) (t : Fin cfg1.N) :
    (dat1 (F := Ideal) V c).flushed 2 t
      = ((cfg1.win 2).blk t).view.read (Elt Ideal) (Cert.Spec.gate (V c main_v63) (V c main_arg5)) := by
  show (cfg1.win 2).cut (grid1.coords t) ((dat1 V c).after 2 t) = _
  rw [after1_2]
  unfold out1_2
  rw [View.canon_unit_zero hz]
  simp only [View.ld_unit_zero (S := S8000x128) hz, View.ld_unit_zero (S := S1x64) hz]
  obtain ⟨e0, e1, e2, e3, e4, e5⟩ := idx_facts t
  funext j
  have hj0 : (j 0).val < 8000 := (j 0).isLt
  have hj1 : (j 1).val < 64 := (j 1).isLt
  have hN : t.val < 125 := lt_of_lt_of_eq t.isLt (N_1 : cfg1.N = 125)
  have hL : (win1 2).xinj (grid1.coords t) j = ix2 (⟨(j 0).val, hj0⟩ : Fin 8000) (⟨(j 1).val, hj1⟩ : Fin 64) :=
    funext fun a => Fin.ext (by match a with | ⟨0, _⟩ => rfl | ⟨1, _⟩ => rfl)
  have hR : ((cfg1.win 2).blk t).view.emb j
      = ix2 (⟨t.val * 8000 + (j 0).val, by omega⟩ : Fin 1000000) (⟨(j 1).val, hj1⟩ : Fin 64) :=
    funext fun a => Fin.ext (by
      match a with
      | ⟨0, _⟩ => show win1_2.index t (0 : Fin 2) * 8000 + 1 * (j 0).val = t.val * 8000 + (j 0).val; rw [e4]; omega
      | ⟨1, _⟩ => show win1_2.index t (1 : Fin 2) * 64 + 1 * (j 1).val = (j 1).val; rw [e5]; omega)
  show k1_pay1 (iblk1 V c 0 t) (iblk1 V c 1 t) ((win1 2).xinj (grid1.coords t) j)
    = Cert.Spec.gate (V c main_v63) (V c main_arg5) (((cfg1.win 2).blk t).view.emb j)
  rw [hL, hR]
  refine gate_block _ _ _ _ _ _ ?_ ?_ _
  · intro k
    show V c main_v63 (((cfg1.win 0).blk t).view.emb (ix2 (⟨(j 0).val, hj0⟩ : Fin 8000) k)) = _
    refine congrArg _ (funext fun a => Fin.ext ?_)
    match a with
    | ⟨0, _⟩ => show win1_0.index t (0 : Fin 2) * 8000 + 1 * (j 0).val = t.val * 8000 + (j 0).val; rw [e0]; omega
    | ⟨1, _⟩ => show win1_0.index t (1 : Fin 2) * 128 + 1 * k.val = k.val; rw [e1]; omega
  · intro k
    show V c main_arg5 (((cfg1.win 1).blk t).view.emb (ix2 (0 : Fin 1) k)) = _
    refine congrArg _ (funext fun a => Fin.ext ?_)
    match a with
    | ⟨0, _⟩ => show win1_1.index t (0 : Fin 2) * 1 + 1 * 0 = 0; rw [e2]
    | ⟨1, _⟩ => show win1_1.index t (1 : Fin 2) * 64 + 1 * k.val = k.val; rw [e3]; omega

/-- An index of the output array is in point `t`'s block iff each coordinate is in the block's range on its axis. -/
theorem mem_blk (t : Fin cfg1.N) (i : S1000000x64.Idx) :
    i ∈ ((cfg1.win 2).blk t).view.set ↔ ∀ a : Fin 2, win1_2.index t a * S8000x64.size a ≤ (i a).val
      ∧ (i a).val < win1_2.index t a * S8000x64.size a + S8000x64.size a := by
  show i ∈ ((View.whole main_v64).slice (win1_2.rect t)).set ↔ _
  rw [View.set_slice_whole, Rect.mem_set_unit]
  exact Iff.rfl

/-- Every row of the output array is in the block of the point its row number divided by 8000 names. -/
theorem cover (i : S1000000x64.Idx) :
    ∃ t : Fin cfg1.N, (cfg1.win 2).flush t = true ∧ i ∈ ((cfg1.win 2).blk t).view.set := by
  have hi0 : (i 0).val < 1000000 := (i 0).isLt
  have hi1 : (i 1).val < 64 := (i 1).isLt
  obtain ⟨t, ht⟩ : ∃ t : Fin cfg1.N, t.val = (i 0).val / 8000 :=
    ⟨⟨(i 0).val / 8000, lt_of_lt_of_eq (by omega) (N_1 : cfg1.N = 125).symm⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 8000 ≤ (i 0).val ∧ (i 0).val < win1_2.index t (0 : Fin 2) * 8000 + 8000
    rw [e4, ht]; omega
  | ⟨1, _⟩ =>
    show win1_2.index t (1 : Fin 2) * 64 ≤ (i 1).val ∧ (i 1).val < win1_2.index t (1 : Fin 2) * 64 + 64
    rw [e5]; omega

/-- THE OUTPUT ARRAY after the region: `gate` of the two input arrays as the region finds them. -/
theorem gate_region (c : Dev nD) :
    ((Gen.dat1 (F := Ideal) V c).arrAt 2 cfg1.N : Cert.Spec.Arr 1000000 64)
      = Cert.Spec.gate (V c main_v63) (V c main_arg5) :=
  (dat1 V c).arrAt_eq_of_cover 2 (Cert.Spec.gate (V c main_v63) (V c main_arg5)) (fun t _ => flushed_eq V c t) cover

end Cert.KernelIdeal.GateValue

end
-- ==== Proof.GateRef.lean ====
/-
  The reference's gate stage is the specification's `gate`: entry `(p, q)` of the reference's product is
  `tanh` of the contraction of columns 64..127 of row `p` of the normalised features with the mask row, times the
  rectified column `q` of that row. The stages are read one at a time at an index; the three composed index maps
  (the slice of the upper columns under the contraction, the transposed mask row, the slice of the lower columns)
  are identified with the specification's coordinates.
-/
import proofs.«117240_j46248207843562_2_alg».proof.Proof.Gen.ReferenceIdeal.Read
import proofs.«117240_j46248207843562_2_alg».proof.Proof.Spec

noncomputable section

namespace Cert.GateRef

open Cert.ReferenceIdeal Cert.ReferenceIdeal.Gen Cert.ReferenceIdeal.Read
open Idealize.ShloMosaic Idealize.ShloMosaic.ValueIdx

/-- Under the contraction, the upper slice at `(p, k)` reads column `64 + k` of row `p`. -/
theorem idx_upper (p : Fin 1000000) (q : Fin 64) (k : Fin 64) :
    idx_main_v54 (lidx_main_v57 (idx_main_v59 (ix2 p q)) k) = ix2 p (⟨64 + k.val, by omega⟩ : Fin 128) :=
  funext fun a => Fin.ext (by match a with | ⟨0, _⟩ => rfl | ⟨1, _⟩ => rfl)

/-- Under the contraction, the transposed mask at `(k, 0)` reads entry `k` of the mask's one row. -/
theorem idx_mask (p : Fin 1000000) (q : Fin 64) (k : Fin 64) :
    idx_main_v56 (ridx_main_v57 (idx_main_v59 (ix2 p q)) k) = ix2 (0 : Fin 1) k :=
  funext fun a => Fin.ext (by match a with | ⟨0, _⟩ => rfl | ⟨1, _⟩ => rfl)

/-- The lower slice at `(p, q)` reads column `q` of row `p`. -/
theorem idx_lower (p : Fin 1000000) (q : Fin 64) :
    idx_main_v53 (ix2 p q) = ix2 p (⟨q.val, by omega⟩ : Fin 128) :=
  funext fun a => Fin.ext (by match a with | ⟨0, _⟩ => rfl | ⟨1, _⟩ => rfl)

/-- The reference's gated features are `gate` of its normalised features and the mask row. -/
theorem gate_ref (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x5 : (⟨S1x64, .f32⟩ : BufTy).Contents (Elt Ideal)) (x6 x7 : (⟨S128, .f32⟩ : BufTy).Contents (Elt Ideal)) :
    Read.val_main_v60 (F := Ideal) x0 x1 x2 x3 x4 x5 x6 x7
      = Cert.Spec.gate (Read.val_main_v52 (F := Ideal) x0 x1 x2 x3 x4 x6 x7) x5 := by
  funext i
  obtain ⟨p, q, rfl⟩ : ∃ (p : Fin 1000000) (q : Fin 64), i = ix2 p q := ⟨i 0, i 1, eq_ix2 i⟩
  rw [Cert.Spec.gate_ix2, val_main_v60_apply, val_main_v59_apply, val_main_v58_apply, val_main_v57_apply,
    val_main_v55_apply, val_main_v53_apply, val_main_call0_v0_apply, val_main_call0_cst_apply]
  simp only [val_main_v54_apply, val_main_v56_apply, idx_upper, idx_mask, idx_lower]
  generalize val_main_v52 (F := Ideal) x0 x1 x2 x3 x4 x6 x7 = g
  unfold Cert.Spec.gateAt
  simp only [Ideal.mulf_def, Ideal.maximumf_def, Ideal.hostUnary_tanh_def, Ideal.ofBits_def, Ideal.ofBits_zero_f32]

end Cert.GateRef

end
-- ==== Proof.FinalKernel.lean ====
/-
  The last region of the kernel, read as one array.  Each grid point loads a block of 8000 rows of the normalised
  features and of the angle features together with the four whole weights and four bias rows, and stores one block of
  the result: two residual layers `x + relu(x·A + a)·B + b`, the angle features added, the sum rectified and scaled by
  the binary value of 1/sqrt 2.  Every entry of a block depends on one row of the two feature arrays only, so block `t`
  of the result is the specification read through rows `8000 t … 8000 t + 7999`, and the 125 blocks tile the array.
-/
import proofs.«117240_j46248207843562_2_alg».proof.Proof.Gen.KernelIdeal.Frame
import proofs.«117240_j46248207843562_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FinalValue

open Cert.KernelIdeal Cert.KernelIdeal.Gen Idealize.ShloMosaic Idealize.ShloMosaic.TcCoe Idealize.ShloMosaic.ValueIdx

/-! ## The two block products

A block of 8000 rows times a whole weight, accumulated from zero: entry `(p, r)` is the sum over the contracted axis of
the row's entries times the weight's column. -/

theorem prod64_lhs0 (i : S8000x32.Idx) (κ : dot_S8000x64_S64x32_S8000x32_1_0_0_1_n_n.contr.Idx) : (dot_S8000x64_S64x32_S8000x32_1_0_0_1_n_n.lhsIdx i κ 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl
theorem prod64_rhs1 (i : S8000x32.Idx) (κ : dot_S8000x64_S64x32_S8000x32_1_0_0_1_n_n.contr.Idx) : (dot_S8000x64_S64x32_S8000x32_1_0_0_1_n_n.rhsIdx i κ 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- Rows of 64 features against a 64×32 weight. -/
theorem prod64 (a : FVec Ideal S8000x64 .bf16) (b : FVec Ideal S64x32 .bf16) (p : Fin 8000) (r : Fin 32) :
    matmul dot_S8000x64_S64x32_S8000x32_1_0_0_1_n_n none a b (constant S8000x32 .f32 0x00000000#32) (ix2 p r) = ∑ k : Fin 64, a (ix2 p k) * b (ix2 k r) := by
  show FloatOps.matmul dot_S8000x64_S64x32_S8000x32_1_0_0_1_n_n none a b (constant S8000x32 .f32 0x00000000#32) (ix2 p r) = _
  rw [Ideal.matmul_constant_zero_apply, ← Equiv.sum_comp (contrEquiv1 dot_S8000x64_S64x32_S8000x32_1_0_0_1_n_n 64 rfl rfl).symm]
  refine Finset.sum_congr rfl fun k _ => ?_
  have hk := contrEquiv1_symm_val dot_S8000x64_S64x32_S8000x32_1_0_0_1_n_n 64 rfl rfl k
  have el : dot_S8000x64_S64x32_S8000x32_1_0_0_1_n_n.lhsIdx (ix2 p r) ((contrEquiv1 dot_S8000x64_S64x32_S8000x32_1_0_0_1_n_n 64 rfl rfl).symm k) = ix2 p k := funext fun ax => Fin.ext (by
    match ax with
    | ⟨0, _⟩ => exact prod64_lhs0 _ _
    | ⟨1, _⟩ => exact (dot_S8000x64_S64x32_S8000x32_1_0_0_1_n_n.lhsIdx_val_of_single rfl _ _).trans hk)
  have er : dot_S8000x64_S64x32_S8000x32_1_0_0_1_n_n.rhsIdx (ix2 p r) ((contrEquiv1 dot_S8000x64_S64x32_S8000x32_1_0_0_1_n_n 64 rfl rfl).symm k) = ix2 k r := funext fun ax => Fin.ext (by
    match ax with
    | ⟨0, _⟩ => exact (dot_S8000x64_S64x32_S8000x32_1_0_0_1_n_n.rhsIdx_val_of_single rfl _ _).trans hk
    | ⟨1, _⟩ => exact prod64_rhs1 _ _)
  rw [el, er]

theorem prod32_lhs0 (i : S8000x64.Idx) (κ : dot_S8000x32_S32x64_S8000x64_1_0_0_1_n_n.contr.Idx) : (dot_S8000x32_S32x64_S8000x64_1_0_0_1_n_n.lhsIdx i κ 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
theorem prod32_rhs1 (i : S8000x64.Idx) (κ : dot_S8000x32_S32x64_S8000x64_1_0_0_1_n_n.contr.Idx) : (dot_S8000x32_S32x64_S8000x64_1_0_0_1_n_n.rhsIdx i κ 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- Rows of 32 hidden activations against a 32×64 weight. -/
theorem prod32 (a : FVec Ideal S8000x32 .bf16) (b : FVec Ideal S32x64 .bf16) (p : Fin 8000) (r : Fin 64) :
    matmul dot_S8000x32_S32x64_S8000x64_1_0_0_1_n_n none a b (constant S8000x64 .f32 0x00000000#32) (ix2 p r) = ∑ k : Fin 32, a (ix2 p k) * b (ix2 k r) := by
  show FloatOps.matmul dot_S8000x32_S32x64_S8000x64_1_0_0_1_n_n none a b (constant S8000x64 .f32 0x00000000#32) (ix2 p r) = _
  rw [Ideal.matmul_constant_zero_apply, ← Equiv.sum_comp (contrEquiv1 dot_S8000x32_S32x64_S8000x64_1_0_0_1_n_n 32 rfl rfl).symm]
  refine Finset.sum_congr rfl fun k _ => ?_
  have hk := contrEquiv1_symm_val dot_S8000x32_S32x64_S8000x64_1_0_0_1_n_n 32 rfl rfl k
  have el : dot_S8000x32_S32x64_S8000x64_1_0_0_1_n_n.lhsIdx (ix2 p r) ((contrEquiv1 dot_S8000x32_S32x64_S8000x64_1_0_0_1_n_n 32 rfl rfl).symm k) = ix2 p k := funext fun ax => Fin.ext (by
    match ax with
    | ⟨0, _⟩ => exact prod32_lhs0 _ _
    | ⟨1, _⟩ => exact (dot_S8000x32_S32x64_S8000x64_1_0_0_1_n_n.lhsIdx_val_of_single rfl _ _).trans hk)
  have er : dot_S8000x32_S32x64_S8000x64_1_0_0_1_n_n.rhsIdx (ix2 p r) ((contrEquiv1 dot_S8000x32_S32x64_S8000x64_1_0_0_1_n_n 32 rfl rfl).symm k) = ix2 k r := funext fun ax => Fin.ext (by
    match ax with
    | ⟨0, _⟩ => exact (dot_S8000x32_S32x64_S8000x64_1_0_0_1_n_n.rhsIdx_val_of_single rfl _ _).trans hk
    | ⟨1, _⟩ => exact prod32_rhs1 _ _)
  rw [el, er]

/-- The zero word is the number zero. -/
theorem zero_word : (Scalar.ofBits (F := Ideal) .f32 0x00000000#32 : Ideal .f32) = 0 := by
  show Ideal.ofBits .f32 0x00000000#32 = 0
  exact Ideal.ofBits_zero_f32

/-! ## The body's arithmetic, entry by entry -/

/-- One residual layer of a block: `x + relu(x·A + a)·B + b` at row `p`, column `q`. -/
theorem layer_apply (v0 : Vec Ideal S8000x64 .f32) (v3 : Vec Ideal S64x32 .f32) (v7 : Vec Ideal S1x32 .f32)
    (v14 : Vec Ideal S32x64 .f32) (v19 : Vec Ideal S1x64 .f32) (p : Fin 8000) (q : Fin 64) :
    k2_pay2 (F := Ideal) v0 v3 v7 v14 v19 (ix2 p q)
      = (v0 (ix2 p q) + ∑ r : Fin 32, max ((∑ k : Fin 64, v0 (ix2 p k) * v3 (ix2 k r)) + v7 (ix2 (0 : Fin 1) r)) 0 * v14 (ix2 r q))
          + v19 (ix2 (0 : Fin 1) q) := by
  unfold k2_pay2
  simp only [shapeCast_self, addf_apply, maximumf_apply, truncf_apply, broadcast_apply, prod64, prod32,
    broadcastTo_1b_ab_apply, zero_word]

/-- The second layer's hidden activation `relu(y·A + a)` of a block, `y` the first layer's result. -/
theorem hidden_apply (v0 : Vec Ideal S8000x64 .f32) (v3 : Vec Ideal S64x32 .f32) (v7 : Vec Ideal S1x32 .f32)
    (v14 : Vec Ideal S32x64 .f32) (v19 : Vec Ideal S1x64 .f32) (v24 : Vec Ideal S64x32 .f32) (v28 : Vec Ideal S1x32 .f32)
    (p : Fin 8000) (r : Fin 32) :
    k2_pay3 (F := Ideal) v0 v3 v7 v14 v19 v24 v28 (ix2 p r)
      = max ((∑ k : Fin 64, k2_pay2 (F := Ideal) v0 v3 v7 v14 v19 (ix2 p k) * v24 (ix2 k r)) + v28 (ix2 (0 : Fin 1) r)) 0 := by
  unfold k2_pay3
  simp only [shapeCast_self, addf_apply, maximumf_apply, truncf_apply, broadcast_apply, prod64,
    broadcastTo_1b_ab_apply, zero_word]

/-- The last weight passes through unchanged. -/
theorem weight_apply (v35 : Vec Ideal S32x64 .f32) (i : S32x64.Idx) : k2_pay4 (F := Ideal) v35 i = v35 i := by
  unfold k2_pay4
  simp only [shapeCast_self, truncf_apply]

/-- The tail: the second layer closed, the angle features added, the result rectified and scaled. -/
theorem tail_apply (v22 : FVec Ideal S8000x64 .f32) (v34 : FVec Ideal S8000x32 .bf16) (v37 : FVec Ideal S32x64 .bf16)
    (v40 : Vec Ideal S1x64 .f32) (v44 : Vec Ideal S8000x64 .f32) (p : Fin 8000) (q : Fin 64) :
    k2_pay1 (F := Ideal) v22 v34 v37 v40 v44 (ix2 p q)
      = Ideal.ofBits .f32 0x3F3504F3#32
          * max (v44 (ix2 p q) + ((v22 (ix2 p q) + ∑ r : Fin 32, v34 (ix2 p r) * v37 (ix2 r q)) + v40 (ix2 (0 : Fin 1) q))) 0 := by
  unfold k2_pay1
  simp only [shapeCast_self, addf_apply, mulf_apply, maximumf_apply, broadcast_apply, prod32,
    broadcastTo_1b_ab_apply, zero_word]
  rfl

/-! ## A block of the result is the specification read through the block's rows -/

theorem zero_offsets : (![0, 0] : Fin 2 → Nat) = fun _ => 0 := funext fun a => by fin_cases a <;> rfl

/-- What the body leaves in the output window: its one whole-buffer store of the tail, over whole-buffer loads. -/
theorem out_eq (x0 x1 : Vec Ideal S8000x64 .f32) (x2 : Vec Ideal S64x32 .f32) (x3 : Vec Ideal S1x32 .f32)
    (x4 : Vec Ideal S32x64 .f32) (x5 : Vec Ideal S1x64 .f32) (x6 : Vec Ideal S64x32 .f32) (x7 : Vec Ideal S1x32 .f32)
    (x8 : Vec Ideal S32x64 .f32) (x9 : Vec Ideal S1x64 .f32) :
    out2_10 (F := Ideal) x0 x1 x2 x3 x4 x5 x6 x7 x8 x9
      = k2_pay1 (k2_pay2 x0 x2 x3 x4 x5) (k2_pay3 x0 x2 x3 x4 x5 x6 x7) (k2_pay4 x8) x9 x1 := by
  unfold out2_10
  rw [View.canon_unit_zero zero_offsets]
  simp only [View.ld_unit_zero (S := S8000x64) zero_offsets, View.ld_unit_zero (S := S64x32) zero_offsets,
    View.ld_unit_zero (S := S1x32) zero_offsets, View.ld_unit_zero (S := S32x64) zero_offsets,
    View.ld_unit_zero (S := S1x64) zero_offsets]

/-- If a block's row `p` is row `ρ p` of the whole arrays, the body's result at `(p, q)` is the specification's entry
    `(ρ p, q)`: every operation of the body reads one row of the features and whole weights. -/
theorem block_value (X ang : Cert.Spec.Arr 1000000 64) (w1a : Cert.Spec.Arr 64 32) (b1a : Cert.Spec.Arr 1 32)
    (w1b : Cert.Spec.Arr 32 64) (b1b : Cert.Spec.Arr 1 64) (w2a : Cert.Spec.Arr 64 32) (b2a : Cert.Spec.Arr 1 32)
    (w2b : Cert.Spec.Arr 32 64) (b2b : Cert.Spec.Arr 1 64) (x0 x1 : Vec Ideal S8000x64 .f32) (ρ : Fin 8000 → Fin 1000000)
    (h0 : ∀ (p : Fin 8000) (k : Fin 64), x0 (ix2 p k) = X (ix2 (ρ p) k))
    (h1 : ∀ (p : Fin 8000) (q : Fin 64), x1 (ix2 p q) = ang (ix2 (ρ p) q)) (p : Fin 8000) (q : Fin 64) :
    k2_pay1 (F := Ideal) (k2_pay2 x0 w1a b1a w1b b1b) (k2_pay3 x0 w1a b1a w1b b1b w2a b2a) (k2_pay4 w2b) b2b x1 (ix2 p q)
      = Cert.Spec.outAt X ang w1a b1a w1b b1b w2a b2a w2b b2b (ρ p) q := by
  have hl : ∀ k : Fin 64, k2_pay2 (F := Ideal) x0 w1a b1a w1b b1b (ix2 p k) = Cert.Spec.res X w1a b1a w1b b1b (ix2 (ρ p) k) := fun k => by
    rw [layer_apply, Cert.Spec.res_ix2]
    unfold Cert.Spec.resAt Cert.Spec.hidAt
    simp only [h0]
  rw [tail_apply]
  simp only [hidden_apply, weight_apply, hl, h1]
  rfl

/-! ## The windows over the grid

The two feature windows and the output move one block of 8000 rows per point; every weight and bias window stays at
its one block. -/

theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_10.index t (0 : Fin 2) = t.val
    ∧ win2_10.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0 :=
  (by decide +kernel : ∀ t : Fin grid2.N, _)

theorem weight_block2 (V : (c : Dev nD) → (b : Ref sig .tc) → Buf (Elt Ideal) ((c : Thread nD τ).loc b)) (c : Dev nD) (t : Fin cfg2.N) :
    (iblk2 (F := Ideal) V c 2 t : Vec Ideal S64x32 .f32) = V c main_v116 := by
  obtain ⟨e0r, e0c, e1r, e1c, eor, eoc, e2r, e2c, e3r, e3c, e4r, e4c, e5r, e5c, e6r, e6c, e7r, e7c, e8r, e8c, e9r, e9c⟩ := idx_facts t
  funext j
  show V c main_v116 (((cfg2.win 2).blk t).view.emb j) = V c main_v116 j
  refine congrArg _ (funext fun ax => Fin.ext ?_)
  match ax with
  | ⟨0, _⟩ => show win2_2.index t (0 : Fin 2) * 64 + 1 * (j 0).val = (j 0).val; omega
  | ⟨1, _⟩ => show win2_2.index t (1 : Fin 2) * 32 + 1 * (j 1).val = (j 1).val; omega

theorem weight_block3 (V : (c : Dev nD) → (b : Ref sig .tc) → Buf (Elt Ideal) ((c : Thread nD τ).loc b)) (c : Dev nD) (t : Fin cfg2.N) :
    (iblk2 (F := Ideal) V c 3 t : Vec Ideal S1x32 .f32) = V c main_v120 := by
  obtain ⟨e0r, e0c, e1r, e1c, eor, eoc, e2r, e2c, e3r, e3c, e4r, e4c, e5r, e5c, e6r, e6c, e7r, e7c, e8r, e8c, e9r, e9c⟩ := idx_facts t
  funext j
  show V c main_v120 (((cfg2.win 3).blk t).view.emb j) = V c main_v120 j
  refine congrArg _ (funext fun ax => Fin.ext ?_)
  match ax with
  | ⟨0, _⟩ => show win2_3.index t (0 : Fin 2) * 1 + 1 * (j 0).val = (j 0).val; omega
  | ⟨1, _⟩ => show win2_3.index t (1 : Fin 2) * 32 + 1 * (j 1).val = (j 1).val; omega

theorem weight_block4 (V : (c : Dev nD) → (b : Ref sig .tc) → Buf (Elt Ideal) ((c : Thread nD τ).loc b)) (c : Dev nD) (t : Fin cfg2.N) :
    (iblk2 (F := Ideal) V c 4 t : Vec Ideal S32x64 .f32) = V c main_v117 := by
  obtain ⟨e0r, e0c, e1r, e1c, eor, eoc, e2r, e2c, e3r, e3c, e4r, e4c, e5r, e5c, e6r, e6c, e7r, e7c, e8r, e8c, e9r, e9c⟩ := idx_facts t
  funext j
  show V c main_v117 (((cfg2.win 4).blk t).view.emb j) = V c main_v117 j
  refine congrArg _ (funext fun ax => Fin.ext ?_)
  match ax with
  | ⟨0, _⟩ => show win2_4.index t (0 : Fin 2) * 32 + 1 * (j 0).val = (j 0).val; omega
  | ⟨1, _⟩ => show win2_4.index t (1 : Fin 2) * 64 + 1 * (j 1).val = (j 1).val; omega

theorem weight_block5 (V : (c : Dev nD) → (b : Ref sig .tc) → Buf (Elt Ideal) ((c : Thread nD τ).loc b)) (c : Dev nD) (t : Fin cfg2.N) :
    (iblk2 (F := Ideal) V c 5 t : Vec Ideal S1x64 .f32) = V c main_v121 := by
  obtain ⟨e0r, e0c, e1r, e1c, eor, eoc, e2r, e2c, e3r, e3c, e4r, e4c, e5r, e5c, e6r, e6c, e7r, e7c, e8r, e8c, e9r, e9c⟩ := idx_facts t
  funext j
  show V c main_v121 (((cfg2.win 5).blk t).view.emb j) = V c main_v121 j
  refine congrArg _ (funext fun ax => Fin.ext ?_)
  match ax with
  | ⟨0, _⟩ => show win2_5.index t (0 : Fin 2) * 1 + 1 * (j 0).val = (j 0).val; omega
  | ⟨1, _⟩ => show win2_5.index t (1 : Fin 2) * 64 + 1 * (j 1).val = (j 1).val; omega

theorem weight_block6 (V : (c : Dev nD) → (b : Ref sig .tc) → Buf (Elt Ideal) ((c : Thread nD τ).loc b)) (c : Dev nD) (t : Fin cfg2.N) :
    (iblk2 (F := Ideal) V c 6 t : Vec Ideal S64x32 .f32) = V c main_v118 := by
  obtain ⟨e0r, e0c, e1r, e1c, eor, eoc, e2r, e2c, e3r, e3c, e4r, e4c, e5r, e5c, e6r, e6c, e7r, e7c, e8r, e8c, e9r, e9c⟩ := idx_facts t
  funext j
  show V c main_v118 (((cfg2.win 6).blk t).view.emb j) = V c main_v118 j
  refine congrArg _ (funext fun ax => Fin.ext ?_)
  match ax with
  | ⟨0, _⟩ => show win2_6.index t (0 : Fin 2) * 64 + 1 * (j 0).val = (j 0).val; omega
  | ⟨1, _⟩ => show win2_6.index t (1 : Fin 2) * 32 + 1 * (j 1).val = (j 1).val; omega

theorem weight_block7 (V : (c : Dev nD) → (b : Ref sig .tc) → Buf (Elt Ideal) ((c : Thread nD τ).loc b)) (c : Dev nD) (t : Fin cfg2.N) :
    (iblk2 (F := Ideal) V c 7 t : Vec Ideal S1x32 .f32) = V c main_v122 := by
  obtain ⟨e0r, e0c, e1r, e1c, eor, eoc, e2r, e2c, e3r, e3c, e4r, e4c, e5r, e5c, e6r, e6c, e7r, e7c, e8r, e8c, e9r, e9c⟩ := idx_facts t
  funext j
  show V c main_v122 (((cfg2.win 7).blk t).view.emb j) = V c main_v122 j
  refine congrArg _ (funext fun ax => Fin.ext ?_)
  match ax with
  | ⟨0, _⟩ => show win2_7.index t (0 : Fin 2) * 1 + 1 * (j 0).val = (j 0).val; omega
  | ⟨1, _⟩ => show win2_7.index t (1 : Fin 2) * 32 + 1 * (j 1).val = (j 1).val; omega

theorem weight_block8 (V : (c : Dev nD) → (b : Ref sig .tc) → Buf (Elt Ideal) ((c : Thread nD τ).loc b)) (c : Dev nD) (t : Fin cfg2.N) :
    (iblk2 (F := Ideal) V c 8 t : Vec Ideal S32x64 .f32) = V c main_v119 := by
  obtain ⟨e0r, e0c, e1r, e1c, eor, eoc, e2r, e2c, e3r, e3c, e4r, e4c, e5r, e5c, e6r, e6c, e7r, e7c, e8r, e8c, e9r, e9c⟩ := idx_facts t
  funext j
  show V c main_v119 (((cfg2.win 8).blk t).view.emb j) = V c main_v119 j
  refine congrArg _ (funext fun ax => Fin.ext ?_)
  match ax with
  | ⟨0, _⟩ => show win2_8.index t (0 : Fin 2) * 32 + 1 * (j 0).val = (j 0).val; omega
  | ⟨1, _⟩ => show win2_8.index t (1 : Fin 2) * 64 + 1 * (j 1).val = (j 1).val; omega

theorem weight_block9 (V : (c : Dev nD) → (b : Ref sig .tc) → Buf (Elt Ideal) ((c : Thread nD τ).loc b)) (c : Dev nD) (t : Fin cfg2.N) :
    (iblk2 (F := Ideal) V c 9 t : Vec Ideal S1x64 .f32) = V c main_v123 := by
  obtain ⟨e0r, e0c, e1r, e1c, eor, eoc, e2r, e2c, e3r, e3c, e4r, e4c, e5r, e5c, e6r, e6c, e7r, e7c, e8r, e8c, e9r, e9c⟩ := idx_facts t
  funext j
  show V c main_v123 (((cfg2.win 9).blk t).view.emb j) = V c main_v123 j
  refine congrArg _ (funext fun ax => Fin.ext ?_)
  match ax with
  | ⟨0, _⟩ => show win2_9.index t (0 : Fin 2) * 1 + 1 * (j 0).val = (j 0).val; omega
  | ⟨1, _⟩ => show win2_9.index t (1 : Fin 2) * 64 + 1 * (j 1).val = (j 1).val; omega

/-- WHAT POINT `t` WRITES BACK is block `t` of the specification of the arrays as the region finds them. -/
theorem flushed_eq (V : (c : Dev nD) → (b : Ref sig .tc) → Buf (Elt Ideal) ((c : Thread nD τ).loc b)) (c : Dev nD) (t : Fin cfg2.N) :
    (dat2 (F := Ideal) V c).flushed 10 t
      = ((cfg2.win 10).blk t).view.read (Elt Ideal) (Cert.Spec.out (V c main_v115) (V c main_arg1) (V c main_v116) (V c main_v120) (V c main_v117) (V c main_v121) (V c main_v118) (V c main_v122) (V c main_v119) (V c main_v123)) := by
  show (cfg2.win 10).cut (grid2.coords t) ((dat2 V c).after 10 t) = _
  rw [after2_10, out_eq (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t),
    weight_block2, weight_block3, weight_block4, weight_block5, weight_block6, weight_block7, weight_block8, weight_block9]
  obtain ⟨e0r, e0c, e1r, e1c, eor, eoc, e2r, e2c, e3r, e3c, e4r, e4c, e5r, e5c, e6r, e6c, e7r, e7c, e8r, e8c, e9r, e9c⟩ := idx_facts t
  have ht : t.val < 125 := Nat.lt_of_lt_of_eq t.isLt (show cfg2.N = 125 from N_2)
  funext j
  obtain ⟨p, q, rfl⟩ : ∃ (p : Fin 8000) (q : Fin 64), j = ix2 p q := ⟨j 0, j 1, eq_ix2 j⟩
  have hemb : ((cfg2.win 10).blk t).view.emb (ix2 p q) = ix2 (⟨t.val * 8000 + p.val, by have := p.isLt; omega⟩ : Fin 1000000) q :=
    funext fun ax => Fin.ext (by
      match ax with
      | ⟨0, _⟩ => show win2_10.index t (0 : Fin 2) * 8000 + 1 * p.val = t.val * 8000 + p.val; omega
      | ⟨1, _⟩ => show win2_10.index t (1 : Fin 2) * 64 + 1 * q.val = q.val; omega)
  rw [View.read_apply, hemb, Cert.Spec.out_ix2]
  refine block_value (V c main_v115) (V c main_arg1) (V c main_v116) (V c main_v120) (V c main_v117) (V c main_v121)
    (V c main_v118) (V c main_v122) (V c main_v119) (V c main_v123) (iblk2 V c 0 t) (iblk2 V c 1 t)
    (fun p => ⟨t.val * 8000 + p.val, by have := p.isLt; omega⟩) (fun p k => ?_) (fun p q => ?_) p q
  · show V c main_v115 (((cfg2.win 0).blk t).view.emb (ix2 p k)) = V c main_v115 _
    refine congrArg _ (funext fun ax => Fin.ext ?_)
    match ax with
    | ⟨0, _⟩ => show win2_0.index t (0 : Fin 2) * 8000 + 1 * p.val = t.val * 8000 + p.val; omega
    | ⟨1, _⟩ => show win2_0.index t (1 : Fin 2) * 64 + 1 * k.val = k.val; omega
  · show V c main_arg1 (((cfg2.win 1).blk t).view.emb (ix2 p q)) = V c main_arg1 _
    refine congrArg _ (funext fun ax => Fin.ext ?_)
    match ax with
    | ⟨0, _⟩ => show win2_1.index t (0 : Fin 2) * 8000 + 1 * p.val = t.val * 8000 + p.val; omega
    | ⟨1, _⟩ => show win2_1.index t (1 : Fin 2) * 64 + 1 * q.val = q.val; omega

/-- An index of the result array is in point `t`'s block iff each coordinate is in the block's range on its axis. -/
theorem mem_block (t : Fin cfg2.N) (i : S1000000x64.Idx) :
    i ∈ ((cfg2.win 10).blk t).view.set ↔ ∀ a : Fin 2, win2_10.index t a * S8000x64.size a ≤ (i a).val ∧ (i a).val < win2_10.index t a * S8000x64.size a + S8000x64.size a := by
  show i ∈ ((View.whole main_v124).slice (win2_10.rect t)).set ↔ _
  rw [View.set_slice_whole, Rect.mem_set_unit]
  exact Iff.rfl

/-- Row `r` of the result is written by point `r / 8000`: the blocks tile the array. -/
theorem covered (i : S1000000x64.Idx) : ∃ t : Fin cfg2.N, (cfg2.win 10).flush t = true ∧ i ∈ ((cfg2.win 10).blk t).view.set := by
  have hN : cfg2.N = 125 := N_2
  have hi0 : (i 0).val < 1000000 := (i 0).isLt
  have hi1 : (i 1).val < 64 := (i 1).isLt
  obtain ⟨t, ht⟩ : ∃ t : Fin cfg2.N, t.val = (i 0).val / 8000 := ⟨⟨(i 0).val / 8000, by rw [hN]; omega⟩, rfl⟩
  obtain ⟨e0r, e0c, e1r, e1c, eor, eoc, e2r, e2c, e3r, e3c, e4r, e4c, e5r, e5c, e6r, e6c, e7r, e7c, e8r, e8c, e9r, e9c⟩ := idx_facts t
  refine ⟨t, flush2_10 t, ?_⟩
  rw [mem_block]
  intro a
  match a with
  | ⟨0, _⟩ => show win2_10.index t (0 : Fin 2) * 8000 ≤ (i 0).val ∧ (i 0).val < win2_10.index t (0 : Fin 2) * 8000 + 8000; omega
  | ⟨1, _⟩ => show win2_10.index t (1 : Fin 2) * 64 ≤ (i 1).val ∧ (i 1).val < win2_10.index t (1 : Fin 2) * 64 + 64; omega

/-! ## The array after the region -/

/-- THE RESULT ARRAY after the region's run is the specification of the arrays the region found. -/
theorem final_region (V : (c : Dev nD) → (b : Ref sig .tc) → Buf (Elt Ideal) ((c : Thread nD τ).loc b)) (c : Dev nD) :
    ((Gen.dat2 (F := Ideal) V c).arrAt 10 cfg2.N : Cert.Spec.Arr 1000000 64)
      = Cert.Spec.out (V c main_v115) (V c main_arg1) (V c main_v116) (V c main_v120) (V c main_v117) (V c main_v121) (V c main_v118) (V c main_v122) (V c main_v119) (V c main_v123) :=
  (dat2 (F := Ideal) V c).arrAt_eq_of_cover 10 (Cert.Spec.out (V c main_v115) (V c main_arg1) (V c main_v116) (V c main_v120) (V c main_v117) (V c main_v121) (V c main_v118) (V c main_v122) (V c main_v119) (V c main_v123))
    (fun t _ => flushed_eq V c t) covered

end Cert.KernelIdeal.FinalValue

end
-- ==== Proof.FinalRef.lean ====
/-
  The last stage of the reference, read entry by entry: two residual layers over the normalised features, the angle
  features added, the result rectified and scaled by the binary value of 1/sqrt 2.  Each layer is a product with a
  64×32 weight, a bias row added to every row, a maximum with zero, a product with a 32×64 weight, the layer's input
  added back and a second bias row added to every row.
-/
import proofs.«117240_j46248207843562_2_alg».proof.Proof.Gen.ReferenceIdeal.Read
import proofs.«117240_j46248207843562_2_alg».proof.Proof.Spec
import Idealize.ShloMosaic.Lib.ValueIdx
import Idealize.ShloMosaic.PureOps.Ideal.Laws

noncomputable section

namespace Cert.FinalRef

open Cert.ReferenceIdeal Cert.ReferenceIdeal.Gen Idealize.ShloMosaic Idealize.ShloMosaic.ValueIdx
open Cert.ReferenceIdeal.Read

/-! ## Where each operation reads its operands

A product's entry `(p, r)` reads row `p` of the left operand and column `r` of the right one; a bias row broadcast to
all rows reads its one row at the same column. -/

theorem lidx104 (p : Fin 1000000) (r : Fin 32) (k : Fin 64) : lidx_main_v104 (ix2 p r) k = ix2 p k := funext fun a => Fin.ext (by match a with | ⟨0, _⟩ => rfl | ⟨1, _⟩ => rfl)
theorem ridx104 (p : Fin 1000000) (r : Fin 32) (k : Fin 64) : ridx_main_v104 (ix2 p r) k = ix2 k r := funext fun a => Fin.ext (by match a with | ⟨0, _⟩ => rfl | ⟨1, _⟩ => rfl)
theorem idx106 (p : Fin 1000000) (r : Fin 32) : idx_main_v106 (ix2 p r) = ix2 (0 : Fin 1) r := funext fun a => Fin.ext (by match a with | ⟨0, _⟩ => rfl | ⟨1, _⟩ => rfl)
theorem lidx110 (p : Fin 1000000) (q : Fin 64) (k : Fin 32) : lidx_main_v110 (ix2 p q) k = ix2 p k := funext fun a => Fin.ext (by match a with | ⟨0, _⟩ => rfl | ⟨1, _⟩ => rfl)
theorem ridx110 (p : Fin 1000000) (q : Fin 64) (k : Fin 32) : ridx_main_v110 (ix2 p q) k = ix2 k q := funext fun a => Fin.ext (by match a with | ⟨0, _⟩ => rfl | ⟨1, _⟩ => rfl)
theorem idx113 (p : Fin 1000000) (q : Fin 64) : idx_main_v113 (ix2 p q) = ix2 (0 : Fin 1) q := funext fun a => Fin.ext (by match a with | ⟨0, _⟩ => rfl | ⟨1, _⟩ => rfl)
theorem lidx116 (p : Fin 1000000) (r : Fin 32) (k : Fin 64) : lidx_main_v116 (ix2 p r) k = ix2 p k := funext fun a => Fin.ext (by match a with | ⟨0, _⟩ => rfl | ⟨1, _⟩ => rfl)
theorem ridx116 (p : Fin 1000000) (r : Fin 32) (k : Fin 64) : ridx_main_v116 (ix2 p r) k = ix2 k r := funext fun a => Fin.ext (by match a with | ⟨0, _⟩ => rfl | ⟨1, _⟩ => rfl)
theorem idx118 (p : Fin 1000000) (r : Fin 32) : idx_main_v118 (ix2 p r) = ix2 (0 : Fin 1) r := funext fun a => Fin.ext (by match a with | ⟨0, _⟩ => rfl | ⟨1, _⟩ => rfl)
theorem lidx122 (p : Fin 1000000) (q : Fin 64) (k : Fin 32) : lidx_main_v122 (ix2 p q) k = ix2 p k := funext fun a => Fin.ext (by match a with | ⟨0, _⟩ => rfl | ⟨1, _⟩ => rfl)
theorem ridx122 (p : Fin 1000000) (q : Fin 64) (k : Fin 32) : ridx_main_v122 (ix2 p q) k = ix2 k q := funext fun a => Fin.ext (by match a with | ⟨0, _⟩ => rfl | ⟨1, _⟩ => rfl)
theorem idx125 (p : Fin 1000000) (q : Fin 64) : idx_main_v125 (ix2 p q) = ix2 (0 : Fin 1) q := funext fun a => Fin.ext (by match a with | ⟨0, _⟩ => rfl | ⟨1, _⟩ => rfl)

/-! ## The first residual layer -/

/-- The reference's value after its first layer is the specification's residual layer of the normalised features. -/
theorem first_layer (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x5 : (⟨S1x64, .f32⟩ : BufTy).Contents (Elt Ideal)) (x6 x7 : (⟨S128, .f32⟩ : BufTy).Contents (Elt Ideal)) (x8 x9 : (⟨S64, .f32⟩ : BufTy).Contents (Elt Ideal)) (x10 : (⟨S32x64, .f32⟩ : BufTy).Contents (Elt Ideal)) (x11 : (⟨S32, .f32⟩ : BufTy).Contents (Elt Ideal)) (x12 : (⟨S64x32, .f32⟩ : BufTy).Contents (Elt Ideal)) (x13 : (⟨S64, .f32⟩ : BufTy).Contents (Elt Ideal)) :
    Read.val_main_v114 (F := Ideal) x0 x1 x2 x3 x4 x5 x6 x7 x8 x9 x10 x11 x12 x13
      = Cert.Spec.res (Read.val_main_v102 (F := Ideal) x0 x1 x2 x3 x4 x5 x6 x7 x8 x9) (Read.val_main_v103 (F := Ideal) x10)
          (Read.val_main_v105 (F := Ideal) x11) (Read.val_main_v109 (F := Ideal) x12) (Read.val_main_v112 (F := Ideal) x13) := by
  funext i
  obtain ⟨p, q, rfl⟩ : ∃ (p : Fin 1000000) (q : Fin 64), i = ix2 p q := ⟨i 0, i 1, eq_ix2 i⟩
  rw [Cert.Spec.res_ix2]
  unfold Cert.Spec.resAt Cert.Spec.hidAt
  rw [val_main_v114_apply, val_main_v111_apply, val_main_v110_apply, val_main_v113_apply]
  simp only [val_main_v108_apply, val_main_v107_apply, val_main_v104_apply, val_main_v106_apply,
    val_main_call1_v0_apply, val_main_call1_cst_apply, lidx104, ridx104, idx106, lidx110, ridx110, idx113,
    Ideal.addf_def, Ideal.maximumf_def, Ideal.ofBits_def, Ideal.ofBits_zero_f32]

/-! ## The whole stage -/

/-- The reference's result is the specification's `out` of the normalised features, the angle features, and the four
    transposed weights and four bias rows. -/
theorem final_ref (x0 : (⟨S400000x64, .f32⟩ : BufTy).Contents (Elt Ideal)) (x1 : (⟨S1000000x64, .f32⟩ : BufTy).Contents (Elt Ideal)) (x2 : (⟨S1000000x2, .i32⟩ : BufTy).Contents (Elt Ideal)) (x3 : (⟨S1000000, .i32⟩ : BufTy).Contents (Elt Ideal)) (x4 : (⟨S128x192, .f32⟩ : BufTy).Contents (Elt Ideal)) (x5 : (⟨S1x64, .f32⟩ : BufTy).Contents (Elt Ideal)) (x6 x7 : (⟨S128, .f32⟩ : BufTy).Contents (Elt Ideal)) (x8 x9 : (⟨S64, .f32⟩ : BufTy).Contents (Elt Ideal)) (x10 : (⟨S32x64, .f32⟩ : BufTy).Contents (Elt Ideal)) (x11 : (⟨S32, .f32⟩ : BufTy).Contents (Elt Ideal)) (x12 : (⟨S64x32, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S64x32, .f32⟩ : BufTy).Contents (Elt Ideal)) (x17 : (⟨S64, .f32⟩ : BufTy).Contents (Elt Ideal)) :
    Read.val_main_v130 (F := Ideal) x0 x1 x2 x3 x4 x5 x6 x7 x8 x9 x10 x11 x12 x13 x14 x15 x16 x17
      = Cert.Spec.out (Read.val_main_v102 (F := Ideal) x0 x1 x2 x3 x4 x5 x6 x7 x8 x9) x1 (Read.val_main_v103 (F := Ideal) x10)
          (Read.val_main_v105 (F := Ideal) x11) (Read.val_main_v109 (F := Ideal) x12) (Read.val_main_v112 (F := Ideal) x13)
          (Read.val_main_v115 (F := Ideal) x14) (Read.val_main_v117 (F := Ideal) x15) (Read.val_main_v121 (F := Ideal) x16)
          (Read.val_main_v124 (F := Ideal) x17) := by
  funext i
  obtain ⟨p, q, rfl⟩ : ∃ (p : Fin 1000000) (q : Fin 64), i = ix2 p q := ⟨i 0, i 1, eq_ix2 i⟩
  rw [Cert.Spec.out_ix2]
  unfold Cert.Spec.outAt Cert.Spec.resAt Cert.Spec.hidAt
  rw [val_main_v130_apply, val_main_v129_apply, val_main_cst_20_apply, val_main_v128_apply, val_main_v127_apply,
    val_main_v126_apply, val_main_v123_apply, val_main_v122_apply, val_main_v125_apply, val_main_call3_v0_apply,
    val_main_call3_cst_apply]
  simp only [val_main_v120_apply, val_main_v119_apply, val_main_v116_apply, val_main_v118_apply,
    val_main_call2_v0_apply, val_main_call2_cst_apply, first_layer, lidx116, ridx116, idx118, lidx122, ridx122, idx125,
    Ideal.addf_def, Ideal.mulf_def, Ideal.maximumf_def, Ideal.ofBits_def, Ideal.ofBits_zero_f32]

end Cert.FinalRef

end
-- ==== Proof.Bounds.lean ====
/-
  An argument array is the same at every boundary of the program as at the launch: no host operation writes an
  argument, and a region writes only its output array.
-/
import proofs.«117240_j46248207843562_2_alg».proof.Proof.Gen.KernelIdeal.Frame

set_option maxRecDepth 16384

noncomputable section

namespace Cert.KernelIdeal.Bound

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg1) = W0 m ρ c (Proc.devRef .tc main_arg1)).trans rfl
theorem W2_arg1 (c : Dev nD) : W2 m ρ c (Proc.devRef .tc main_arg1) = m ((c : Thread nD τ).loc main_arg1) :=
  ((W2_arr m ρ c 0).trans (((dat0 (V1 m ρ) c).arrAt_in 0 rfl _).trans (A_eq0 (V1 m ρ) c 0))).trans (W1_arg1 m ρ c)
theorem W3_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg1) = W2 m ρ c (Proc.devRef .tc main_arg1)).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) :=
  (StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W5 m ρ c (Proc.devRef .tc main_arg1) = W4 m ρ c (Proc.devRef .tc main_arg1)).trans (W4_arg1 m ρ c)
theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg3) = W0 m ρ c (Proc.devRef .tc main_arg3)).trans rfl
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg3) = W2 m ρ c (Proc.devRef .tc main_arg3)).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg5) = W0 m ρ c (Proc.devRef .tc main_arg5)).trans rfl
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg5) = W2 m ρ c (Proc.devRef .tc main_arg5)).trans (W2_arg5 m ρ c)
theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg6) = W0 m ρ c (Proc.devRef .tc main_arg6)).trans rfl
theorem W2_arg6 (c : Dev nD) : W2 m ρ c (Proc.devRef .tc main_arg6) = m ((c : Thread nD τ).loc main_arg6) :=
  (W2_of_ne m ρ c main_arg6 (by decide)).trans (W1_arg6 m ρ c)
theorem W1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg7) = W0 m ρ c (Proc.devRef .tc main_arg7)).trans rfl
theorem W2_arg7 (c : Dev nD) : W2 m ρ c (Proc.devRef .tc main_arg7) = m ((c : Thread nD τ).loc main_arg7) :=
  (W2_of_ne m ρ c main_arg7 (by decide)).trans (W1_arg7 m ρ c)
theorem W1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg8) = W0 m ρ c (Proc.devRef .tc main_arg8)).trans rfl
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg8) = W2 m ρ c (Proc.devRef .tc main_arg8)).trans (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg9) = W0 m ρ c (Proc.devRef .tc main_arg9)).trans rfl
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg9) = W2 m ρ c (Proc.devRef .tc main_arg9)).trans (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W1_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg10) = W0 m ρ c (Proc.devRef .tc main_arg10)).trans rfl
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg10) = W2 m ρ c (Proc.devRef .tc main_arg10)).trans (W2_arg10 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W1_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg11) = W0 m ρ c (Proc.devRef .tc main_arg11)).trans rfl
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg11) = W2 m ρ c (Proc.devRef .tc main_arg11)).trans (W2_arg11 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W1_arg12 (c : Dev nD) : W1 m ρ c (Proc.devRef .tc main_arg12) = m ((c : Thread nD τ).loc main_arg12) :=
  (StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg12) = W0 m ρ c (Proc.devRef .tc main_arg12)).trans rfl
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg12) = W2 m ρ c (Proc.devRef .tc main_arg12)).trans (W2_arg12 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W1_arg13 (c : Dev nD) : W1 m ρ c (Proc.devRef .tc main_arg13) = m ((c : Thread nD τ).loc main_arg13) :=
  (StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg13) = W0 m ρ c (Proc.devRef .tc main_arg13)).trans rfl
theorem W2_arg13 (c : Dev nD) : W2 m ρ c (Proc.devRef .tc main_arg13) = m ((c : Thread nD τ).loc main_arg13) :=
  (W2_of_ne m ρ c main_arg13 (by decide)).trans (W1_arg13 m ρ c)
theorem W3_arg13 (c : Dev nD) : W3 m ρ c (Proc.devRef .tc main_arg13) = m ((c : Thread nD τ).loc main_arg13) :=
  (StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg13) = W2 m ρ c (Proc.devRef .tc main_arg13)).trans (W2_arg13 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W1_arg14 (c : Dev nD) : W1 m ρ c (Proc.devRef .tc main_arg14) = m ((c : Thread nD τ).loc main_arg14) :=
  (StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg14) = W0 m ρ c (Proc.devRef .tc main_arg14)).trans rfl
theorem W2_arg14 (c : Dev nD) : W2 m ρ c (Proc.devRef .tc main_arg14) = m ((c : Thread nD τ).loc main_arg14) :=
  (W2_of_ne m ρ c main_arg14 (by decide)).trans (W1_arg14 m ρ c)
theorem W3_arg14 (c : Dev nD) : W3 m ρ c (Proc.devRef .tc main_arg14) = m ((c : Thread nD τ).loc main_arg14) :=
  (StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg14) = W2 m ρ c (Proc.devRef .tc main_arg14)).trans (W2_arg14 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W1_arg15 (c : Dev nD) : W1 m ρ c (Proc.devRef .tc main_arg15) = m ((c : Thread nD τ).loc main_arg15) :=
  (StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg15) = W0 m ρ c (Proc.devRef .tc main_arg15)).trans rfl
theorem W2_arg15 (c : Dev nD) : W2 m ρ c (Proc.devRef .tc main_arg15) = m ((c : Thread nD τ).loc main_arg15) :=
  (W2_of_ne m ρ c main_arg15 (by decide)).trans (W1_arg15 m ρ c)
theorem W3_arg15 (c : Dev nD) : W3 m ρ c (Proc.devRef .tc main_arg15) = m ((c : Thread nD τ).loc main_arg15) :=
  (StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg15) = W2 m ρ c (Proc.devRef .tc main_arg15)).trans (W2_arg15 m ρ c)
theorem W4_arg15 (c : Dev nD) : W4 m ρ c (Proc.devRef .tc main_arg15) = m ((c : Thread nD τ).loc main_arg15) :=
  (W4_of_ne m ρ c main_arg15 (by decide)).trans (W3_arg15 m ρ c)
theorem W1_arg16 (c : Dev nD) : W1 m ρ c (Proc.devRef .tc main_arg16) = m ((c : Thread nD τ).loc main_arg16) :=
  (StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg16) = W0 m ρ c (Proc.devRef .tc main_arg16)).trans rfl
theorem W2_arg16 (c : Dev nD) : W2 m ρ c (Proc.devRef .tc main_arg16) = m ((c : Thread nD τ).loc main_arg16) :=
  (W2_of_ne m ρ c main_arg16 (by decide)).trans (W1_arg16 m ρ c)
theorem W3_arg16 (c : Dev nD) : W3 m ρ c (Proc.devRef .tc main_arg16) = m ((c : Thread nD τ).loc main_arg16) :=
  (StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg16) = W2 m ρ c (Proc.devRef .tc main_arg16)).trans (W2_arg16 m ρ c)
theorem W4_arg16 (c : Dev nD) : W4 m ρ c (Proc.devRef .tc main_arg16) = m ((c : Thread nD τ).loc main_arg16) :=
  (W4_of_ne m ρ c main_arg16 (by decide)).trans (W3_arg16 m ρ c)
theorem W1_arg17 (c : Dev nD) : W1 m ρ c (Proc.devRef .tc main_arg17) = m ((c : Thread nD τ).loc main_arg17) :=
  (StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg17) = W0 m ρ c (Proc.devRef .tc main_arg17)).trans rfl
theorem W2_arg17 (c : Dev nD) : W2 m ρ c (Proc.devRef .tc main_arg17) = m ((c : Thread nD τ).loc main_arg17) :=
  (W2_of_ne m ρ c main_arg17 (by decide)).trans (W1_arg17 m ρ c)
theorem W3_arg17 (c : Dev nD) : W3 m ρ c (Proc.devRef .tc main_arg17) = m ((c : Thread nD τ).loc main_arg17) :=
  (StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W3 m ρ c (Proc.devRef .tc main_arg17) = W2 m ρ c (Proc.devRef .tc main_arg17)).trans (W2_arg17 m ρ c)
theorem W4_arg17 (c : Dev nD) : W4 m ρ c (Proc.devRef .tc main_arg17) = m ((c : Thread nD τ).loc main_arg17) :=
  (W4_of_ne m ρ c main_arg17 (by decide)).trans (W3_arg17 m ρ c)

end Cert.KernelIdeal.Bound

end
-- ==== Proof.Stretch0.lean ====
/-
  The host operations before the first region, read as values. The arrays the first region finds are the
  reference's own intermediate values: the neighbour features are the reference's gather of the edge table through
  the wrapped indices, reshaped to rows of 128 (the kernel rounds the table to the narrow format first, which is the
  identity on the extended reals); the two weights are the first 64 and the last 128 rows of the transposed weight;
  the own features are the argument itself. A gather, a reshape and a transpose only move entries, so they keep
  "every entry is a real number".
-/
import proofs.«117240_j46248207843562_2_alg».proof.Proof.Gen.KernelIdeal.Frame
import proofs.«117240_j46248207843562_2_alg».proof.Proof.Gen.ReferenceIdeal.Read
import proofs.«117240_j46248207843562_2_alg».proof.Proof.Spec
import proofs.«117240_j46248207843562_2_alg».proof.Proof.Reals
import proofs.«117240_j46248207843562_2_alg».proof.Proof.Bounds
import Idealize.ShloMosaic.Lib.Pipeline.Value
import Idealize.ShloMosaic.Lib.ValueIdx
import Idealize.ShloMosaic.Lib.Tactic

noncomputable section

namespace Cert.Stretch0

open Idealize.ShloMosaic Idealize.ShloMosaic.ValueIdx Idealize.ShloMosaic.TcCoe Idealize.SL.Sem Idealize.ShloMosaic.StableHlo
open Idealize.ShloMosaic.Tactic

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The gathered neighbour features the first region finds are the reference's: the kernel gathers from the table
    rounded to the narrow format, which on the extended reals is the table itself, through the same wrapped indices,
    and reshapes the two gathered rows of 64 into one row of 128 in the same way. -/
theorem v8_eq : (Cert.KernelIdeal.Gen.V1 m ρ c Cert.KernelIdeal.main_v8 : Cert.Spec.Arr 1000000 128)
    = Cert.ReferenceIdeal.Read.val_main_v7 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) := by
  show StableHlo.after Cert.KernelIdeal.Gen.hostOps0 (Cert.KernelIdeal.Gen.W0 m ρ c) (Proc.devRef .tc Cert.KernelIdeal.main_v8) = _
  after_results
  rfl

/-- The first weight the first region finds is the first 64 rows of the reference's transposed weight. -/
theorem v10_eq : (Cert.KernelIdeal.Gen.V1 m ρ c Cert.KernelIdeal.main_v10 : Cert.Spec.Arr 64 128)
    = Cert.Spec.topRows (Cert.ReferenceIdeal.Read.val_main_v9 (F := Ideal) (m ((c : Thread Cert.KernelIdeal.nD Cert.KernelIdeal.τ).loc Cert.KernelIdeal.main_arg4))) := by
  show StableHlo.after Cert.KernelIdeal.Gen.hostOps0 (Cert.KernelIdeal.Gen.W0 m ρ c) (Proc.devRef .tc Cert.KernelIdeal.main_v10) = _
  after_results
  funext i
  obtain ⟨p, q, rfl⟩ : ∃ (p : Fin 64) (q : Fin 128), i = ix2 p q := ⟨i 0, i 1, eq_ix2 i⟩
  refine (extractStridedSlice_apply (![0, 0] : Fin Cert.KernelIdeal.S192x128.rank → Nat) _ Cert.KernelIdeal.Gen.slices_S192x128_S64x128_0_0 (ix2 p q)
    (ix2 (⟨p.val, by omega⟩ : Fin 192) q) (fun a => ?_)).trans ?_
  · match a with
    | ⟨0, _⟩ => exact (Nat.zero_add _).symm
    | ⟨1, _⟩ => exact (Nat.zero_add _).symm
  · rfl

/-- The second weight the first region finds is the last 128 rows of the reference's transposed weight. -/
theorem v11_eq : (Cert.KernelIdeal.Gen.V1 m ρ c Cert.KernelIdeal.main_v11 : Cert.Spec.Arr 128 128)
    = Cert.Spec.botRows (Cert.ReferenceIdeal.Read.val_main_v9 (F := Ideal) (m ((c : Thread Cert.KernelIdeal.nD Cert.KernelIdeal.τ).loc Cert.KernelIdeal.main_arg4))) := by
  show StableHlo.after Cert.KernelIdeal.Gen.hostOps0 (Cert.KernelIdeal.Gen.W0 m ρ c) (Proc.devRef .tc Cert.KernelIdeal.main_v11) = _
  after_results
  funext i
  obtain ⟨p, q, rfl⟩ : ∃ (p : Fin 128) (q : Fin 128), i = ix2 p q := ⟨i 0, i 1, eq_ix2 i⟩
  refine (extractStridedSlice_apply (![64, 0] : Fin Cert.KernelIdeal.S192x128.rank → Nat) _ Cert.KernelIdeal.Gen.slices_S192x128_S128x128_64_0 (ix2 p q)
    (ix2 (⟨64 + p.val, by omega⟩ : Fin 192) q) (fun a => ?_)).trans ?_
  · match a with
    | ⟨0, _⟩ => rfl
    | ⟨1, _⟩ => exact (Nat.zero_add _).symm
  · rfl

/-- The own features the first region finds are the argument as launched: no host operation writes it. -/
theorem arg1_eq : Cert.KernelIdeal.Gen.V1 m ρ c Cert.KernelIdeal.main_arg1 = m ((c : Thread Cert.KernelIdeal.nD Cert.KernelIdeal.τ).loc Cert.KernelIdeal.main_arg1) := Cert.KernelIdeal.Bound.W1_arg1 m ρ c

/-- Every gathered neighbour feature is an entry of the edge table: a gather and a reshape only move entries. -/
theorem v7_real (x0 : (⟨Cert.ReferenceIdeal.S400000x64, .f32⟩ : BufTy).Contents (Elt Ideal)) (x2 : (⟨Cert.ReferenceIdeal.S1000000x2, .i32⟩ : BufTy).Contents (Elt Ideal))
    (h : Cert.Spec.AllReal x0) : Cert.Spec.AllReal (Cert.ReferenceIdeal.Read.val_main_v7 (F := Ideal) x0 x2) :=
  fun _ => h _

/-- Every entry of the transposed weight is an entry of the weight. -/
theorem v9_real (x4 : (⟨Cert.ReferenceIdeal.S128x192, .f32⟩ : BufTy).Contents (Elt Ideal))
    (h : Cert.Spec.AllReal x4) : Cert.Spec.AllReal (Cert.ReferenceIdeal.Read.val_main_v9 (F := Ideal) x4) :=
  fun _ => h _

end Cert.Stretch0

end
-- ==== Proof.Stretch1.lean ====
/-
  The host stretch between the fuse region and the gate region, read as one function.

  In the kernel's program the stretch is 63 host operations from the fuse region's output to the gate region's first
  input: the row counts per crystal, the means, the centred squares, the variances, the inverse deviations, the two
  per-crystal tables `g·r` and `b − μ·(g·r)`, and their gathers — the table arrangement `normK` of the normalisation.
  The reference's stages from its projected features to its normalised features are the per-row arrangement `normR`.
  Both are the operations' own terms, so each equation holds by unfolding; the arguments the stretch reads are as
  launched, since no earlier operation or region writes an argument.
-/
import proofs.«117240_j46248207843562_2_alg».proof.Proof.Gen.KernelIdeal.Frame
import proofs.«117240_j46248207843562_2_alg».proof.Proof.Gen.ReferenceIdeal.Read
import proofs.«117240_j46248207843562_2_alg».proof.Proof.Bounds
import proofs.«117240_j46248207843562_2_alg».proof.Proof.NormLaw

noncomputable section

namespace Cert.Stretch1

open Idealize.ShloMosaic Idealize.ShloMosaic.TcCoe Idealize.SL.Sem

/-! ## The reference -/

/-- The reference's normalised features are the per-row arrangement of the normalisation of its projected features. -/
theorem v52_eq (x0 : (⟨ReferenceIdeal.S400000x64, .f32⟩ : BufTy).Contents (Elt Ideal)) (x1 : (⟨ReferenceIdeal.S1000000x64, .f32⟩ : BufTy).Contents (Elt Ideal)) (x2 : (⟨ReferenceIdeal.S1000000x2, .i32⟩ : BufTy).Contents (Elt Ideal)) (x3 : (⟨ReferenceIdeal.S1000000, .i32⟩ : BufTy).Contents (Elt Ideal)) (x4 : (⟨ReferenceIdeal.S128x192, .f32⟩ : BufTy).Contents (Elt Ideal)) (x6 x7 : (⟨ReferenceIdeal.S128, .f32⟩ : BufTy).Contents (Elt Ideal)) :
    ReferenceIdeal.Read.val_main_v52 (F := Ideal) x0 x1 x2 x3 x4 x6 x7
      = Cert.NormLaw.normR 128 ReferenceIdeal.scatter_S2048x1_S1000000x1_S1000000x1_1_0_0_1 ReferenceIdeal.scatter_S2048x128_S1000000x1_S1000000x128_1_0_0_1 ReferenceIdeal.gather_S2048x128_S1000000x1_S1000000x128_1_0_n_n_0_1_1128
          ReferenceIdeal.Facts₀.bcast_S_S1000000x1 ReferenceIdeal.Facts₀.bcast_S_S2048x1 ReferenceIdeal.Facts₀.bcast_S_S2048x128 ReferenceIdeal.Facts₀.bcast_S_S1000000 ReferenceIdeal.Facts₀.bcast_S1000000_S1000000x1_0 ReferenceIdeal.Facts₀.bcast_S2048x1_S2048x128_0_1 ReferenceIdeal.Facts₀.bcast_S128_S1x128_1 ReferenceIdeal.Facts₀.bcast_S1x128_S1000000x128_0_1
          (ReferenceIdeal.Read.val_main_v10 (F := Ideal) x0 x1 x2 x4) x3 x6 x7 := by
  rfl

/-! ## The kernel's program -/

variable (m : (ℓ : Loc KernelIdeal.nD KernelIdeal.τ KernelIdeal.sig) → Buf (Elt Ideal) ℓ) (ρ : Dev KernelIdeal.nD → PrngReg)
  (c : Dev KernelIdeal.nD)

/-- The mask row is as launched when the gate region is entered. -/
theorem arg5_eq : KernelIdeal.Gen.V3 m ρ c KernelIdeal.main_arg5 = m ((c : Thread KernelIdeal.nD KernelIdeal.τ).loc KernelIdeal.main_arg5) :=
  KernelIdeal.Bound.W3_arg5 m ρ c

/-- The gate region's first input is the table arrangement of the normalisation of what the fuse region left. -/
theorem v63_eq :
    (KernelIdeal.Gen.V3 m ρ c KernelIdeal.main_v63 : FVec Ideal (Cert.NormLaw.SNd 128) .f32)
      = Cert.NormLaw.normK 128 KernelIdeal.scatter_S2048x1_S1000000x1_S1000000x1_1_0_0_1 KernelIdeal.scatter_S2048x128_S1000000x1_S1000000x128_1_0_0_1 KernelIdeal.gather_S2048x128_S1000000x1_S1000000x128_1_0_n_n_0_1_1128
          KernelIdeal.Facts₀.bcast_S_S1000000x1 KernelIdeal.Facts₀.bcast_S_S2048x1 KernelIdeal.Facts₀.bcast_S_S2048x128 KernelIdeal.Facts₀.bcast_S_S1000000 KernelIdeal.Facts₀.bcast_S1000000_S1000000x1_0 KernelIdeal.Facts₀.bcast_S2048x1_S2048x128_0_1 KernelIdeal.Facts₀.bcast_S128_S1x128_1 KernelIdeal.Facts₀.bcast_S1x128_S2048x128_0_1
          (KernelIdeal.Gen.W2 m ρ c (Proc.devRef .tc KernelIdeal.main_v12))
          (m ((c : Thread KernelIdeal.nD KernelIdeal.τ).loc KernelIdeal.main_arg3))
          (m ((c : Thread KernelIdeal.nD KernelIdeal.τ).loc KernelIdeal.main_arg6))
          (m ((c : Thread KernelIdeal.nD KernelIdeal.τ).loc KernelIdeal.main_arg7)) := by
  rw [← KernelIdeal.Bound.W2_arg3 m ρ c, ← KernelIdeal.Bound.W2_arg6 m ρ c, ← KernelIdeal.Bound.W2_arg7 m ρ c]
  show StableHlo.after KernelIdeal.Gen.hostOps1 (KernelIdeal.Gen.W2 m ρ c) (Proc.devRef .tc KernelIdeal.main_v63) = _
  after_results_simp
  rfl

end Cert.Stretch1

end
-- ==== Proof.LibUnitAxis.lean ====
import Idealize.ShloMosaic.Lib.Pipeline.Value
import Idealize.ShloMosaic.Lib.ValueIdx

/-! # A vector given a unit axis: the reshape and the broadcast agree

A vector of length `n` can be laid out as an `n × 1` column, or as a `1 × n` row, either by a reshape or by a broadcast
that sends the vector's axis to the long axis.  Both read the vector's entry at the long coordinate, so they are the
same array. -/

noncomputable section

namespace Cert.Lib

open Idealize.ShloMosaic Idealize.ShloMosaic.ValueIdx

/-- A vector reshaped to a column is the vector broadcast along the rows of an `n × 1` array. -/
theorem reshape_col_eq_broadcast {α : Type} {n : ℕ} (y : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ y h = broadcastInDim ⟨2, ![n, 1]⟩ ![0] hb y := by
  funext j
  have hj0 : (j 0).val < n := (j 0).isLt
  have hj1 : (j 1).val = 0 := by have : (j 1).val < 1 := (j 1).isLt; omega
  rw [shapeCast_apply y h j (ix1 ⟨(j 0).val, hj0⟩) (by
      rw [Shape.rowMajor_val_one, Shape.rowMajor_val_two]
      show (j 0).val = (j 0).val * 1 + (j 1).val
      omega),
    broadcastInDim_apply ![0] hb y j (ix1 ⟨(j 0).val, hj0⟩) (fun a => by
      match a with
      | ⟨0, _⟩ =>
        show (j 0).val = if n = 1 then 0 else (j 0).val
        split
        · omega
        · rfl)]

/-- A vector reshaped to a row is the vector broadcast along the columns of a `1 × n` array. -/
theorem reshape_row_eq_broadcast {α : Type} {n : ℕ} (y : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ y h = broadcastInDim ⟨2, ![1, n]⟩ ![1] hb y := by
  funext j
  have hj1 : (j 1).val < n := (j 1).isLt
  have hj0 : (j 0).val = 0 := by have : (j 0).val < 1 := (j 0).isLt; omega
  rw [shapeCast_apply y h j (ix1 ⟨(j 1).val, hj1⟩) (by
      rw [Shape.rowMajor_val_one, Shape.rowMajor_val_two]
      show (j 1).val = (j 0).val * n + (j 1).val
      rw [hj0, Nat.zero_mul, Nat.zero_add]),
    broadcastInDim_apply ![1] hb y j (ix1 ⟨(j 1).val, hj1⟩) (fun a => by
      match a with
      | ⟨0, _⟩ =>
        show (j 1).val = if n = 1 then 0 else (j 1).val
        split
        · omega
        · rfl)]

end Cert.Lib

end
-- ==== Proof.Stretch2.lean ====
/-
  What the last region finds.  Between the second and the last region the kernel program runs a stretch of host
  operations: the per-crystal normalisation of the gated features (counts, means, variances and inverse deviations as
  scatter-adds onto zero tables, the gain and offset folded into two per-crystal tables, and two gathers), then the four
  weight transposes and the four bias vectors laid out as rows.  Read off the stretch, the normalised features are the
  normalisation in the kernel's arrangement of what the second region left; the reference's stages up to its normalised
  features are the same normalisation in the other arrangement; the weights and bias rows are the same arrays in the
  two programs, and the angle features are the launched argument.
-/
import proofs.«117240_j46248207843562_2_alg».proof.Proof.Gen.KernelIdeal.Frame
import proofs.«117240_j46248207843562_2_alg».proof.Proof.Gen.ReferenceIdeal.Read
import proofs.«117240_j46248207843562_2_alg».proof.Proof.Bounds
import proofs.«117240_j46248207843562_2_alg».proof.Proof.LibUnitAxis
import proofs.«117240_j46248207843562_2_alg».proof.Proof.NormLaw
import Idealize.ShloMosaic.Lib.StableHlo.Run
import Idealize.ShloMosaic.Lib.Pipeline.Value
import Idealize.ShloMosaic.PureOps.Ideal.Laws

set_option maxRecDepth 16384

noncomputable section

namespace Cert.Stretch2

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## The arrays region 2 finds: the arguments, the weights and the biases -/

/-- The angle features reach the last region as launched. -/
theorem arg1_eq : Cert.KernelIdeal.Gen.V5 m ρ c Cert.KernelIdeal.main_arg1 = m ((c : Thread Cert.KernelIdeal.nD Cert.KernelIdeal.τ).loc Cert.KernelIdeal.main_arg1) :=
  Cert.KernelIdeal.Bound.W5_arg1 m ρ c

set_option maxHeartbeats 2000000 in
/-- A transposed weight: the same operation of the same argument in the two programs. -/
theorem v116_eq : Cert.KernelIdeal.Gen.V5 m ρ c Cert.KernelIdeal.main_v116
    = Cert.ReferenceIdeal.Read.val_main_v103 (F := Ideal) (m ((c : Thread Cert.KernelIdeal.nD Cert.KernelIdeal.τ).loc Cert.KernelIdeal.main_arg10)) := by
  show StableHlo.after Cert.KernelIdeal.Gen.hostOps2 (Cert.KernelIdeal.Gen.W4 m ρ c) (Proc.devRef .tc Cert.KernelIdeal.main_v116) = _
  after_results
  rw [Cert.KernelIdeal.Bound.W4_arg10]
  rfl

set_option maxHeartbeats 2000000 in
/-- A transposed weight: the same operation of the same argument in the two programs. -/
theorem v117_eq : Cert.KernelIdeal.Gen.V5 m ρ c Cert.KernelIdeal.main_v117
    = Cert.ReferenceIdeal.Read.val_main_v109 (F := Ideal) (m ((c : Thread Cert.KernelIdeal.nD Cert.KernelIdeal.τ).loc Cert.KernelIdeal.main_arg12)) := by
  show StableHlo.after Cert.KernelIdeal.Gen.hostOps2 (Cert.KernelIdeal.Gen.W4 m ρ c) (Proc.devRef .tc Cert.KernelIdeal.main_v117) = _
  after_results
  rw [Cert.KernelIdeal.Bound.W4_arg12]
  rfl

set_option maxHeartbeats 2000000 in
/-- A transposed weight: the same operation of the same argument in the two programs. -/
theorem v118_eq : Cert.KernelIdeal.Gen.V5 m ρ c Cert.KernelIdeal.main_v118
    = Cert.ReferenceIdeal.Read.val_main_v115 (F := Ideal) (m ((c : Thread Cert.KernelIdeal.nD Cert.KernelIdeal.τ).loc Cert.KernelIdeal.main_arg14)) := by
  show StableHlo.after Cert.KernelIdeal.Gen.hostOps2 (Cert.KernelIdeal.Gen.W4 m ρ c) (Proc.devRef .tc Cert.KernelIdeal.main_v118) = _
  after_results
  rw [Cert.KernelIdeal.Bound.W4_arg14]
  rfl

set_option maxHeartbeats 2000000 in
/-- A transposed weight: the same operation of the same argument in the two programs. -/
theorem v119_eq : Cert.KernelIdeal.Gen.V5 m ρ c Cert.KernelIdeal.main_v119
    = Cert.ReferenceIdeal.Read.val_main_v121 (F := Ideal) (m ((c : Thread Cert.KernelIdeal.nD Cert.KernelIdeal.τ).loc Cert.KernelIdeal.main_arg16)) := by
  show StableHlo.after Cert.KernelIdeal.Gen.hostOps2 (Cert.KernelIdeal.Gen.W4 m ρ c) (Proc.devRef .tc Cert.KernelIdeal.main_v119) = _
  after_results
  rw [Cert.KernelIdeal.Bound.W4_arg16]
  rfl

set_option maxHeartbeats 2000000 in
/-- A bias row: the kernel program reshapes the bias vector to one row, the reference broadcasts it along the row's
    axis; both read the vector at the column. -/
theorem v120_eq : Cert.KernelIdeal.Gen.V5 m ρ c Cert.KernelIdeal.main_v120
    = Cert.ReferenceIdeal.Read.val_main_v105 (F := Ideal) (m ((c : Thread Cert.KernelIdeal.nD Cert.KernelIdeal.τ).loc Cert.KernelIdeal.main_arg11)) := by
  show StableHlo.after Cert.KernelIdeal.Gen.hostOps2 (Cert.KernelIdeal.Gen.W4 m ρ c) (Proc.devRef .tc Cert.KernelIdeal.main_v120) = _
  after_results
  rw [Cert.KernelIdeal.Bound.W4_arg11]
  exact Cert.Lib.reshape_row_eq_broadcast (n := 32) (m ((c : Thread Cert.KernelIdeal.nD Cert.KernelIdeal.τ).loc Cert.KernelIdeal.main_arg11)) Cert.KernelIdeal.Facts₀.shapeCasts_S32_S1x32 Cert.ReferenceIdeal.Facts₀.bcast_S32_S1x32_1

set_option maxHeartbeats 2000000 in
/-- A bias row: the kernel program reshapes the bias vector to one row, the reference broadcasts it along the row's
    axis; both read the vector at the column. -/
theorem v121_eq : Cert.KernelIdeal.Gen.V5 m ρ c Cert.KernelIdeal.main_v121
    = Cert.ReferenceIdeal.Read.val_main_v112 (F := Ideal) (m ((c : Thread Cert.KernelIdeal.nD Cert.KernelIdeal.τ).loc Cert.KernelIdeal.main_arg13)) := by
  show StableHlo.after Cert.KernelIdeal.Gen.hostOps2 (Cert.KernelIdeal.Gen.W4 m ρ c) (Proc.devRef .tc Cert.KernelIdeal.main_v121) = _
  after_results
  rw [Cert.KernelIdeal.Bound.W4_arg13]
  exact Cert.Lib.reshape_row_eq_broadcast (n := 64) (m ((c : Thread Cert.KernelIdeal.nD Cert.KernelIdeal.τ).loc Cert.KernelIdeal.main_arg13)) Cert.KernelIdeal.Facts₀.shapeCasts_S64_S1x64 Cert.ReferenceIdeal.Facts₀.bcast_S64_S1x64_1

set_option maxHeartbeats 2000000 in
/-- A bias row: the kernel program reshapes the bias vector to one row, the reference broadcasts it along the row's
    axis; both read the vector at the column. -/
theorem v122_eq : Cert.KernelIdeal.Gen.V5 m ρ c Cert.KernelIdeal.main_v122
    = Cert.ReferenceIdeal.Read.val_main_v117 (F := Ideal) (m ((c : Thread Cert.KernelIdeal.nD Cert.KernelIdeal.τ).loc Cert.KernelIdeal.main_arg15)) := by
  show StableHlo.after Cert.KernelIdeal.Gen.hostOps2 (Cert.KernelIdeal.Gen.W4 m ρ c) (Proc.devRef .tc Cert.KernelIdeal.main_v122) = _
  after_results
  rw [Cert.KernelIdeal.Bound.W4_arg15]
  exact Cert.Lib.reshape_row_eq_broadcast (n := 32) (m ((c : Thread Cert.KernelIdeal.nD Cert.KernelIdeal.τ).loc Cert.KernelIdeal.main_arg15)) Cert.KernelIdeal.Facts₀.shapeCasts_S32_S1x32 Cert.ReferenceIdeal.Facts₀.bcast_S32_S1x32_1

set_option maxHeartbeats 2000000 in
/-- A bias row: the kernel program reshapes the bias vector to one row, the reference broadcasts it along the row's
    axis; both read the vector at the column. -/
theorem v123_eq : Cert.KernelIdeal.Gen.V5 m ρ c Cert.KernelIdeal.main_v123
    = Cert.ReferenceIdeal.Read.val_main_v124 (F := Ideal) (m ((c : Thread Cert.KernelIdeal.nD Cert.KernelIdeal.τ).loc Cert.KernelIdeal.main_arg17)) := by
  show StableHlo.after Cert.KernelIdeal.Gen.hostOps2 (Cert.KernelIdeal.Gen.W4 m ρ c) (Proc.devRef .tc Cert.KernelIdeal.main_v123) = _
  after_results
  rw [Cert.KernelIdeal.Bound.W4_arg17]
  exact Cert.Lib.reshape_row_eq_broadcast (n := 64) (m ((c : Thread Cert.KernelIdeal.nD Cert.KernelIdeal.τ).loc Cert.KernelIdeal.main_arg17)) Cert.KernelIdeal.Facts₀.shapeCasts_S64_S1x64 Cert.ReferenceIdeal.Facts₀.bcast_S64_S1x64_1

/-! ## The normalised features -/

set_option maxHeartbeats 4000000 in
/-- The kernel program's host operations before the last region compute the normalisation with the gain and offset
    folded into per-crystal tables, of the gated features the second region left. -/
theorem v115_eq : (Cert.KernelIdeal.Gen.V5 m ρ c Cert.KernelIdeal.main_v115 : FVec Ideal (Cert.NormLaw.SNd 64) .f32)
    = Cert.NormLaw.normK 64 Cert.KernelIdeal.scatter_S2048x1_S1000000x1_S1000000x1_1_0_0_1 Cert.KernelIdeal.scatter_S2048x64_S1000000x1_S1000000x64_1_0_0_1 Cert.KernelIdeal.gather_S2048x64_S1000000x1_S1000000x64_1_0_n_n_0_1_164
        Cert.KernelIdeal.Facts₀.bcast_S_S1000000x1 Cert.KernelIdeal.Facts₀.bcast_S_S2048x1 Cert.KernelIdeal.Facts₀.bcast_S_S2048x64 Cert.KernelIdeal.Facts₀.bcast_S_S1000000 Cert.KernelIdeal.Facts₀.bcast_S1000000_S1000000x1_0 Cert.KernelIdeal.Facts₀.bcast_S2048x1_S2048x64_0_1 Cert.KernelIdeal.Facts₀.bcast_S64_S1x64_1 Cert.KernelIdeal.Facts₀.bcast_S1x64_S2048x64_0_1
        (Cert.KernelIdeal.Gen.W4 m ρ c (Proc.devRef .tc Cert.KernelIdeal.main_v64)) (m ((c : Thread Cert.KernelIdeal.nD Cert.KernelIdeal.τ).loc Cert.KernelIdeal.main_arg3)) (m ((c : Thread Cert.KernelIdeal.nD Cert.KernelIdeal.τ).loc Cert.KernelIdeal.main_arg8)) (m ((c : Thread Cert.KernelIdeal.nD Cert.KernelIdeal.τ).loc Cert.KernelIdeal.main_arg9)) := by
  show StableHlo.after Cert.KernelIdeal.Gen.hostOps2 (Cert.KernelIdeal.Gen.W4 m ρ c) (Proc.devRef .tc Cert.KernelIdeal.main_v115) = _
  after_results_simp
  rw [Cert.KernelIdeal.Bound.W4_arg3, Cert.KernelIdeal.Bound.W4_arg8, Cert.KernelIdeal.Bound.W4_arg9]
  rfl

/-- The reference's stages up to the normalised features are the normalisation centring, scaling, then applying
    gain and offset per row, of its gated features. -/
theorem v102_eq (x0 : (⟨Cert.ReferenceIdeal.S400000x64, .f32⟩ : BufTy).Contents (Elt Ideal)) (x1 : (⟨Cert.ReferenceIdeal.S1000000x64, .f32⟩ : BufTy).Contents (Elt Ideal)) (x2 : (⟨Cert.ReferenceIdeal.S1000000x2, .i32⟩ : BufTy).Contents (Elt Ideal)) (x3 : (⟨Cert.ReferenceIdeal.S1000000, .i32⟩ : BufTy).Contents (Elt Ideal)) (x4 : (⟨Cert.ReferenceIdeal.S128x192, .f32⟩ : BufTy).Contents (Elt Ideal)) (x5 : (⟨Cert.ReferenceIdeal.S1x64, .f32⟩ : BufTy).Contents (Elt Ideal)) (x6 x7 : (⟨Cert.ReferenceIdeal.S128, .f32⟩ : BufTy).Contents (Elt Ideal)) (x8 x9 : (⟨Cert.ReferenceIdeal.S64, .f32⟩ : BufTy).Contents (Elt Ideal)) :
    Cert.ReferenceIdeal.Read.val_main_v102 (F := Ideal) x0 x1 x2 x3 x4 x5 x6 x7 x8 x9
      = Cert.NormLaw.normR 64 Cert.ReferenceIdeal.scatter_S2048x1_S1000000x1_S1000000x1_1_0_0_1 Cert.ReferenceIdeal.scatter_S2048x64_S1000000x1_S1000000x64_1_0_0_1 Cert.ReferenceIdeal.gather_S2048x64_S1000000x1_S1000000x64_1_0_n_n_0_1_164
        Cert.ReferenceIdeal.Facts₀.bcast_S_S1000000x1 Cert.ReferenceIdeal.Facts₀.bcast_S_S2048x1 Cert.ReferenceIdeal.Facts₀.bcast_S_S2048x64 Cert.ReferenceIdeal.Facts₀.bcast_S_S1000000 Cert.ReferenceIdeal.Facts₀.bcast_S1000000_S1000000x1_0 Cert.ReferenceIdeal.Facts₀.bcast_S2048x1_S2048x64_0_1 Cert.ReferenceIdeal.Facts₀.bcast_S64_S1x64_1 Cert.ReferenceIdeal.Facts₀.bcast_S1x64_S1000000x64_0_1
        (Cert.ReferenceIdeal.Read.val_main_v60 (F := Ideal) x0 x1 x2 x3 x4 x5 x6 x7) x3 x8 x9 := rfl

end Cert.Stretch2

end
-- ==== Proof.Bridge.lean ====
/-
  The assembly: the kernel program's result array is the reference's result. The program is five stages, and at
  each boundary the array the kernel program holds is the reference's intermediate value of the same arguments:
  the fused projection (region 0 against the reference's product of the concatenated features), its per-crystal
  normalisation (the table arrangement against the per-row arrangement, equal on real arrays), the gated features
  (region 1), their normalisation, and the two residual layers with the final combination (region 2). The
  precondition makes every float argument real, and each stage keeps its array real, which is what the
  normalisation law needs.
-/
import proofs.«117240_j46248207843562_2_alg».proof.Proof.Gen.KernelIdeal.Frame
import proofs.«117240_j46248207843562_2_alg».proof.Proof.Gen.ReferenceIdeal.Read
import proofs.«117240_j46248207843562_2_alg».proof.Proof.Gen.Pre_finite_inputs
import proofs.«117240_j46248207843562_2_alg».proof.Proof.Spec
import proofs.«117240_j46248207843562_2_alg».proof.Proof.Reals
import proofs.«117240_j46248207843562_2_alg».proof.Proof.PreReal
import proofs.«117240_j46248207843562_2_alg».proof.Proof.NormLaw
import proofs.«117240_j46248207843562_2_alg».proof.Proof.NormInst
import proofs.«117240_j46248207843562_2_alg».proof.Proof.FuseKernel
import proofs.«117240_j46248207843562_2_alg».proof.Proof.FuseRef
import proofs.«117240_j46248207843562_2_alg».proof.Proof.GateKernel
import proofs.«117240_j46248207843562_2_alg».proof.Proof.GateRef
import proofs.«117240_j46248207843562_2_alg».proof.Proof.FinalKernel
import proofs.«117240_j46248207843562_2_alg».proof.Proof.FinalRef
import proofs.«117240_j46248207843562_2_alg».proof.Proof.Stretch0
import proofs.«117240_j46248207843562_2_alg».proof.Proof.Stretch1
import proofs.«117240_j46248207843562_2_alg».proof.Proof.Stretch2

noncomputable section

namespace Cert.Bridge

open Idealize.ShloMosaic Idealize.ShloMosaic.TcCoe Idealize.SL.Sem
open Cert.Spec

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

set_option maxHeartbeats 1000000 in
/-- On arguments the precondition admits, the kernel program's result array at the last boundary is the reference's
    last stage of the same arguments. -/
theorem result_eq
    (hpre : Cert.Pre_finite_inputs.fn (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) = fun _ => 1#1) :
    Cert.KernelIdeal.Gen.W6 m ρ c (Proc.devRef .tc Cert.KernelIdeal.main_v124)
      = Cert.ReferenceIdeal.Read.val_main_v130 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) := by
  obtain ⟨r0, r1, r4, r5, r6, r7, r8, r9, r10, r11, r12, r13, r14, r15, r16, r17⟩ :=
    Cert.PreReal.pre_real (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) hpre
  -- the fused projection
  have hA : (Cert.KernelIdeal.Gen.W2 m ρ c (Proc.devRef .tc Cert.KernelIdeal.main_v12) : Cert.Spec.Arr 1000000 128)
      = Cert.ReferenceIdeal.Read.val_main_v10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4)) := by
    refine (Cert.KernelIdeal.Gen.W2_arr m ρ c 4).trans ?_
    rw [Cert.KernelIdeal.FuseValue.fuse_region (Cert.KernelIdeal.Gen.V1 m ρ) c, Cert.Stretch0.arg1_eq, Cert.Stretch0.v8_eq,
      Cert.Stretch0.v10_eq, Cert.Stretch0.v11_eq]
    exact (Cert.FuseRef.fuse_ref (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4))).symm
  have hAr : AllReal (Cert.ReferenceIdeal.Read.val_main_v10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4))) := by
    rw [Cert.FuseRef.fuse_ref]
    exact fuse_real r1 (Cert.Stretch0.v7_real _ _ r0) (topRows_real (Cert.Stretch0.v9_real _ r4))
      (botRows_real (Cert.Stretch0.v9_real _ r4))
  -- its normalisation
  have hB : Cert.KernelIdeal.Gen.V3 m ρ c Cert.KernelIdeal.main_v63
      = Cert.ReferenceIdeal.Read.val_main_v52 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg6)) (m ((c : Thread Cert.KernelIdeal.nD Cert.KernelIdeal.τ).loc Cert.KernelIdeal.main_arg7)) := by
    refine (Cert.Stretch1.v63_eq m ρ c).trans ?_
    rw [hA, Cert.NormInst.scatter1_eq, Cert.NormInst.scatter128_eq, Cert.NormInst.gather128_eq]
    refine (Cert.NormLaw.norm_law (d := 128) (dS1 := Cert.ReferenceIdeal.scatter_S2048x1_S1000000x1_S1000000x1_1_0_0_1) (dS := Cert.ReferenceIdeal.scatter_S2048x128_S1000000x1_S1000000x128_1_0_0_1) (dG := Cert.ReferenceIdeal.gather_S2048x128_S1000000x1_S1000000x128_1_0_n_n_0_1_1128)
      (h0N1 := Cert.KernelIdeal.Gen.bcast_S_S1000000x1) (h0T1 := Cert.KernelIdeal.Gen.bcast_S_S2048x1) (h0Td := Cert.KernelIdeal.Gen.bcast_S_S2048x128) (h0N := Cert.KernelIdeal.Gen.bcast_S_S1000000)
      (hNN1 := Cert.KernelIdeal.Gen.bcast_S1000000_S1000000x1_0) (hT1Td := Cert.KernelIdeal.Gen.bcast_S2048x1_S2048x128_0_1) (hd1d := Cert.KernelIdeal.Gen.bcast_S128_S1x128_1)
      (h1dTd := Cert.KernelIdeal.Gen.bcast_S1x128_S2048x128_0_1) (h1dNd := Cert.ReferenceIdeal.Gen.bcast_S1x128_S1000000x128_0_1)
      (hone := Cert.NormInst.one_pos) (heps := Cert.NormInst.eps_pos) (hd := by decide) (hcol := Cert.NormInst.col128)
      (X := Cert.ReferenceIdeal.Read.val_main_v10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4))) (seg := (m ((c : Thread Cert.KernelIdeal.nD Cert.KernelIdeal.τ).loc Cert.KernelIdeal.main_arg3))) (g := (m ((c : Thread Cert.KernelIdeal.nD Cert.KernelIdeal.τ).loc Cert.KernelIdeal.main_arg6))) (b := (m ((c : Thread Cert.KernelIdeal.nD Cert.KernelIdeal.τ).loc Cert.KernelIdeal.main_arg7)))
      (hX := hAr) (hg := r6) (hb := r7)).trans ?_
    exact (Cert.Stretch1.v52_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg6)) (m ((c : Thread Cert.KernelIdeal.nD Cert.KernelIdeal.τ).loc Cert.KernelIdeal.main_arg7))).symm
  have hBr : AllReal (Cert.ReferenceIdeal.Read.val_main_v52 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg6)) (m ((c : Thread Cert.KernelIdeal.nD Cert.KernelIdeal.τ).loc Cert.KernelIdeal.main_arg7))) := by
    rw [Cert.Stretch1.v52_eq]
    exact Cert.NormLaw.normR_real (d := 128) (dS1 := Cert.ReferenceIdeal.scatter_S2048x1_S1000000x1_S1000000x1_1_0_0_1) (dS := Cert.ReferenceIdeal.scatter_S2048x128_S1000000x1_S1000000x128_1_0_0_1) (dG := Cert.ReferenceIdeal.gather_S2048x128_S1000000x1_S1000000x128_1_0_n_n_0_1_1128)
      (h0N1 := Cert.KernelIdeal.Gen.bcast_S_S1000000x1) (h0T1 := Cert.KernelIdeal.Gen.bcast_S_S2048x1) (h0Td := Cert.KernelIdeal.Gen.bcast_S_S2048x128) (h0N := Cert.KernelIdeal.Gen.bcast_S_S1000000)
      (hNN1 := Cert.KernelIdeal.Gen.bcast_S1000000_S1000000x1_0) (hT1Td := Cert.KernelIdeal.Gen.bcast_S2048x1_S2048x128_0_1) (hd1d := Cert.KernelIdeal.Gen.bcast_S128_S1x128_1)
      (h1dNd := Cert.ReferenceIdeal.Gen.bcast_S1x128_S1000000x128_0_1)
      (hone := Cert.NormInst.one_pos) (heps := Cert.NormInst.eps_pos)
      (X := Cert.ReferenceIdeal.Read.val_main_v10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg4))) (seg := (m ((c : Thread Cert.KernelIdeal.nD Cert.KernelIdeal.τ).loc Cert.KernelIdeal.main_arg3))) (g := (m ((c : Thread Cert.KernelIdeal.nD Cert.KernelIdeal.τ).loc Cert.KernelIdeal.main_arg6))) (b := (m ((c : Thread Cert.KernelIdeal.nD Cert.KernelIdeal.τ).loc Cert.KernelIdeal.main_arg7)))
      (hX := hAr) (hg := r6) (hb := r7)
  -- the gated features
  have hC : (Cert.KernelIdeal.Gen.W4 m ρ c (Proc.devRef .tc Cert.KernelIdeal.main_v64) : Cert.Spec.Arr 1000000 64)
      = Cert.ReferenceIdeal.Read.val_main_v60 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
    refine (Cert.KernelIdeal.Gen.W4_arr m ρ c 2).trans ?_
    rw [Cert.KernelIdeal.GateValue.gate_region (Cert.KernelIdeal.Gen.V3 m ρ) c, hB, Cert.Stretch1.arg5_eq]
    exact (Cert.GateRef.gate_ref (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))).symm
  have hCr : AllReal (Cert.ReferenceIdeal.Read.val_main_v60 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))) := by
    rw [Cert.GateRef.gate_ref]
    exact gate_real hBr r5
  -- their normalisation
  have hD : Cert.KernelIdeal.Gen.V5 m ρ c Cert.KernelIdeal.main_v115
      = Cert.ReferenceIdeal.Read.val_main_v102 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
    refine (Cert.Stretch2.v115_eq m ρ c).trans ?_
    rw [hC, Cert.NormInst.scatter1_eq, Cert.NormInst.scatter64_eq, Cert.NormInst.gather64_eq]
    refine (Cert.NormLaw.norm_law (d := 64) (dS1 := Cert.ReferenceIdeal.scatter_S2048x1_S1000000x1_S1000000x1_1_0_0_1) (dS := Cert.ReferenceIdeal.scatter_S2048x64_S1000000x1_S1000000x64_1_0_0_1) (dG := Cert.ReferenceIdeal.gather_S2048x64_S1000000x1_S1000000x64_1_0_n_n_0_1_164)
      (h0N1 := Cert.KernelIdeal.Gen.bcast_S_S1000000x1) (h0T1 := Cert.KernelIdeal.Gen.bcast_S_S2048x1) (h0Td := Cert.KernelIdeal.Gen.bcast_S_S2048x64) (h0N := Cert.KernelIdeal.Gen.bcast_S_S1000000)
      (hNN1 := Cert.KernelIdeal.Gen.bcast_S1000000_S1000000x1_0) (hT1Td := Cert.KernelIdeal.Gen.bcast_S2048x1_S2048x64_0_1) (hd1d := Cert.KernelIdeal.Gen.bcast_S64_S1x64_1)
      (h1dTd := Cert.KernelIdeal.Gen.bcast_S1x64_S2048x64_0_1) (h1dNd := Cert.ReferenceIdeal.Gen.bcast_S1x64_S1000000x64_0_1)
      (hone := Cert.NormInst.one_pos) (heps := Cert.NormInst.eps_pos) (hd := by decide) (hcol := Cert.NormInst.col64)
      (X := Cert.ReferenceIdeal.Read.val_main_v60 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))) (seg := (m ((c : Thread Cert.KernelIdeal.nD Cert.KernelIdeal.τ).loc Cert.KernelIdeal.main_arg3))) (g := (m ((c : Thread Cert.KernelIdeal.nD Cert.KernelIdeal.τ).loc Cert.KernelIdeal.main_arg8))) (b := (m ((c : Thread Cert.KernelIdeal.nD Cert.KernelIdeal.τ).loc Cert.KernelIdeal.main_arg9)))
      (hX := hCr) (hg := r8) (hb := r9)).trans ?_
    exact (Cert.Stretch2.v102_eq (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))).symm
  -- the residual layers and the final combination
  refine (Cert.KernelIdeal.Gen.W6_arr m ρ c 10).trans ?_
  rw [Cert.KernelIdeal.FinalValue.final_region (Cert.KernelIdeal.Gen.V5 m ρ) c, hD, Cert.Stretch2.arg1_eq, Cert.Stretch2.v116_eq,
    Cert.Stretch2.v120_eq, Cert.Stretch2.v117_eq, Cert.Stretch2.v121_eq, Cert.Stretch2.v118_eq, Cert.Stretch2.v122_eq,
    Cert.Stretch2.v119_eq, Cert.Stretch2.v123_eq]
  exact (Cert.FinalRef.final_ref (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17))).symm

end Cert.Bridge

end
-- ==== Proof.lean ====
/-
  The angle update of a crystal graph network, computed two ways, gives one array on the extended reals.

  Per angle row the computation is: project the row's 64 own features and the 128 features of its two neighbour edges
  (gathered by index) with one 192-column weight; normalise each of the 128 projected features over the rows of the
  row's crystal (mean, variance + ε, inverse square root, gain and offset); gate the rectified first 64 features by
  tanh of a masked sum of the last 64; normalise again over crystals; apply two residual layers
  `x + relu(x·A + a)·B + b`; add the angle features, rectify, and scale by the binary value of 1/sqrt 2.

  One program does the projection as two block products added (own features with the first 64 weight rows, neighbour
  features with the last 128), folds each normalisation's gain and offset into per-crystal tables `g·r` and
  `b − μ·(g·r)` before gathering them, and runs the dense stages block by block over 125 blocks of 8000 rows with
  operands rounded to a narrower format (the identity on the extended reals). The other multiplies the concatenated
  192 features with the whole weight and normalises as `((x − μ)·r)·g + b`. The two agree because a sum over 192 terms
  splits at 64, because sums and products are exact, and because the normalisation's two arrangements are one
  polynomial on real numbers — where the precondition (every float input finite) is used: it makes every projected
  feature real, every count a positive real, every variance non-negative, so every inverse deviation real.

  The stage modules prove each dense stage equal to one whole-array function (`Spec`) on both sides, the host
  stretches between the launches equal to the normalisation's two arrangements (`NormLaw`), and `Bridge` chains them.
  Here the five claims are assembled: the two kernel programs' runs are the generated frames, the reference's run is
  its generated run, no operation was rewritten by the idealisation, and the results agree by `Bridge.result_eq`.
-/
import proofs.«117240_j46248207843562_2_alg».proof.Defs
import proofs.«117240_j46248207843562_2_alg».proof.Proof.Gen.Kernel
import proofs.«117240_j46248207843562_2_alg».proof.Proof.Gen.Kernel.Skeleton
import proofs.«117240_j46248207843562_2_alg».proof.Proof.Gen.Kernel.Launch
import proofs.«117240_j46248207843562_2_alg».proof.Proof.Gen.Kernel.Points
import proofs.«117240_j46248207843562_2_alg».proof.Proof.Gen.Kernel.Frame
import proofs.«117240_j46248207843562_2_alg».proof.Proof.Gen.KernelIdeal
import proofs.«117240_j46248207843562_2_alg».proof.Proof.Gen.KernelIdeal.Skeleton
import proofs.«117240_j46248207843562_2_alg».proof.Proof.Gen.KernelIdeal.Launch
import proofs.«117240_j46248207843562_2_alg».proof.Proof.Gen.KernelIdeal.Points
import proofs.«117240_j46248207843562_2_alg».proof.Proof.Gen.KernelIdeal.Frame
import proofs.«117240_j46248207843562_2_alg».proof.Proof.Gen.ReferenceIdeal
import proofs.«117240_j46248207843562_2_alg».proof.Proof.Gen.ReferenceIdeal.Run
import proofs.«117240_j46248207843562_2_alg».proof.Proof.Gen.ReferenceIdeal.Read
import proofs.«117240_j46248207843562_2_alg».proof.Proof.Gen.Pre_finite_inputs
import proofs.«117240_j46248207843562_2_alg».proof.Proof.KRun
import proofs.«117240_j46248207843562_2_alg».proof.Proof.Bridge
import Idealize.ShloMosaic.Adequacy
import Idealize.ShloMosaic.Init

noncomputable section

namespace Cert.Proof

open Idealize.ShloMosaic Idealize.SL.Sem Cert.Kernel

/-- At the exact instance the kernel program's result array and the reference's are one array, on arguments that
    agree and that the precondition admits. -/
theorem algebraic : Cert.algebraic_KernelIdeal_ReferenceIdeal := by
  intro m ρ m' ρ' hpre hagree
  refine ⟨_, Cert.KernelIdeal.ValueRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v130_eq]
  obtain ⟨a0, a1, a2, a3, a4, a5, a6, a7, a8, a9, a10, a11, a12, a13, a14, a15, a16, a17⟩ := hagree c
  rw [a0, a1, a2, a3, a4, a5, a6, a7, a8, a9, a10, a11, a12, a13, a14, a15, a16, a17]
  exact (Cert.Bridge.result_eq m ρ c (hpre c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
